-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4x128x192x192 : Shape := ⟨5, ![2, 4, 128, 192, 192]⟩
abbrev S2x1x128x192x192 : Shape := ⟨5, ![2, 1, 128, 192, 192]⟩
abbrev S2x128x192x192 : Shape := ⟨4, ![2, 128, 192, 192]⟩
abbrev S_ : Shape := ⟨0, ![]⟩

class Facts : Prop where
  bcast_S_S2x4x128x192x192 : S_.BroadcastsInDim S2x4x128x192x192 (![] : Fin 0 → Fin S2x4x128x192x192.rank)
  reducesTo_S2x4x128x192x192_S_d0_1_2_3_4 : S2x4x128x192x192.ReducesTo [0, 1, 2, 3, 4] S_
  h_S_ : 0 < S_.numel
  bcast_S_S2x128x192x192 : S_.BroadcastsInDim S2x128x192x192 (![] : Fin 0 → Fin S2x128x192x192.rank)
  reducesTo_S2x128x192x192_S_d0_1_2_3 : S2x128x192x192.ReducesTo [0, 1, 2, 3] S_

variable [Facts]

def fn {F : FTy → Type} [FloatOps F] (main_arg0 : FVec F S2x4x128x192x192 .f32) (main_arg1 : IVec S2x1x128x192x192 32) (main_arg2 : FVec F S2x128x192x192 .f32) : IVec S_ 1 :=
  let main_v0 : FVec F S2x4x128x192x192 .f32 := Host.absf main_arg0
  let main_cst : FVec F S_ .f32 := constant S_ .f32 0x7F800000#32
  let main_v1 : FVec F S2x4x128x192x192 .f32 := broadcastInDim S2x4x128x192x192 ![] bcast_S_S2x4x128x192x192 main_cst
  let main_v2 : IVec S2x4x128x192x192 1 := cmpf .olt main_v0 main_v1
  let main_c : IVec S_ 1 := constantI S_ 1 1#1
  let main_v3 : IVec S_ 1 := (fun x v => Host.reduce IntOp.andi x v reducesTo_S2x4x128x192x192_S_d0_1_2_3_4 h_S_) main_v2 main_c
  let main_v4 : FVec F S2x128x192x192 .f32 := Host.absf main_arg2
  let main_cst_0 : FVec F S_ .f32 := constant S_ .f32 0x7F800000#32
  let main_v5 : FVec F S2x128x192x192 .f32 := broadcastInDim S2x128x192x192 ![] bcast_S_S2x128x192x192 main_cst_0
  let main_v6 : IVec S2x128x192x192 1 := cmpf .olt main_v4 main_v5
  let main_c_1 : IVec S_ 1 := constantI S_ 1 1#1
  let main_v7 : IVec S_ 1 := (fun x v => Host.reduce IntOp.andi x v reducesTo_S2x128x192x192_S_d0_1_2_3 h_S_) main_v6 main_c_1
  let main_v8 : IVec S_ 1 := andi main_v3 main_v7
  main_v8
-- ==== Kernel.lean ====
abbrev S2x4x128x192x192 : Shape := ⟨5, ![2, 4, 128, 192, 192]⟩
abbrev S2x1x128x192x192 : Shape := ⟨5, ![2, 1, 128, 192, 192]⟩
abbrev S2x128x192x192 : Shape := ⟨4, ![2, 128, 192, 192]⟩
abbrev S2x4x128x36864 : Shape := ⟨4, ![2, 4, 128, 36864]⟩
abbrev S2x128x36864 : Shape := ⟨3, ![2, 128, 36864]⟩
abbrev S2x1x1 : Shape := ⟨3, ![2, 1, 1]⟩
abbrev S2x1x3 : Shape := ⟨3, ![2, 1, 3]⟩
abbrev S1x4x8x36864 : Shape := ⟨4, ![1, 4, 8, 36864]⟩
abbrev S1x8x36864 : Shape := ⟨3, ![1, 8, 36864]⟩
abbrev S1x1x1 : Shape := ⟨3, ![1, 1, 1]⟩
abbrev S1x1x3 : Shape := ⟨3, ![1, 1, 3]⟩
abbrev S4x8x36864 : Shape := ⟨3, ![4, 8, 36864]⟩
abbrev S8x36864 : Shape := ⟨2, ![8, 36864]⟩
abbrev S8 : Shape := ⟨1, ![8]⟩
abbrev S8x1 : Shape := ⟨2, ![8, 1]⟩
abbrev S1 : Shape := ⟨1, ![1]⟩
abbrev S1x1 : Shape := ⟨2, ![1, 1]⟩
abbrev S2 : Shape := ⟨1, ![2]⟩
abbrev S2x3 : Shape := ⟨2, ![2, 3]⟩
abbrev S_ : Shape := ⟨0, ![]⟩

abbrev nBuf : Space → Nat
  | .hbm => 32
  | .vmem => 21
  | .smem => 0
  | _ => 0

abbrev bufTy : (tb : Table) → Fin (tcTables nBuf tb) → BufTy
  | .hbm, ⟨0, _⟩ => ⟨S2x4x128x192x192, .f32⟩
  | .hbm, ⟨1, _⟩ => ⟨S2x1x128x192x192, .i32⟩
  | .hbm, ⟨2, _⟩ => ⟨S2x128x192x192, .f32⟩
  | .hbm, ⟨3, _⟩ => ⟨S2x128x192x192, .i32⟩
  | .hbm, ⟨4, _⟩ => ⟨S2x4x128x36864, .f32⟩
  | .hbm, ⟨5, _⟩ => ⟨S2x128x36864, .i32⟩
  | .hbm, ⟨6, _⟩ => ⟨S2x128x36864, .f32⟩
  | .hbm, ⟨7, _⟩ => ⟨S2x1x1, .f32⟩
  | .hbm, ⟨8, _⟩ => ⟨S2x1x3, .f32⟩
  | .hbm, ⟨9, _⟩ => ⟨S2x1x3, .f32⟩
  | .hbm, ⟨10, _⟩ => ⟨S2x1x3, .f32⟩
  | .hbm, ⟨11, _⟩ => ⟨S2x1x3, .f32⟩
  | .hbm, ⟨12, _⟩ => ⟨S2, .f32⟩
  | .hbm, ⟨13, _⟩ => ⟨S2x3, .f32⟩
  | .hbm, ⟨14, _⟩ => ⟨S2x3, .f32⟩
  | .hbm, ⟨15, _⟩ => ⟨S2x3, .f32⟩
  | .hbm, ⟨16, _⟩ => ⟨S2x3, .f32⟩
  | .hbm, ⟨17, _⟩ => ⟨S_, .f32⟩
  | .hbm, ⟨18, _⟩ => ⟨S2x3, .f32⟩
  | .hbm, ⟨19, _⟩ => ⟨S2x3, .f32⟩
  | .hbm, ⟨20, _⟩ => ⟨S2x3, .f32⟩
  | .hbm, ⟨21, _⟩ => ⟨S2x3, .f32⟩
  | .hbm, ⟨22, _⟩ => ⟨S2x3, .f32⟩
  | .hbm, ⟨23, _⟩ => ⟨S2x3, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .local _ .vmem, ⟨0, _⟩ => ⟨S1x4x8x36864, .f32⟩
  | .local _ .vmem, ⟨1, _⟩ => ⟨S1x4x8x36864, .f32⟩
  | .local _ .vmem, ⟨2, _⟩ => ⟨S1x8x36864, .i32⟩
  | .local _ .vmem, ⟨3, _⟩ => ⟨S1x8x36864, .i32⟩
  | .local _ .vmem, ⟨4, _⟩ => ⟨S1x8x36864, .f32⟩
  | .local _ .vmem, ⟨5, _⟩ => ⟨S1x8x36864, .f32⟩
  | .local _ .vmem, ⟨6, _⟩ => ⟨S1x1x1, .f32⟩
  | .local _ .vmem, ⟨7, _⟩ => ⟨S1x1x1, .f32⟩
  | .local _ .vmem, ⟨8, _⟩ => ⟨S1x1x3, .f32⟩
  | .local _ .vmem, ⟨9, _⟩ => ⟨S1x1x3, .f32⟩
  | .local _ .vmem, ⟨10, _⟩ => ⟨S1x1x3, .f32⟩
  | .local _ .vmem, ⟨11, _⟩ => ⟨S1x1x3, .f32⟩
  | .local _ .vmem, ⟨12, _⟩ => ⟨S1x1x3, .f32⟩
  | .local _ .vmem, ⟨13, _⟩ => ⟨S1x1x3, .f32⟩
  | .local _ .vmem, ⟨14, _⟩ => ⟨S1x1x3, .f32⟩
  | .local _ .vmem, ⟨15, _⟩ => ⟨S1x1x3, .f32⟩
  | .local _ .vmem, ⟨16, _⟩ => ⟨S1x1x1, .f32⟩
  | .local _ .vmem, ⟨17, _⟩ => ⟨S1x1x3, .f32⟩
  | .local _ .vmem, ⟨18, _⟩ => ⟨S1x1x3, .f32⟩
  | .local _ .vmem, ⟨19, _⟩ => ⟨S1x1x3, .f32⟩
  | .local _ .vmem, ⟨20, _⟩ => ⟨S1x1x3, .f32⟩
  | _, _ => ⟨S2x4x128x192x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev main_v4_3 : Ref sig .tc := ⟨.hbm, 10, rfl⟩
abbrev main_v4_4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v144 : BitVec 1 := Scalar.cmpi .eq arg1 c15_i32
  let v145 : BitVec 32 := Scalar.extui v144
  let c0_i32_68 : BitVec 32 := 0#32
  let v146 : BitVec 1 := Scalar.cmpi .ne v145 c0_i32_68
  v146

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4x8x36864 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x36864 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x36864 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x3 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x3 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x3 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x3 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  shapeCasts_S2x1x128x192x192_S2x128x192x192 : S2x1x128x192x192.ShapeCasts S2x128x192x192
  shapeCasts_S2x4x128x192x192_S2x4x128x36864 : S2x4x128x192x192.ShapeCasts S2x4x128x36864
  shapeCasts_S2x128x192x192_S2x128x36864 : S2x128x192x192.ShapeCasts S2x128x36864
  inb_S1x1x1_S1x1x1_0_0_0 : ∀ a, (![0, 0, 0] : Fin 3 → Nat) a + S1x1x1.size a ≤ S1x1x1.size a
  h_S1x1x1 : 0 < S1x1x1.numel
  shapeCasts_S1x1x1_S1x1x1 : S1x1x1.ShapeCasts S1x1x1
  inb_S1x1x3_S1x1x3_0_0_0 : ∀ a, (![0, 0, 0] : Fin 3 → Nat) a + S1x1x3.size a ≤ S1x1x3.size a
  h_S1x1x3 : 0 < S1x1x3.numel
  shapeCasts_S1x1x3_S1x1x3 : S1x1x3.ShapeCasts S1x1x3
  inb_S1x4x8x36864_S1x4x8x36864_0_0_0_0 : ∀ a, (![0, 0, 0, 0] : Fin 4 → Nat) a + S1x4x8x36864.size a ≤ S1x4x8x36864.size a
  h_S1x4x8x36864 : 0 < S1x4x8x36864.numel
  shapeCasts_S1x4x8x36864_S4x8x36864 : S1x4x8x36864.ShapeCasts S4x8x36864
  inb_S1x8x36864_S1x8x36864_0_0_0 : ∀ a, (![0, 0, 0] : Fin 3 → Nat) a + S1x8x36864.size a ≤ S1x8x36864.size a
  h_S1x8x36864 : 0 < S1x8x36864.numel
  shapeCasts_S1x8x36864_S8x36864 : S1x8x36864.ShapeCasts S8x36864
  reduces_S4x8x36864_S8x36864 : S4x8x36864.Reduces [0] S8x36864
  shapeCasts_S8x36864_S1x8x36864 : S8x36864.ShapeCasts S1x8x36864
  broadcasts_S1x8x36864_S4x8x36864 : S1x8x36864.Broadcasts S4x8x36864
  natLt_1_32 : 1 < 32
  slices_S4x8x36864_o0_0_0_S1x8x36864 : S4x8x36864.Slices ![0, 0, 0] S1x8x36864
  reduces_S8x36864_S8 : S8x36864.Reduces [1] S8
  shapeCasts_S8_S8x1 : S8.ShapeCasts S8x1
  reduces_S8x1_S1 : S8x1.Reduces [0] S1
  shapeCasts_S1_S1x1 : S1.ShapeCasts S1x1
  shapeCasts_S1x1_S1x1x1 : S1x1.ShapeCasts S1x1x1
  slices_S4x8x36864_o1_0_0_S1x8x36864 : S4x8x36864.Slices ![1, 0, 0] S1x8x36864
  slices_S4x8x36864_o2_0_0_S1x8x36864 : S4x8x36864.Slices ![2, 0, 0] S1x8x36864
  slices_S4x8x36864_o3_0_0_S1x8x36864 : S4x8x36864.Slices ![3, 0, 0] S1x8x36864
  concatenates_S1x1x1_S1x1x1_S1x1x1_S1x1x3_d2 : Shape.Concatenates [S1x1x1, S1x1x1, S1x1x1] S1x1x3 2
  shapeCasts_S2x1x1_S2 : S2x1x1.ShapeCasts S2
  shapeCasts_S2x1x3_S2x3 : S2x1x3.ShapeCasts S2x3
  bcast_S_S2x3 : S_.BroadcastsInDim S2x3 (![] : Fin 0 → Fin S2x3.rank)
  reducesTo_S2_S_d0 : S2.ReducesTo [0] S_
  h_S_ : 0 < S_.numel
  reducesTo_S2x3_S_d0_1 : S2x3.ReducesTo [0, 1] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4x8x36864.size a ≤ S2x4x128x36864.size a
  hwx0_0 : ∀ i : grid0.Coords, EltTy.bits .f32 = 32 ∨ (Rect.block (s := S2x4x128x36864) S1x4x8x36864.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8x36864.size a ≤ S2x128x36864.size a
  hwx0_1 : ∀ i : grid0.Coords, EltTy.bits .i32 = 32 ∨ (Rect.block (s := S2x128x36864) S1x8x36864.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x36864.size a ≤ S2x128x36864.size a
  hwx0_2 : ∀ i : grid0.Coords, EltTy.bits .f32 = 32 ∨ (Rect.block (s := S2x128x36864) S1x8x36864.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1.size a ≤ S2x1x1.size a
  hwx0_3 : ∀ i : grid0.Coords, EltTy.bits .f32 = 32 ∨ (Rect.block (s := S2x1x1) S1x1x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x3.size a ≤ S2x1x3.size a
  hwx0_4 : ∀ i : grid0.Coords, EltTy.bits .f32 = 32 ∨ (Rect.block (s := S2x1x3) S1x1x3.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x3.size a ≤ S2x1x3.size a
  hwx0_5 : ∀ i : grid0.Coords, EltTy.bits .f32 = 32 ∨ (Rect.block (s := S2x1x3) S1x1x3.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x3.size a ≤ S2x1x3.size a
  hwx0_6 : ∀ i : grid0.Coords, EltTy.bits .f32 = 32 ∨ (Rect.block (s := S2x1x3) S1x1x3.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x3.size a ≤ S2x1x3.size a
  hwx0_7 : ∀ i : grid0.Coords, EltTy.bits .f32 = 32 ∨ (Rect.block (s := S2x1x3) S1x1x3.size (cc0_transform_7 i) (hinb0_7 i)).WholeWords (EltTy.packing .f32)

variable [Facts₀]

abbrev win0_0 : Pipeline.Window sig grid0 :=
  Pipeline.Window.ofSpec (Memref.whole main_v1) S1x4x8x36864.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x8x36864.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x8x36864.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4_0) S1x1x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4_1) S1x1x3.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4_2) S1x1x3.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4_3) S1x1x3.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v4_4) S1x1x3.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun i => !(k0_cond2 i == 1#1) | 4 => fun i => !(k0_cond2 i == 1#1) | 5 => fun i => !(k0_cond2 i == 1#1) | 6 => fun i => !(k0_cond2 i == 1#1) | 7 => fun i => !(k0_cond2 i == 1#1) | ⟨_ + 8, h⟩ => absurd h (Nat.not_lt.2 (Nat.le_add_left _ _))

class Facts : Prop extends Facts₀ where

variable [Facts]
-- ==== ReferenceIdeal.lean ====
abbrev S2x4x128x192x192 : Shape := ⟨5, ![2, 4, 128, 192, 192]⟩
abbrev S2x1x128x192x192 : Shape := ⟨5, ![2, 1, 128, 192, 192]⟩
abbrev S2x128x192x192 : Shape := ⟨4, ![2, 128, 192, 192]⟩
abbrev S4 : Shape := ⟨1, ![4]⟩
abbrev S1x4x1x1x1 : Shape := ⟨5, ![1, 4, 1, 1, 1]⟩
abbrev S2x3x128x192x192 : Shape := ⟨5, ![2, 3, 128, 192, 192]⟩
abbrev S_ : Shape := ⟨0, ![]⟩
abbrev S2x3 : Shape := ⟨2, ![2, 3]⟩
abbrev S2x3x1x1x1 : Shape := ⟨5, ![2, 3, 1, 1, 1]⟩

abbrev nBuf : Space → Nat
  | .hbm => 52
  | .vmem => 0
  | .smem => 0
  | _ => 0

abbrev bufTy : (tb : Table) → Fin (tcTables nBuf tb) → BufTy
  | .hbm, ⟨0, _⟩ => ⟨S2x4x128x192x192, .f32⟩
  | .hbm, ⟨1, _⟩ => ⟨S2x1x128x192x192, .i32⟩
  | .hbm, ⟨2, _⟩ => ⟨S2x128x192x192, .f32⟩
  | .hbm, ⟨3, _⟩ => ⟨S4, .i32⟩
  | .hbm, ⟨4, _⟩ => ⟨S1x4x1x1x1, .i32⟩
  | .hbm, ⟨5, _⟩ => ⟨S2x4x128x192x192, .i32⟩
  | .hbm, ⟨6, _⟩ => ⟨S2x4x128x192x192, .i32⟩
  | .hbm, ⟨7, _⟩ => ⟨S2x4x128x192x192, .i1⟩
  | .hbm, ⟨8, _⟩ => ⟨S2x4x128x192x192, .f32⟩
  | .hbm, ⟨9, _⟩ => ⟨S2x3x128x192x192, .f32⟩
  | .hbm, ⟨10, _⟩ => ⟨S2x1x128x192x192, .f32⟩
  | .hbm, ⟨11, _⟩ => ⟨S2x3x128x192x192, .f32⟩
  | .hbm, ⟨12, _⟩ => ⟨S2x3x128x192x192, .f32⟩
  | .hbm, ⟨13, _⟩ => ⟨S_, .f32⟩
  | .hbm, ⟨14, _⟩ => ⟨S2x3, .f32⟩
  | .hbm, ⟨15, _⟩ => ⟨S2x3x1x1x1, .f32⟩
  | .hbm, ⟨16, _⟩ => ⟨S_, .f32⟩
  | .hbm, ⟨17, _⟩ => ⟨S2x3, .f32⟩
  | .hbm, ⟨18, _⟩ => ⟨S2x3x1x1x1, .f32⟩
  | .hbm, ⟨19, _⟩ => ⟨S2x3x128x192x192, .f32⟩
  | .hbm, ⟨20, _⟩ => ⟨S2x3x128x192x192, .f32⟩
  | .hbm, ⟨21, _⟩ => ⟨S_, .f32⟩
  | .hbm, ⟨22, _⟩ => ⟨S2x3x1x1x1, .f32⟩
  | .hbm, ⟨23, _⟩ => ⟨S2x3x1x1x1, .f32⟩
  | .hbm, ⟨24, _⟩ => ⟨S2x3x1x1x1, .f32⟩
  | .hbm, ⟨25, _⟩ => ⟨S2x3x128x192x192, .f32⟩
  | .hbm, ⟨26, _⟩ => ⟨S2x3x128x192x192, .f32⟩
  | .hbm, ⟨27, _⟩ => ⟨S2x1x128x192x192, .f32⟩
  | .hbm, ⟨28, _⟩ => ⟨S2x4x128x192x192, .f32⟩
  | .hbm, ⟨29, _⟩ => ⟨S_, .f32⟩
  | .hbm, ⟨30, _⟩ => ⟨S2x128x192x192, .f32⟩
  | .hbm, ⟨31, _⟩ => ⟨S_, .f32⟩
  | .hbm, ⟨32, _⟩ => ⟨S2x128x192x192, .f32⟩
  | .hbm, ⟨33, _⟩ => ⟨S2x128x192x192, .f32⟩
  | .hbm, ⟨34, _⟩ => ⟨S2x1x128x192x192, .f32⟩
  | .hbm, ⟨35, _⟩ => ⟨S2x4x128x192x192, .f32⟩
  | .hbm, ⟨36, _⟩ => ⟨S2x4x128x192x192, .f32⟩
  | .hbm, ⟨37, _⟩ => ⟨S2x4x128x192x192, .f32⟩
  | .hbm, ⟨38, _⟩ => ⟨S_, .f32⟩
  | .hbm, ⟨39, _⟩ => ⟨S2x128x192x192, .f32⟩
  | .hbm, ⟨40, _⟩ => ⟨S2x1x128x192x192, .f32⟩
  | .hbm, ⟨41, _⟩ => ⟨S2x1x128x192x192, .f32⟩
  | .hbm, ⟨42, _⟩ => ⟨S2x4x128x192x192, .f32⟩
  | .hbm, ⟨43, _⟩ => ⟨S2x4x128x192x192, .f32⟩
  | .hbm, ⟨44, _⟩ => ⟨S2x4x128x192x192, .f32⟩
  | .hbm, ⟨45, _⟩ => ⟨S_, .f32⟩
  | .hbm, ⟨46, _⟩ => ⟨S2x128x192x192, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | _, _ => ⟨S2x4x128x192x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_call0_cst : Ref sig .tc := ⟨.hbm, 29, rfl⟩
abbrev main_call0_v0 : Ref sig .tc := ⟨.hbm, 30, rfl⟩
abbrev main_call0_cst_0 : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_call0_v5 : Ref sig .tc := ⟨.hbm, 36, rfl⟩
abbrev main_call0_v6 : Ref sig .tc := ⟨.hbm, 37, rfl⟩
abbrev main_call0_cst_1 : Ref sig .tc := ⟨.hbm, 38, rfl⟩
abbrev main_call0_v7 : Ref sig .tc := ⟨.hbm, 39, rfl⟩
abbrev main_call0_v8 : Ref sig .tc := ⟨.hbm, 40, rfl⟩
abbrev main_call0_v9 : Ref sig .tc := ⟨.hbm, 41, rfl⟩
abbrev main_call0_v10 : Ref sig .tc := ⟨.hbm, 42, rfl⟩
abbrev main_v23 : Ref sig .tc := ⟨.hbm, 43, rfl⟩
abbrev main_v24 : Ref sig .tc := ⟨.hbm, 44, rfl⟩
abbrev main_cst_2 : Ref sig .tc := ⟨.hbm, 45, rfl⟩
abbrev main_v25 : Ref sig .tc := ⟨.hbm, 46, rfl⟩
abbrev main_cst_3 : Ref sig .tc := ⟨.hbm, 47, rfl⟩
abbrev main_v26 : Ref sig .tc := ⟨.hbm, 48, rfl⟩
abbrev main_cst_4 : Ref sig .tc := ⟨.hbm, 49, rfl⟩
abbrev main_v27 : Ref sig .tc := ⟨.hbm, 50, rfl⟩
abbrev main_v28 : Ref sig .tc := ⟨.hbm, 51, rfl⟩

abbrev nD : Nat := 1
abbrev τ : Topo := Topo.v7x

variable {F : FTy → Type} [FloatOps F]

class Facts₀ : Prop where
  shapeCasts_S4_S1x4x1x1x1 : S4.ShapeCasts S1x4x1x1x1
  bcast_S2x1x128x192x192_S2x4x128x192x192_0_1_2_3_4 : S2x1x128x192x192.BroadcastsInDim S2x4x128x192x192 (![0, 1, 2, 3, 4] : Fin 5 → Fin S2x4x128x192x192.rank)
  bcast_S1x4x1x1x1_S2x4x128x192x192_0_1_2_3_4 : S1x4x1x1x1.BroadcastsInDim S2x4x128x192x192 (![0, 1, 2, 3, 4] : Fin 5 → Fin S2x4x128x192x192.rank)
  slices_S2x4x128x192x192_S2x3x128x192x192_0_1_0_0_0 : S2x4x128x192x192.Slices ![0, 1, 0, 0, 0] S2x3x128x192x192
  bcast_S2x128x192x192_S2x1x128x192x192_0_2_3_4 : S2x128x192x192.BroadcastsInDim S2x1x128x192x192 (![0, 2, 3, 4] : Fin 4 → Fin S2x1x128x192x192.rank)
  bcast_S2x1x128x192x192_S2x3x128x192x192_0_1_2_3_4 : S2x1x128x192x192.BroadcastsInDim S2x3x128x192x192 (![0, 1, 2, 3, 4] : Fin 5 → Fin S2x3x128x192x192.rank)
  reducesTo_S2x3x128x192x192_S2x3_d2_3_4 : S2x3x128x192x192.ReducesTo [2, 3, 4] S2x3
  h_S_ : 0 < S_.numel
  bcast_S2x3_S2x3x1x1x1_0_1 : S2x3.BroadcastsInDim S2x3x1x1x1 (![0, 1] : Fin 2 → Fin S2x3x1x1x1.rank)
  bcast_S2x3x1x1x1_S2x3x128x192x192_0_1_2_3_4 : S2x3x1x1x1.BroadcastsInDim S2x3x128x192x192 (![0, 1, 2, 3, 4] : Fin 5 → Fin S2x3x128x192x192.rank)
  bcast_S_S2x3x1x1x1 : S_.BroadcastsInDim S2x3x1x1x1 (![] : Fin 0 → Fin S2x3x1x1x1.rank)
  slices_S2x4x128x192x192_S2x1x128x192x192_0_0_0_0_0 : S2x4x128x192x192.Slices ![0, 0, 0, 0, 0] S2x1x128x192x192
  concatenates_S2x1x128x192x192_S2x3x128x192x192_S2x4x128x192x192_d1 : Shape.Concatenates [S2x1x128x192x192, S2x3x128x192x192] S2x4x128x192x192 1
  reducesTo_S2x4x128x192x192_S2x128x192x192_d1 : S2x4x128x192x192.ReducesTo [1] S2x128x192x192
  bcast_S_S2x128x192x192 : S_.BroadcastsInDim S2x128x192x192 (![] : Fin 0 → Fin S2x128x192x192.rank)
  reducesTo_S2x128x192x192_S_d0_1_2_3 : S2x128x192x192.ReducesTo [0, 1, 2, 3] S_

variable [Facts₀]

class Facts : Prop extends Facts₀ where

variable [Facts]
-- ==== Proof.TileDefs.lean ====
/-
  What one grid point adds to each of the five running quantities, as terms of the body's own arithmetic.

  The body reads a tile of logits `x0`, of labels `x1` and of distances `x2`, and holds five small
  accumulators: one for Σ [t = 0]·logp₀, and — one lane per class 1, 2, 3 — the running minimum and
  maximum of z_c = [t = c]·δ, Σ z_c·logp_c and Σ logp_c.  Each definition below names the value the body
  stores into one accumulator as a function of the tile and of what the accumulator held before, by
  composing the body's pure operations in the order the body applies them.  They are stated for any
  reading of the floats; what they compute on the extended reals is a separate matter.
-/
import proofs.«152530_j15169824489490_2_alg».proof.Proof.Gen.KernelIdeal.Skeleton

noncomputable section

namespace Cert.KernelIdeal.Tile

open Idealize.ShloMosaic Cert.KernelIdeal Cert.KernelIdeal.Gen

variable {F : FTy → Type} [FloatOps F]

/-- The labels of the tile with the leading unit axis dropped. -/
def lab (x1 : Vec F S1x8x36864 .i32) : IVec S8x36864 32 := k0_pay10 x1

/-- The distances of the tile with the leading unit axis dropped. -/
def dst (x2 : Vec F S1x8x36864 .f32) : FVec F S8x36864 .f32 := k0_pay11 x2

/-- The log-probabilities of the four classes over the tile. -/
def lsm (x0 : Vec F S1x4x8x36864 .f32) : FVec F S4x8x36864 .f32 := k0_pay12 x0

/-- The new Σ [t = 0]·logp₀: the old value plus the tile's part. -/
def accS0 (x0 : Vec F S1x4x8x36864 .f32) (x1 : Vec F S1x8x36864 .i32) (old : Vec F S1x1x1 .f32) : FVec F S1x1x1 .f32 :=
  k0_pay14 (k0_pay13 x0 x1 old)

/-- The tile's minima of z₁, z₂, z₃, one per lane. -/
def tileMin (x1 : Vec F S1x8x36864 .i32) (x2 : Vec F S1x8x36864 .f32) : FVec F S1x1x3 .f32 :=
  k0_pay27 (lab x1) (dst x2) (k0_pay17 (lab x1) (dst x2)) (k0_pay23 (lab x1) (dst x2))

/-- The tile's maxima of z₁, z₂, z₃, one per lane. -/
def tileMax (x1 : Vec F S1x8x36864 .i32) (x2 : Vec F S1x8x36864 .f32) : FVec F S1x1x3 .f32 :=
  k0_pay28 (lab x1) (dst x2) (k0_pay18 (lab x1) (dst x2)) (k0_pay24 (lab x1) (dst x2))

/-- The tile's Σ z_c·logp_c for c = 1, 2, 3, one per lane. -/
def tileSzl (x0 : Vec F S1x4x8x36864 .f32) (x1 : Vec F S1x8x36864 .i32) (x2 : Vec F S1x8x36864 .f32) : FVec F S1x1x3 .f32 :=
  k0_pay29 (lab x1) (dst x2) (lsm x0) (k0_pay19 (lab x1) (dst x2) (lsm x0)) (k0_pay21 (lab x1) (dst x2)) (k0_pay22 (lsm x0))

/-- The tile's Σ logp_c for c = 1, 2, 3, one per lane. -/
def tileSl (x0 : Vec F S1x4x8x36864 .f32) : FVec F S1x1x3 .f32 :=
  k0_pay30 (lsm x0) (k0_pay20 (lsm x0)) (k0_pay22 (lsm x0))

/-- The new running minimum. -/
def accMin (x1 : Vec F S1x8x36864 .i32) (x2 : Vec F S1x8x36864 .f32) (old : Vec F S1x1x3 .f32) : FVec F S1x1x3 .f32 :=
  k0_pay1 (tileMin x1 x2) old

/-- The new running maximum. -/
def accMax (x1 : Vec F S1x8x36864 .i32) (x2 : Vec F S1x8x36864 .f32) (old : Vec F S1x1x3 .f32) : FVec F S1x1x3 .f32 :=
  k0_pay2 (tileMax x1 x2) old

/-- The new Σ z_c·logp_c. -/
def accSzl (x0 : Vec F S1x4x8x36864 .f32) (x1 : Vec F S1x8x36864 .i32) (x2 : Vec F S1x8x36864 .f32) (old : Vec F S1x1x3 .f32) : FVec F S1x1x3 .f32 :=
  k0_pay3 (tileSzl x0 x1 x2) old

/-- The new Σ logp_c. -/
def accSl (x0 : Vec F S1x4x8x36864 .f32) (old : Vec F S1x1x3 .f32) : FVec F S1x1x3 .f32 :=
  k0_pay4 (tileSl x0) old

/-- What the five accumulators are reset to at a batch's first tile: 0, +∞, -∞, 0, 0. -/
def init0 : FVec F S1x1x1 .f32 := k0_pay5
def initMin : FVec F S1x1x3 .f32 := k0_pay6
def initMax : FVec F S1x1x3 .f32 := k0_pay7
def initSzl : FVec F S1x1x3 .f32 := k0_pay8
def initSl : FVec F S1x1x3 .f32 := k0_pay9

end Cert.KernelIdeal.Tile

end
-- ==== Proof.Pieces.lean ====
/-
  What one grid point leaves in the five running quantities, read off the body's stores.

  The body is run in three situations.  At a batch's first tile the five accumulators are reset — to 0, +∞, -∞, 0, 0 —
  and then updated by the tile; at a middle tile they are updated from what the tile before left; at a batch's last
  tile they are updated and then copied to the five outputs.  In every situation each accumulator is written through
  stores that each cover it whole, so what it ends holding is the payload of its last store, and every load the
  payload depends on reads a whole buffer: the tile of logits, of labels, of distances, and the accumulator's
  contents — the old contents, or the reset value where a reset store came first.  The last store's payload is
  therefore the tile's update (`Tile.accS0`, `Tile.accMin`, `Tile.accMax`, `Tile.accSzl`, `Tile.accSl`) applied to
  the old contents or to the reset value, and an output's one store holds the accumulator's updated contents read
  back.  All statements hold for any reading of the floats.
-/
import proofs.«152530_j15169824489490_2_alg».proof.Proof.KernelIdealFrameP
import proofs.«152530_j15169824489490_2_alg».proof.Proof.TileDefs
import Idealize.ShloMosaic.Lib.Pipeline.Value
import Idealize.ShloMosaic.Lib.Tactic

noncomputable section

namespace Cert.KernelIdeal.Pieces

open Idealize.ShloMosaic Idealize.ShloMosaic.TcCoe Idealize.SL.Sem
open Cert.KernelIdeal Cert.KernelIdeal.Gen Cert.KernelIdeal.GenP

variable {F : FTy → Type} [FloatOps F]

/-- Three zero offsets, however they are spelt, are the zero function. -/
theorem hz3 : (![0, 0, 0] : Fin 3 → Nat) = fun _ => 0 := funext fun a => by fin_cases a <;> rfl

/-- Four zero offsets likewise. -/
theorem hz4 : (![0, 0, 0, 0] : Fin 4 → Nat) = fun _ => 0 := funext fun a => by fin_cases a <;> rfl

/-! ## A middle tile: each accumulator is updated from what it held -/

/-- A middle tile leaves in accumulator 0 — the sum of the class-0 indicator times its log-probability — the tile's update of what the accumulator held: its one
    store covers the accumulator, and the loads the payload depends on read the tile and the old contents whole. -/
theorem sout_B_0 (c : Dev nD) (i : grid0.Coords) (arg2 : Memref sig .tc .vmem S1x4x8x36864 .f32) (harg2 : arg2.IsWhole) (arg3 : Memref sig .tc .vmem S1x8x36864 .i32) (harg3 : arg3.IsWhole) (arg4 : Memref sig .tc .vmem S1x8x36864 .f32) (harg4 : arg4.IsWhole) (arg5 : Memref sig .tc .vmem S1x1x1 .f32) (harg5 : arg5.IsWhole) (arg6 : Memref sig .tc .vmem S1x1x3 .f32) (harg6 : arg6.IsWhole) (arg7 : Memref sig .tc .vmem S1x1x3 .f32) (harg7 : arg7.IsWhole) (arg8 : Memref sig .tc .vmem S1x1x3 .f32) (harg8 : arg8.IsWhole) (arg9 : Memref sig .tc .vmem S1x1x3 .f32) (harg9 : arg9.IsWhole) (arg10 : Memref sig .tc .vmem S1x1x1 .f32) (harg10 : arg10.IsWhole) (arg11 : Memref sig .tc .vmem S1x1x3 .f32) (harg11 : arg11.IsWhole) (arg12 : Memref sig .tc .vmem S1x1x3 .f32) (harg12 : arg12.IsWhole) (arg13 : Memref sig .tc .vmem S1x1x3 .f32) (harg13 : arg13.IsWhole) (arg14 : Memref sig .tc .vmem S1x1x3 .f32) (harg14 : arg14.IsWhole) (hc0 : ¬cond0_0 i) (hc1 : ¬cond0_1 i)
    (x0 : Vec F S1x4x8x36864 .f32) (x1 : Vec F S1x8x36864 .i32) (x2 : Vec F S1x8x36864 .f32) (xs0 : Vec F S1x1x1 .f32) (xs1 : Vec F S1x1x3 .f32) (xs2 : Vec F S1x1x3 .f32) (xs3 : Vec F S1x1x3 .f32) (xs4 : Vec F S1x1x3 .f32) :
    sout0_B_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 xs0 xs1 xs2 xs3 xs4 = Tile.accS0 x0 x1 xs0 := by
  unfold Tile.accS0
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 xs0 xs1 xs2 xs3 xs4)]
  unfold kernelRun0_B
  dsimp only
  sl_unfold_words
  rw [View.canon_unit_zero (S := S1x1x1) hz3]
  simp only [View.readAt_eq_ld, harg2.read_unread, harg3.read_unread, harg4.read_unread, harg10.read_unread, harg11.read_unread, harg12.read_unread, harg13.read_unread, harg14.read_unread, View.ld_unit_zero (S := S1x4x8x36864) hz4, View.ld_unit_zero (S := S1x8x36864) hz3, View.ld_unit_zero (S := S1x1x1) hz3, View.ld_unit_zero (S := S1x1x3) hz3]

/-- A middle tile leaves in accumulator 1 — the running minimum of the indicator times the distance — the tile's update of what the accumulator held: its one
    store covers the accumulator, and the loads the payload depends on read the tile and the old contents whole. -/
theorem sout_B_1 (c : Dev nD) (i : grid0.Coords) (arg2 : Memref sig .tc .vmem S1x4x8x36864 .f32) (harg2 : arg2.IsWhole) (arg3 : Memref sig .tc .vmem S1x8x36864 .i32) (harg3 : arg3.IsWhole) (arg4 : Memref sig .tc .vmem S1x8x36864 .f32) (harg4 : arg4.IsWhole) (arg5 : Memref sig .tc .vmem S1x1x1 .f32) (harg5 : arg5.IsWhole) (arg6 : Memref sig .tc .vmem S1x1x3 .f32) (harg6 : arg6.IsWhole) (arg7 : Memref sig .tc .vmem S1x1x3 .f32) (harg7 : arg7.IsWhole) (arg8 : Memref sig .tc .vmem S1x1x3 .f32) (harg8 : arg8.IsWhole) (arg9 : Memref sig .tc .vmem S1x1x3 .f32) (harg9 : arg9.IsWhole) (arg10 : Memref sig .tc .vmem S1x1x1 .f32) (harg10 : arg10.IsWhole) (arg11 : Memref sig .tc .vmem S1x1x3 .f32) (harg11 : arg11.IsWhole) (arg12 : Memref sig .tc .vmem S1x1x3 .f32) (harg12 : arg12.IsWhole) (arg13 : Memref sig .tc .vmem S1x1x3 .f32) (harg13 : arg13.IsWhole) (arg14 : Memref sig .tc .vmem S1x1x3 .f32) (harg14 : arg14.IsWhole) (hc0 : ¬cond0_0 i) (hc1 : ¬cond0_1 i)
    (x0 : Vec F S1x4x8x36864 .f32) (x1 : Vec F S1x8x36864 .i32) (x2 : Vec F S1x8x36864 .f32) (xs0 : Vec F S1x1x1 .f32) (xs1 : Vec F S1x1x3 .f32) (xs2 : Vec F S1x1x3 .f32) (xs3 : Vec F S1x1x3 .f32) (xs4 : Vec F S1x1x3 .f32) :
    sout0_B_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 xs0 xs1 xs2 xs3 xs4 = Tile.accMin x1 x2 xs1 := by
  unfold Tile.accMin Tile.tileMin Tile.lab Tile.dst
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 xs0 xs1 xs2 xs3 xs4)]
  unfold kernelRun0_B
  dsimp only
  sl_unfold_words
  rw [View.canon_unit_zero (S := S1x1x3) hz3]
  simp only [View.readAt_eq_ld, harg2.read_unread, harg3.read_unread, harg4.read_unread, harg10.read_unread, harg11.read_unread, harg12.read_unread, harg13.read_unread, harg14.read_unread, View.ld_unit_zero (S := S1x4x8x36864) hz4, View.ld_unit_zero (S := S1x8x36864) hz3, View.ld_unit_zero (S := S1x1x1) hz3, View.ld_unit_zero (S := S1x1x3) hz3]

/-- A middle tile leaves in accumulator 2 — the running maximum of the indicator times the distance — the tile's update of what the accumulator held: its one
    store covers the accumulator, and the loads the payload depends on read the tile and the old contents whole. -/
theorem sout_B_2 (c : Dev nD) (i : grid0.Coords) (arg2 : Memref sig .tc .vmem S1x4x8x36864 .f32) (harg2 : arg2.IsWhole) (arg3 : Memref sig .tc .vmem S1x8x36864 .i32) (harg3 : arg3.IsWhole) (arg4 : Memref sig .tc .vmem S1x8x36864 .f32) (harg4 : arg4.IsWhole) (arg5 : Memref sig .tc .vmem S1x1x1 .f32) (harg5 : arg5.IsWhole) (arg6 : Memref sig .tc .vmem S1x1x3 .f32) (harg6 : arg6.IsWhole) (arg7 : Memref sig .tc .vmem S1x1x3 .f32) (harg7 : arg7.IsWhole) (arg8 : Memref sig .tc .vmem S1x1x3 .f32) (harg8 : arg8.IsWhole) (arg9 : Memref sig .tc .vmem S1x1x3 .f32) (harg9 : arg9.IsWhole) (arg10 : Memref sig .tc .vmem S1x1x1 .f32) (harg10 : arg10.IsWhole) (arg11 : Memref sig .tc .vmem S1x1x3 .f32) (harg11 : arg11.IsWhole) (arg12 : Memref sig .tc .vmem S1x1x3 .f32) (harg12 : arg12.IsWhole) (arg13 : Memref sig .tc .vmem S1x1x3 .f32) (harg13 : arg13.IsWhole) (arg14 : Memref sig .tc .vmem S1x1x3 .f32) (harg14 : arg14.IsWhole) (hc0 : ¬cond0_0 i) (hc1 : ¬cond0_1 i)
    (x0 : Vec F S1x4x8x36864 .f32) (x1 : Vec F S1x8x36864 .i32) (x2 : Vec F S1x8x36864 .f32) (xs0 : Vec F S1x1x1 .f32) (xs1 : Vec F S1x1x3 .f32) (xs2 : Vec F S1x1x3 .f32) (xs3 : Vec F S1x1x3 .f32) (xs4 : Vec F S1x1x3 .f32) :
    sout0_B_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 xs0 xs1 xs2 xs3 xs4 = Tile.accMax x1 x2 xs2 := by
  unfold Tile.accMax Tile.tileMax Tile.lab Tile.dst
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 xs0 xs1 xs2 xs3 xs4)]
  unfold kernelRun0_B
  dsimp only
  sl_unfold_words
  rw [View.canon_unit_zero (S := S1x1x3) hz3]
  simp only [View.readAt_eq_ld, harg2.read_unread, harg3.read_unread, harg4.read_unread, harg10.read_unread, harg11.read_unread, harg12.read_unread, harg13.read_unread, harg14.read_unread, View.ld_unit_zero (S := S1x4x8x36864) hz4, View.ld_unit_zero (S := S1x8x36864) hz3, View.ld_unit_zero (S := S1x1x1) hz3, View.ld_unit_zero (S := S1x1x3) hz3]

/-- A middle tile leaves in accumulator 3 — the sum of the indicator times the distance times the log-probability — the tile's update of what the accumulator held: its one
    store covers the accumulator, and the loads the payload depends on read the tile and the old contents whole. -/
theorem sout_B_3 (c : Dev nD) (i : grid0.Coords) (arg2 : Memref sig .tc .vmem S1x4x8x36864 .f32) (harg2 : arg2.IsWhole) (arg3 : Memref sig .tc .vmem S1x8x36864 .i32) (harg3 : arg3.IsWhole) (arg4 : Memref sig .tc .vmem S1x8x36864 .f32) (harg4 : arg4.IsWhole) (arg5 : Memref sig .tc .vmem S1x1x1 .f32) (harg5 : arg5.IsWhole) (arg6 : Memref sig .tc .vmem S1x1x3 .f32) (harg6 : arg6.IsWhole) (arg7 : Memref sig .tc .vmem S1x1x3 .f32) (harg7 : arg7.IsWhole) (arg8 : Memref sig .tc .vmem S1x1x3 .f32) (harg8 : arg8.IsWhole) (arg9 : Memref sig .tc .vmem S1x1x3 .f32) (harg9 : arg9.IsWhole) (arg10 : Memref sig .tc .vmem S1x1x1 .f32) (harg10 : arg10.IsWhole) (arg11 : Memref sig .tc .vmem S1x1x3 .f32) (harg11 : arg11.IsWhole) (arg12 : Memref sig .tc .vmem S1x1x3 .f32) (harg12 : arg12.IsWhole) (arg13 : Memref sig .tc .vmem S1x1x3 .f32) (harg13 : arg13.IsWhole) (arg14 : Memref sig .tc .vmem S1x1x3 .f32) (harg14 : arg14.IsWhole) (hc0 : ¬cond0_0 i) (hc1 : ¬cond0_1 i)
    (x0 : Vec F S1x4x8x36864 .f32) (x1 : Vec F S1x8x36864 .i32) (x2 : Vec F S1x8x36864 .f32) (xs0 : Vec F S1x1x1 .f32) (xs1 : Vec F S1x1x3 .f32) (xs2 : Vec F S1x1x3 .f32) (xs3 : Vec F S1x1x3 .f32) (xs4 : Vec F S1x1x3 .f32) :
    sout0_B_3 c i arg2 harg2 arg3 harg3 arg4 harg4 arg5 harg5 arg6 harg6 arg7 harg7 arg8 harg8 arg9 harg9 arg10 harg10 arg11 harg11 arg12 harg12 arg13 harg13 arg14 harg14 hc0 hc1 x0 x1 x2 xs0 xs1 xs2 xs3 xs4 = Tile.accSzl x0 x1 x2 xs3 := by
  unfold Tile.accSzl Tile.tileSzl Tile.lab Tile.dst Tile.lsm
  unfold sout0_B_3
  rw [View.read_writes_eq_canon _ _ _ (scover0_B_3 c i arg2 harg2 arg3 harg3 arg4 harg4 arg5 harg5 arg6 harg6 arg7 harg7 arg8 harg8 arg9 harg9 arg10 harg10 arg11 harg11 arg12 harg12 arg13 harg13 arg14 harg14 hc0 hc1 x0 x1 x2 xs0 xs1 xs2 xs3 xs4)]
  unfold kernelRun0_B
  dsimp only
  sl_unfold_words
  rw [View.canon_unit_zero (S := S1x1x3) hz3]
  simp only [View.readAt_eq_ld, harg2.read_unread, harg3.read_unread, harg4.read_unread, harg10.read_unread, harg11.read_unread, harg12.read_unread, harg13.read_unread, harg14.read_unread, View.ld_unit_zero (S := S1x4x8x36864) hz4, View.ld_unit_zero (S := S1x8x36864) hz3, View.ld_unit_zero (S := S1x1x1) hz3, View.ld_unit_zero (S := S1x1x3) hz3]

/-- A middle tile leaves in accumulator 4 — the sum of the log-probabilities — the tile's update of what the accumulator held: its one
    store covers the accumulator, and the loads the payload depends on read the tile and the old contents whole. -/
theorem sout_B_4 (c : Dev nD) (i : grid0.Coords) (arg2 : Memref sig .tc .vmem S1x4x8x36864 .f32) (harg2 : arg2.IsWhole) (arg3 : Memref sig .tc .vmem S1x8x36864 .i32) (harg3 : arg3.IsWhole) (arg4 : Memref sig .tc .vmem S1x8x36864 .f32) (harg4 : arg4.IsWhole) (arg5 : Memref sig .tc .vmem S1x1x1 .f32) (harg5 : arg5.IsWhole) (arg6 : Memref sig .tc .vmem S1x1x3 .f32) (harg6 : arg6.IsWhole) (arg7 : Memref sig .tc .vmem S1x1x3 .f32) (harg7 : arg7.IsWhole) (arg8 : Memref sig .tc .vmem S1x1x3 .f32) (harg8 : arg8.IsWhole) (arg9 : Memref sig .tc .vmem S1x1x3 .f32) (harg9 : arg9.IsWhole) (arg10 : Memref sig .tc .vmem S1x1x1 .f32) (harg10 : arg10.IsWhole) (arg11 : Memref sig .tc .vmem S1x1x3 .f32) (harg11 : arg11.IsWhole) (arg12 : Memref sig .tc .vmem S1x1x3 .f32) (harg12 : arg12.IsWhole) (arg13 : Memref sig .tc .vmem S1x1x3 .f32) (harg13 : arg13.IsWhole) (arg14 : Memref sig .tc .vmem S1x1x3 .f32) (harg14 : arg14.IsWhole) (hc0 : ¬cond0_0 i) (hc1 : ¬cond0_1 i)
    (x0 : Vec F S1x4x8x36864 .f32) (x1 : Vec F S1x8x36864 .i32) (x2 : Vec F S1x8x36864 .f32) (xs0 : Vec F S1x1x1 .f32) (xs1 : Vec F S1x1x3 .f32) (xs2 : Vec F S1x1x3 .f32) (xs3 : Vec F S1x1x3 .f32) (xs4 : Vec F S1x1x3 .f32) :
    sout0_B_4 c i arg2 harg2 arg3 harg3 arg4 harg4 arg5 harg5 arg6 harg6 arg7 harg7 arg8 harg8 arg9 harg9 arg10 harg10 arg11 harg11 arg12 harg12 arg13 harg13 arg14 harg14 hc0 hc1 x0 x1 x2 xs0 xs1 xs2 xs3 xs4 = Tile.accSl x0 xs4 := by
  unfold Tile.accSl Tile.tileSl Tile.lsm
  unfold sout0_B_4
  rw [View.read_writes_eq_canon _ _ _ (scover0_B_4 c i arg2 harg2 arg3 harg3 arg4 harg4 arg5 harg5 arg6 harg6 arg7 harg7 arg8 harg8 arg9 harg9 arg10 harg10 arg11 harg11 arg12 harg12 arg13 harg13 arg14 harg14 hc0 hc1 x0 x1 x2 xs0 xs1 xs2 xs3 xs4)]
  unfold kernelRun0_B
  dsimp only
  sl_unfold_words
  rw [View.canon_unit_zero (S := S1x1x3) hz3]
  simp only [View.readAt_eq_ld, harg2.read_unread, harg3.read_unread, harg4.read_unread, harg10.read_unread, harg11.read_unread, harg12.read_unread, harg13.read_unread, harg14.read_unread, View.ld_unit_zero (S := S1x4x8x36864) hz4, View.ld_unit_zero (S := S1x8x36864) hz3, View.ld_unit_zero (S := S1x1x1) hz3, View.ld_unit_zero (S := S1x1x3) hz3]

/-! ## A batch's last tile: the same updates, then the copies to the outputs -/

/-- A batch's last tile leaves in accumulator 0 — the sum of the class-0 indicator times its log-probability — the same update of what the accumulator held as a
    middle tile does. -/
theorem sout_C_0 (c : Dev nD) (i : grid0.Coords) (arg2 : Memref sig .tc .vmem S1x4x8x36864 .f32) (harg2 : arg2.IsWhole) (arg3 : Memref sig .tc .vmem S1x8x36864 .i32) (harg3 : arg3.IsWhole) (arg4 : Memref sig .tc .vmem S1x8x36864 .f32) (harg4 : arg4.IsWhole) (arg5 : Memref sig .tc .vmem S1x1x1 .f32) (harg5 : arg5.IsWhole) (arg6 : Memref sig .tc .vmem S1x1x3 .f32) (harg6 : arg6.IsWhole) (arg7 : Memref sig .tc .vmem S1x1x3 .f32) (harg7 : arg7.IsWhole) (arg8 : Memref sig .tc .vmem S1x1x3 .f32) (harg8 : arg8.IsWhole) (arg9 : Memref sig .tc .vmem S1x1x3 .f32) (harg9 : arg9.IsWhole) (arg10 : Memref sig .tc .vmem S1x1x1 .f32) (harg10 : arg10.IsWhole) (arg11 : Memref sig .tc .vmem S1x1x3 .f32) (harg11 : arg11.IsWhole) (arg12 : Memref sig .tc .vmem S1x1x3 .f32) (harg12 : arg12.IsWhole) (arg13 : Memref sig .tc .vmem S1x1x3 .f32) (harg13 : arg13.IsWhole) (arg14 : Memref sig .tc .vmem S1x1x3 .f32) (harg14 : arg14.IsWhole) (hc0 : ¬cond0_0 i) (hc1 : cond0_1 i)
    (x0 : Vec F S1x4x8x36864 .f32) (x1 : Vec F S1x8x36864 .i32) (x2 : Vec F S1x8x36864 .f32) (xs0 : Vec F S1x1x1 .f32) (xs1 : Vec F S1x1x3 .f32) (xs2 : Vec F S1x1x3 .f32) (xs3 : Vec F S1x1x3 .f32) (xs4 : Vec F S1x1x3 .f32) :
    sout0_C_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 xs0 xs1 xs2 xs3 xs4 = Tile.accS0 x0 x1 xs0 := by
  unfold Tile.accS0
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 xs0 xs1 xs2 xs3 xs4)]
  unfold kernelRun0_C
  dsimp only
  sl_unfold_words
  rw [View.canon_unit_zero (S := S1x1x1) hz3]
  simp only [View.readAt_eq_ld, harg2.read_unread, harg3.read_unread, harg4.read_unread, harg10.read_unread, harg11.read_unread, harg12.read_unread, harg13.read_unread, harg14.read_unread, View.ld_unit_zero (S := S1x4x8x36864) hz4, View.ld_unit_zero (S := S1x8x36864) hz3, View.ld_unit_zero (S := S1x1x1) hz3, View.ld_unit_zero (S := S1x1x3) hz3]

/-- A batch's last tile leaves in accumulator 1 — the running minimum of the indicator times the distance — the same update of what the accumulator held as a
    middle tile does. -/
theorem sout_C_1 (c : Dev nD) (i : grid0.Coords) (arg2 : Memref sig .tc .vmem S1x4x8x36864 .f32) (harg2 : arg2.IsWhole) (arg3 : Memref sig .tc .vmem S1x8x36864 .i32) (harg3 : arg3.IsWhole) (arg4 : Memref sig .tc .vmem S1x8x36864 .f32) (harg4 : arg4.IsWhole) (arg5 : Memref sig .tc .vmem S1x1x1 .f32) (harg5 : arg5.IsWhole) (arg6 : Memref sig .tc .vmem S1x1x3 .f32) (harg6 : arg6.IsWhole) (arg7 : Memref sig .tc .vmem S1x1x3 .f32) (harg7 : arg7.IsWhole) (arg8 : Memref sig .tc .vmem S1x1x3 .f32) (harg8 : arg8.IsWhole) (arg9 : Memref sig .tc .vmem S1x1x3 .f32) (harg9 : arg9.IsWhole) (arg10 : Memref sig .tc .vmem S1x1x1 .f32) (harg10 : arg10.IsWhole) (arg11 : Memref sig .tc .vmem S1x1x3 .f32) (harg11 : arg11.IsWhole) (arg12 : Memref sig .tc .vmem S1x1x3 .f32) (harg12 : arg12.IsWhole) (arg13 : Memref sig .tc .vmem S1x1x3 .f32) (harg13 : arg13.IsWhole) (arg14 : Memref sig .tc .vmem S1x1x3 .f32) (harg14 : arg14.IsWhole) (hc0 : ¬cond0_0 i) (hc1 : cond0_1 i)
    (x0 : Vec F S1x4x8x36864 .f32) (x1 : Vec F S1x8x36864 .i32) (x2 : Vec F S1x8x36864 .f32) (xs0 : Vec F S1x1x1 .f32) (xs1 : Vec F S1x1x3 .f32) (xs2 : Vec F S1x1x3 .f32) (xs3 : Vec F S1x1x3 .f32) (xs4 : Vec F S1x1x3 .f32) :
    sout0_C_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 xs0 xs1 xs2 xs3 xs4 = Tile.accMin x1 x2 xs1 := by
  unfold Tile.accMin Tile.tileMin Tile.lab Tile.dst
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 xs0 xs1 xs2 xs3 xs4)]
  unfold kernelRun0_C
  dsimp only
  sl_unfold_words
  rw [View.canon_unit_zero (S := S1x1x3) hz3]
  simp only [View.readAt_eq_ld, harg2.read_unread, harg3.read_unread, harg4.read_unread, harg10.read_unread, harg11.read_unread, harg12.read_unread, harg13.read_unread, harg14.read_unread, View.ld_unit_zero (S := S1x4x8x36864) hz4, View.ld_unit_zero (S := S1x8x36864) hz3, View.ld_unit_zero (S := S1x1x1) hz3, View.ld_unit_zero (S := S1x1x3) hz3]

/-- A batch's last tile leaves in accumulator 2 — the running maximum of the indicator times the distance — the same update of what the accumulator held as a
    middle tile does. -/
theorem sout_C_2 (c : Dev nD) (i : grid0.Coords) (arg2 : Memref sig .tc .vmem S1x4x8x36864 .f32) (harg2 : arg2.IsWhole) (arg3 : Memref sig .tc .vmem S1x8x36864 .i32) (harg3 : arg3.IsWhole) (arg4 : Memref sig .tc .vmem S1x8x36864 .f32) (harg4 : arg4.IsWhole) (arg5 : Memref sig .tc .vmem S1x1x1 .f32) (harg5 : arg5.IsWhole) (arg6 : Memref sig .tc .vmem S1x1x3 .f32) (harg6 : arg6.IsWhole) (arg7 : Memref sig .tc .vmem S1x1x3 .f32) (harg7 : arg7.IsWhole) (arg8 : Memref sig .tc .vmem S1x1x3 .f32) (harg8 : arg8.IsWhole) (arg9 : Memref sig .tc .vmem S1x1x3 .f32) (harg9 : arg9.IsWhole) (arg10 : Memref sig .tc .vmem S1x1x1 .f32) (harg10 : arg10.IsWhole) (arg11 : Memref sig .tc .vmem S1x1x3 .f32) (harg11 : arg11.IsWhole) (arg12 : Memref sig .tc .vmem S1x1x3 .f32) (harg12 : arg12.IsWhole) (arg13 : Memref sig .tc .vmem S1x1x3 .f32) (harg13 : arg13.IsWhole) (arg14 : Memref sig .tc .vmem S1x1x3 .f32) (harg14 : arg14.IsWhole) (hc0 : ¬cond0_0 i) (hc1 : cond0_1 i)
    (x0 : Vec F S1x4x8x36864 .f32) (x1 : Vec F S1x8x36864 .i32) (x2 : Vec F S1x8x36864 .f32) (xs0 : Vec F S1x1x1 .f32) (xs1 : Vec F S1x1x3 .f32) (xs2 : Vec F S1x1x3 .f32) (xs3 : Vec F S1x1x3 .f32) (xs4 : Vec F S1x1x3 .f32) :
    sout0_C_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 xs0 xs1 xs2 xs3 xs4 = Tile.accMax x1 x2 xs2 := by
  unfold Tile.accMax Tile.tileMax Tile.lab Tile.dst
  unfold sout0_C_2
  rw [View.read_writes_eq_canon _ _ _ (scover0_C_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 xs0 xs1 xs2 xs3 xs4)]
  unfold kernelRun0_C
  dsimp only
  sl_unfold_words
  rw [View.canon_unit_zero (S := S1x1x3) hz3]
  simp only [View.readAt_eq_ld, harg2.read_unread, harg3.read_unread, harg4.read_unread, harg10.read_unread, harg11.read_unread, harg12.read_unread, harg13.read_unread, harg14.read_unread, View.ld_unit_zero (S := S1x4x8x36864) hz4, View.ld_unit_zero (S := S1x8x36864) hz3, View.ld_unit_zero (S := S1x1x1) hz3, View.ld_unit_zero (S := S1x1x3) hz3]

/-- A batch's last tile leaves in accumulator 3 — the sum of the indicator times the distance times the log-probability — the same update of what the accumulator held as a
    middle tile does. -/
theorem sout_C_3 (c : Dev nD) (i : grid0.Coords) (arg2 : Memref sig .tc .vmem S1x4x8x36864 .f32) (harg2 : arg2.IsWhole) (arg3 : Memref sig .tc .vmem S1x8x36864 .i32) (harg3 : arg3.IsWhole) (arg4 : Memref sig .tc .vmem S1x8x36864 .f32) (harg4 : arg4.IsWhole) (arg5 : Memref sig .tc .vmem S1x1x1 .f32) (harg5 : arg5.IsWhole) (arg6 : Memref sig .tc .vmem S1x1x3 .f32) (harg6 : arg6.IsWhole) (arg7 : Memref sig .tc .vmem S1x1x3 .f32) (harg7 : arg7.IsWhole) (arg8 : Memref sig .tc .vmem S1x1x3 .f32) (harg8 : arg8.IsWhole) (arg9 : Memref sig .tc .vmem S1x1x3 .f32) (harg9 : arg9.IsWhole) (arg10 : Memref sig .tc .vmem S1x1x1 .f32) (harg10 : arg10.IsWhole) (arg11 : Memref sig .tc .vmem S1x1x3 .f32) (harg11 : arg11.IsWhole) (arg12 : Memref sig .tc .vmem S1x1x3 .f32) (harg12 : arg12.IsWhole) (arg13 : Memref sig .tc .vmem S1x1x3 .f32) (harg13 : arg13.IsWhole) (arg14 : Memref sig .tc .vmem S1x1x3 .f32) (harg14 : arg14.IsWhole) (hc0 : ¬cond0_0 i) (hc1 : cond0_1 i)
    (x0 : Vec F S1x4x8x36864 .f32) (x1 : Vec F S1x8x36864 .i32) (x2 : Vec F S1x8x36864 .f32) (xs0 : Vec F S1x1x1 .f32) (xs1 : Vec F S1x1x3 .f32) (xs2 : Vec F S1x1x3 .f32) (xs3 : Vec F S1x1x3 .f32) (xs4 : Vec F S1x1x3 .f32) :
    sout0_C_3 c i arg2 harg2 arg3 harg3 arg4 harg4 arg5 harg5 arg6 harg6 arg7 harg7 arg8 harg8 arg9 harg9 arg10 harg10 arg11 harg11 arg12 harg12 arg13 harg13 arg14 harg14 hc0 hc1 x0 x1 x2 xs0 xs1 xs2 xs3 xs4 = Tile.accSzl x0 x1 x2 xs3 := by
  unfold Tile.accSzl Tile.tileSzl Tile.lab Tile.dst Tile.lsm
  unfold sout0_C_3
  rw [View.read_writes_eq_canon _ _ _ (scover0_C_3 c i arg2 harg2 arg3 harg3 arg4 harg4 arg5 harg5 arg6 harg6 arg7 harg7 arg8 harg8 arg9 harg9 arg10 harg10 arg11 harg11 arg12 harg12 arg13 harg13 arg14 harg14 hc0 hc1 x0 x1 x2 xs0 xs1 xs2 xs3 xs4)]
  unfold kernelRun0_C
  dsimp only
  sl_unfold_words
  rw [View.canon_unit_zero (S := S1x1x3) hz3]
  simp only [View.readAt_eq_ld, harg2.read_unread, harg3.read_unread, harg4.read_unread, harg10.read_unread, harg11.read_unread, harg12.read_unread, harg13.read_unread, harg14.read_unread, View.ld_unit_zero (S := S1x4x8x36864) hz4, View.ld_unit_zero (S := S1x8x36864) hz3, View.ld_unit_zero (S := S1x1x1) hz3, View.ld_unit_zero (S := S1x1x3) hz3]

/-- A batch's last tile leaves in accumulator 4 — the sum of the log-probabilities — the same update of what the accumulator held as a
    middle tile does. -/
theorem sout_C_4 (c : Dev nD) (i : grid0.Coords) (arg2 : Memref sig .tc .vmem S1x4x8x36864 .f32) (harg2 : arg2.IsWhole) (arg3 : Memref sig .tc .vmem S1x8x36864 .i32) (harg3 : arg3.IsWhole) (arg4 : Memref sig .tc .vmem S1x8x36864 .f32) (harg4 : arg4.IsWhole) (arg5 : Memref sig .tc .vmem S1x1x1 .f32) (harg5 : arg5.IsWhole) (arg6 : Memref sig .tc .vmem S1x1x3 .f32) (harg6 : arg6.IsWhole) (arg7 : Memref sig .tc .vmem S1x1x3 .f32) (harg7 : arg7.IsWhole) (arg8 : Memref sig .tc .vmem S1x1x3 .f32) (harg8 : arg8.IsWhole) (arg9 : Memref sig .tc .vmem S1x1x3 .f32) (harg9 : arg9.IsWhole) (arg10 : Memref sig .tc .vmem S1x1x1 .f32) (harg10 : arg10.IsWhole) (arg11 : Memref sig .tc .vmem S1x1x3 .f32) (harg11 : arg11.IsWhole) (arg12 : Memref sig .tc .vmem S1x1x3 .f32) (harg12 : arg12.IsWhole) (arg13 : Memref sig .tc .vmem S1x1x3 .f32) (harg13 : arg13.IsWhole) (arg14 : Memref sig .tc .vmem S1x1x3 .f32) (harg14 : arg14.IsWhole) (hc0 : ¬cond0_0 i) (hc1 : cond0_1 i)
    (x0 : Vec F S1x4x8x36864 .f32) (x1 : Vec F S1x8x36864 .i32) (x2 : Vec F S1x8x36864 .f32) (xs0 : Vec F S1x1x1 .f32) (xs1 : Vec F S1x1x3 .f32) (xs2 : Vec F S1x1x3 .f32) (xs3 : Vec F S1x1x3 .f32) (xs4 : Vec F S1x1x3 .f32) :
    sout0_C_4 c i arg2 harg2 arg3 harg3 arg4 harg4 arg5 harg5 arg6 harg6 arg7 harg7 arg8 harg8 arg9 harg9 arg10 harg10 arg11 harg11 arg12 harg12 arg13 harg13 arg14 harg14 hc0 hc1 x0 x1 x2 xs0 xs1 xs2 xs3 xs4 = Tile.accSl x0 xs4 := by
  unfold Tile.accSl Tile.tileSl Tile.lsm
  unfold sout0_C_4
  rw [View.read_writes_eq_canon _ _ _ (scover0_C_4 c i arg2 harg2 arg3 harg3 arg4 harg4 arg5 harg5 arg6 harg6 arg7 harg7 arg8 harg8 arg9 harg9 arg10 harg10 arg11 harg11 arg12 harg12 arg13 harg13 arg14 harg14 hc0 hc1 x0 x1 x2 xs0 xs1 xs2 xs3 xs4)]
  unfold kernelRun0_C
  dsimp only
  sl_unfold_words
  rw [View.canon_unit_zero (S := S1x1x3) hz3]
  simp only [View.readAt_eq_ld, harg2.read_unread, harg3.read_unread, harg4.read_unread, harg10.read_unread, harg11.read_unread, harg12.read_unread, harg13.read_unread, harg14.read_unread, View.ld_unit_zero (S := S1x4x8x36864) hz4, View.ld_unit_zero (S := S1x8x36864) hz3, View.ld_unit_zero (S := S1x1x1) hz3, View.ld_unit_zero (S := S1x1x3) hz3]

/-- A batch's last tile leaves in output 3 the updated accumulator 0 — the sum of the class-0 indicator times its log-probability: the copy's load reads back
    what the update's covering store left, and the copy's one store covers the output. -/
theorem out_C_3 (c : Dev nD) (i : grid0.Coords) (arg2 : Memref sig .tc .vmem S1x4x8x36864 .f32) (harg2 : arg2.IsWhole) (arg3 : Memref sig .tc .vmem S1x8x36864 .i32) (harg3 : arg3.IsWhole) (arg4 : Memref sig .tc .vmem S1x8x36864 .f32) (harg4 : arg4.IsWhole) (arg5 : Memref sig .tc .vmem S1x1x1 .f32) (harg5 : arg5.IsWhole) (arg6 : Memref sig .tc .vmem S1x1x3 .f32) (harg6 : arg6.IsWhole) (arg7 : Memref sig .tc .vmem S1x1x3 .f32) (harg7 : arg7.IsWhole) (arg8 : Memref sig .tc .vmem S1x1x3 .f32) (harg8 : arg8.IsWhole) (arg9 : Memref sig .tc .vmem S1x1x3 .f32) (harg9 : arg9.IsWhole) (arg10 : Memref sig .tc .vmem S1x1x1 .f32) (harg10 : arg10.IsWhole) (arg11 : Memref sig .tc .vmem S1x1x3 .f32) (harg11 : arg11.IsWhole) (arg12 : Memref sig .tc .vmem S1x1x3 .f32) (harg12 : arg12.IsWhole) (arg13 : Memref sig .tc .vmem S1x1x3 .f32) (harg13 : arg13.IsWhole) (arg14 : Memref sig .tc .vmem S1x1x3 .f32) (harg14 : arg14.IsWhole) (hc0 : ¬cond0_0 i) (hc1 : cond0_1 i)
    (x0 : Vec F S1x4x8x36864 .f32) (x1 : Vec F S1x8x36864 .i32) (x2 : Vec F S1x8x36864 .f32) (xs0 : Vec F S1x1x1 .f32) (xs1 : Vec F S1x1x3 .f32) (xs2 : Vec F S1x1x3 .f32) (xs3 : Vec F S1x1x3 .f32) (xs4 : Vec F S1x1x3 .f32) :
    out0_C_3 c i arg2 harg2 arg3 harg3 arg4 harg4 arg5 harg5 arg6 harg6 arg7 harg7 arg8 harg8 arg9 harg9 arg10 harg10 arg11 harg11 arg12 harg12 arg13 harg13 arg14 harg14 hc0 hc1 x0 x1 x2 xs0 xs1 xs2 xs3 xs4 = Tile.accS0 x0 x1 xs0 := by
  unfold Tile.accS0
  unfold out0_C_3
  rw [View.read_writes_eq_canon _ _ _ (cover0_C_3 c i arg2 harg2 arg3 harg3 arg4 harg4 arg5 harg5 arg6 harg6 arg7 harg7 arg8 harg8 arg9 harg9 arg10 harg10 arg11 harg11 arg12 harg12 arg13 harg13 arg14 harg14 hc0 hc1 x0 x1 x2 xs0 xs1 xs2 xs3 xs4)]
  unfold kernelRun0_C
  dsimp only
  sl_unfold_words
  rw [View.canon_unit_zero (S := S1x1x1) hz3, View.readCov_unit_zero (S := S1x1x1) _ hz3]
  simp only [View.readAt_eq_ld, harg2.read_unread, harg3.read_unread, harg4.read_unread, harg10.read_unread, harg11.read_unread, harg12.read_unread, harg13.read_unread, harg14.read_unread, View.ld_unit_zero (S := S1x4x8x36864) hz4, View.ld_unit_zero (S := S1x8x36864) hz3, View.ld_unit_zero (S := S1x1x1) hz3, View.ld_unit_zero (S := S1x1x3) hz3]

/-- A batch's last tile leaves in output 4 the updated accumulator 1 — the running minimum of the indicator times the distance: the copy's load reads back
    what the update's covering store left, and the copy's one store covers the output. -/
theorem out_C_4 (c : Dev nD) (i : grid0.Coords) (arg2 : Memref sig .tc .vmem S1x4x8x36864 .f32) (harg2 : arg2.IsWhole) (arg3 : Memref sig .tc .vmem S1x8x36864 .i32) (harg3 : arg3.IsWhole) (arg4 : Memref sig .tc .vmem S1x8x36864 .f32) (harg4 : arg4.IsWhole) (arg5 : Memref sig .tc .vmem S1x1x1 .f32) (harg5 : arg5.IsWhole) (arg6 : Memref sig .tc .vmem S1x1x3 .f32) (harg6 : arg6.IsWhole) (arg7 : Memref sig .tc .vmem S1x1x3 .f32) (harg7 : arg7.IsWhole) (arg8 : Memref sig .tc .vmem S1x1x3 .f32) (harg8 : arg8.IsWhole) (arg9 : Memref sig .tc .vmem S1x1x3 .f32) (harg9 : arg9.IsWhole) (arg10 : Memref sig .tc .vmem S1x1x1 .f32) (harg10 : arg10.IsWhole) (arg11 : Memref sig .tc .vmem S1x1x3 .f32) (harg11 : arg11.IsWhole) (arg12 : Memref sig .tc .vmem S1x1x3 .f32) (harg12 : arg12.IsWhole) (arg13 : Memref sig .tc .vmem S1x1x3 .f32) (harg13 : arg13.IsWhole) (arg14 : Memref sig .tc .vmem S1x1x3 .f32) (harg14 : arg14.IsWhole) (hc0 : ¬cond0_0 i) (hc1 : cond0_1 i)
    (x0 : Vec F S1x4x8x36864 .f32) (x1 : Vec F S1x8x36864 .i32) (x2 : Vec F S1x8x36864 .f32) (xs0 : Vec F S1x1x1 .f32) (xs1 : Vec F S1x1x3 .f32) (xs2 : Vec F S1x1x3 .f32) (xs3 : Vec F S1x1x3 .f32) (xs4 : Vec F S1x1x3 .f32) :
    out0_C_4 c i arg2 harg2 arg3 harg3 arg4 harg4 arg5 harg5 arg6 harg6 arg7 harg7 arg8 harg8 arg9 harg9 arg10 harg10 arg11 harg11 arg12 harg12 arg13 harg13 arg14 harg14 hc0 hc1 x0 x1 x2 xs0 xs1 xs2 xs3 xs4 = Tile.accMin x1 x2 xs1 := by
  unfold Tile.accMin Tile.tileMin Tile.lab Tile.dst
  unfold out0_C_4
  rw [View.read_writes_eq_canon _ _ _ (cover0_C_4 c i arg2 harg2 arg3 harg3 arg4 harg4 arg5 harg5 arg6 harg6 arg7 harg7 arg8 harg8 arg9 harg9 arg10 harg10 arg11 harg11 arg12 harg12 arg13 harg13 arg14 harg14 hc0 hc1 x0 x1 x2 xs0 xs1 xs2 xs3 xs4)]
  unfold kernelRun0_C
  dsimp only
  sl_unfold_words
  rw [View.canon_unit_zero (S := S1x1x3) hz3, View.readCov_unit_zero (S := S1x1x3) _ hz3]
  simp only [View.readAt_eq_ld, harg2.read_unread, harg3.read_unread, harg4.read_unread, harg10.read_unread, harg11.read_unread, harg12.read_unread, harg13.read_unread, harg14.read_unread, View.ld_unit_zero (S := S1x4x8x36864) hz4, View.ld_unit_zero (S := S1x8x36864) hz3, View.ld_unit_zero (S := S1x1x1) hz3, View.ld_unit_zero (S := S1x1x3) hz3]

/-- A batch's last tile leaves in output 5 the updated accumulator 2 — the running maximum of the indicator times the distance: the copy's load reads back
    what the update's covering store left, and the copy's one store covers the output. -/
theorem out_C_5 (c : Dev nD) (i : grid0.Coords) (arg2 : Memref sig .tc .vmem S1x4x8x36864 .f32) (harg2 : arg2.IsWhole) (arg3 : Memref sig .tc .vmem S1x8x36864 .i32) (harg3 : arg3.IsWhole) (arg4 : Memref sig .tc .vmem S1x8x36864 .f32) (harg4 : arg4.IsWhole) (arg5 : Memref sig .tc .vmem S1x1x1 .f32) (harg5 : arg5.IsWhole) (arg6 : Memref sig .tc .vmem S1x1x3 .f32) (harg6 : arg6.IsWhole) (arg7 : Memref sig .tc .vmem S1x1x3 .f32) (harg7 : arg7.IsWhole) (arg8 : Memref sig .tc .vmem S1x1x3 .f32) (harg8 : arg8.IsWhole) (arg9 : Memref sig .tc .vmem S1x1x3 .f32) (harg9 : arg9.IsWhole) (arg10 : Memref sig .tc .vmem S1x1x1 .f32) (harg10 : arg10.IsWhole) (arg11 : Memref sig .tc .vmem S1x1x3 .f32) (harg11 : arg11.IsWhole) (arg12 : Memref sig .tc .vmem S1x1x3 .f32) (harg12 : arg12.IsWhole) (arg13 : Memref sig .tc .vmem S1x1x3 .f32) (harg13 : arg13.IsWhole) (arg14 : Memref sig .tc .vmem S1x1x3 .f32) (harg14 : arg14.IsWhole) (hc0 : ¬cond0_0 i) (hc1 : cond0_1 i)
    (x0 : Vec F S1x4x8x36864 .f32) (x1 : Vec F S1x8x36864 .i32) (x2 : Vec F S1x8x36864 .f32) (xs0 : Vec F S1x1x1 .f32) (xs1 : Vec F S1x1x3 .f32) (xs2 : Vec F S1x1x3 .f32) (xs3 : Vec F S1x1x3 .f32) (xs4 : Vec F S1x1x3 .f32) :
    out0_C_5 c i arg2 harg2 arg3 harg3 arg4 harg4 arg5 harg5 arg6 harg6 arg7 harg7 arg8 harg8 arg9 harg9 arg10 harg10 arg11 harg11 arg12 harg12 arg13 harg13 arg14 harg14 hc0 hc1 x0 x1 x2 xs0 xs1 xs2 xs3 xs4 = Tile.accMax x1 x2 xs2 := by
  unfold Tile.accMax Tile.tileMax Tile.lab Tile.dst
  unfold out0_C_5
  rw [View.read_writes_eq_canon _ _ _ (cover0_C_5 c i arg2 harg2 arg3 harg3 arg4 harg4 arg5 harg5 arg6 harg6 arg7 harg7 arg8 harg8 arg9 harg9 arg10 harg10 arg11 harg11 arg12 harg12 arg13 harg13 arg14 harg14 hc0 hc1 x0 x1 x2 xs0 xs1 xs2 xs3 xs4)]
  unfold kernelRun0_C
  dsimp only
  sl_unfold_words
  rw [View.canon_unit_zero (S := S1x1x3) hz3, View.readCov_unit_zero (S := S1x1x3) _ hz3]
  simp only [View.readAt_eq_ld, harg2.read_unread, harg3.read_unread, harg4.read_unread, harg10.read_unread, harg11.read_unread, harg12.read_unread, harg13.read_unread, harg14.read_unread, View.ld_unit_zero (S := S1x4x8x36864) hz4, View.ld_unit_zero (S := S1x8x36864) hz3, View.ld_unit_zero (S := S1x1x1) hz3, View.ld_unit_zero (S := S1x1x3) hz3]

/-- A batch's last tile leaves in output 6 the updated accumulator 3 — the sum of the indicator times the distance times the log-probability: the copy's load reads back
    what the update's covering store left, and the copy's one store covers the output. -/
theorem out_C_6 (c : Dev nD) (i : grid0.Coords) (arg2 : Memref sig .tc .vmem S1x4x8x36864 .f32) (harg2 : arg2.IsWhole) (arg3 : Memref sig .tc .vmem S1x8x36864 .i32) (harg3 : arg3.IsWhole) (arg4 : Memref sig .tc .vmem S1x8x36864 .f32) (harg4 : arg4.IsWhole) (arg5 : Memref sig .tc .vmem S1x1x1 .f32) (harg5 : arg5.IsWhole) (arg6 : Memref sig .tc .vmem S1x1x3 .f32) (harg6 : arg6.IsWhole) (arg7 : Memref sig .tc .vmem S1x1x3 .f32) (harg7 : arg7.IsWhole) (arg8 : Memref sig .tc .vmem S1x1x3 .f32) (harg8 : arg8.IsWhole) (arg9 : Memref sig .tc .vmem S1x1x3 .f32) (harg9 : arg9.IsWhole) (arg10 : Memref sig .tc .vmem S1x1x1 .f32) (harg10 : arg10.IsWhole) (arg11 : Memref sig .tc .vmem S1x1x3 .f32) (harg11 : arg11.IsWhole) (arg12 : Memref sig .tc .vmem S1x1x3 .f32) (harg12 : arg12.IsWhole) (arg13 : Memref sig .tc .vmem S1x1x3 .f32) (harg13 : arg13.IsWhole) (arg14 : Memref sig .tc .vmem S1x1x3 .f32) (harg14 : arg14.IsWhole) (hc0 : ¬cond0_0 i) (hc1 : cond0_1 i)
    (x0 : Vec F S1x4x8x36864 .f32) (x1 : Vec F S1x8x36864 .i32) (x2 : Vec F S1x8x36864 .f32) (xs0 : Vec F S1x1x1 .f32) (xs1 : Vec F S1x1x3 .f32) (xs2 : Vec F S1x1x3 .f32) (xs3 : Vec F S1x1x3 .f32) (xs4 : Vec F S1x1x3 .f32) :
    out0_C_6 c i arg2 harg2 arg3 harg3 arg4 harg4 arg5 harg5 arg6 harg6 arg7 harg7 arg8 harg8 arg9 harg9 arg10 harg10 arg11 harg11 arg12 harg12 arg13 harg13 arg14 harg14 hc0 hc1 x0 x1 x2 xs0 xs1 xs2 xs3 xs4 = Tile.accSzl x0 x1 x2 xs3 := by
  unfold Tile.accSzl Tile.tileSzl Tile.lab Tile.dst Tile.lsm
  unfold out0_C_6
  rw [View.read_writes_eq_canon _ _ _ (cover0_C_6 c i arg2 harg2 arg3 harg3 arg4 harg4 arg5 harg5 arg6 harg6 arg7 harg7 arg8 harg8 arg9 harg9 arg10 harg10 arg11 harg11 arg12 harg12 arg13 harg13 arg14 harg14 hc0 hc1 x0 x1 x2 xs0 xs1 xs2 xs3 xs4)]
  unfold kernelRun0_C
  dsimp only
  sl_unfold_words
  rw [View.canon_unit_zero (S := S1x1x3) hz3, View.readCov_unit_zero (S := S1x1x3) _ hz3]
  simp only [View.readAt_eq_ld, harg2.read_unread, harg3.read_unread, harg4.read_unread, harg10.read_unread, harg11.read_unread, harg12.read_unread, harg13.read_unread, harg14.read_unread, View.ld_unit_zero (S := S1x4x8x36864) hz4, View.ld_unit_zero (S := S1x8x36864) hz3, View.ld_unit_zero (S := S1x1x1) hz3, View.ld_unit_zero (S := S1x1x3) hz3]

/-- A batch's last tile leaves in output 7 the updated accumulator 4 — the sum of the log-probabilities: the copy's load reads back
    what the update's covering store left, and the copy's one store covers the output. -/
theorem out_C_7 (c : Dev nD) (i : grid0.Coords) (arg2 : Memref sig .tc .vmem S1x4x8x36864 .f32) (harg2 : arg2.IsWhole) (arg3 : Memref sig .tc .vmem S1x8x36864 .i32) (harg3 : arg3.IsWhole) (arg4 : Memref sig .tc .vmem S1x8x36864 .f32) (harg4 : arg4.IsWhole) (arg5 : Memref sig .tc .vmem S1x1x1 .f32) (harg5 : arg5.IsWhole) (arg6 : Memref sig .tc .vmem S1x1x3 .f32) (harg6 : arg6.IsWhole) (arg7 : Memref sig .tc .vmem S1x1x3 .f32) (harg7 : arg7.IsWhole) (arg8 : Memref sig .tc .vmem S1x1x3 .f32) (harg8 : arg8.IsWhole) (arg9 : Memref sig .tc .vmem S1x1x3 .f32) (harg9 : arg9.IsWhole) (arg10 : Memref sig .tc .vmem S1x1x1 .f32) (harg10 : arg10.IsWhole) (arg11 : Memref sig .tc .vmem S1x1x3 .f32) (harg11 : arg11.IsWhole) (arg12 : Memref sig .tc .vmem S1x1x3 .f32) (harg12 : arg12.IsWhole) (arg13 : Memref sig .tc .vmem S1x1x3 .f32) (harg13 : arg13.IsWhole) (arg14 : Memref sig .tc .vmem S1x1x3 .f32) (harg14 : arg14.IsWhole) (hc0 : ¬cond0_0 i) (hc1 : cond0_1 i)
    (x0 : Vec F S1x4x8x36864 .f32) (x1 : Vec F S1x8x36864 .i32) (x2 : Vec F S1x8x36864 .f32) (xs0 : Vec F S1x1x1 .f32) (xs1 : Vec F S1x1x3 .f32) (xs2 : Vec F S1x1x3 .f32) (xs3 : Vec F S1x1x3 .f32) (xs4 : Vec F S1x1x3 .f32) :
    out0_C_7 c i arg2 harg2 arg3 harg3 arg4 harg4 arg5 harg5 arg6 harg6 arg7 harg7 arg8 harg8 arg9 harg9 arg10 harg10 arg11 harg11 arg12 harg12 arg13 harg13 arg14 harg14 hc0 hc1 x0 x1 x2 xs0 xs1 xs2 xs3 xs4 = Tile.accSl x0 xs4 := by
  unfold Tile.accSl Tile.tileSl Tile.lsm
  unfold out0_C_7
  rw [View.read_writes_eq_canon _ _ _ (cover0_C_7 c i arg2 harg2 arg3 harg3 arg4 harg4 arg5 harg5 arg6 harg6 arg7 harg7 arg8 harg8 arg9 harg9 arg10 harg10 arg11 harg11 arg12 harg12 arg13 harg13 arg14 harg14 hc0 hc1 x0 x1 x2 xs0 xs1 xs2 xs3 xs4)]
  unfold kernelRun0_C
  dsimp only
  sl_unfold_words
  rw [View.canon_unit_zero (S := S1x1x3) hz3, View.readCov_unit_zero (S := S1x1x3) _ hz3]
  simp only [View.readAt_eq_ld, harg2.read_unread, harg3.read_unread, harg4.read_unread, harg10.read_unread, harg11.read_unread, harg12.read_unread, harg13.read_unread, harg14.read_unread, View.ld_unit_zero (S := S1x4x8x36864) hz4, View.ld_unit_zero (S := S1x8x36864) hz3, View.ld_unit_zero (S := S1x1x1) hz3, View.ld_unit_zero (S := S1x1x3) hz3]

/-! ## A batch's first tile: each accumulator is reset, then updated from the reset value -/

/-- A batch's first tile leaves in accumulator 0 — the sum of the class-0 indicator times its log-probability — the tile's update of the reset value: the reset's
    store covers the accumulator, the update's load reads that value back, and the update's store, the later of the
    two, covers the accumulator again. -/
theorem sout_A_0 (c : Dev nD) (i : grid0.Coords) (arg2 : Memref sig .tc .vmem S1x4x8x36864 .f32) (harg2 : arg2.IsWhole) (arg3 : Memref sig .tc .vmem S1x8x36864 .i32) (harg3 : arg3.IsWhole) (arg4 : Memref sig .tc .vmem S1x8x36864 .f32) (harg4 : arg4.IsWhole) (arg5 : Memref sig .tc .vmem S1x1x1 .f32) (harg5 : arg5.IsWhole) (arg6 : Memref sig .tc .vmem S1x1x3 .f32) (harg6 : arg6.IsWhole) (arg7 : Memref sig .tc .vmem S1x1x3 .f32) (harg7 : arg7.IsWhole) (arg8 : Memref sig .tc .vmem S1x1x3 .f32) (harg8 : arg8.IsWhole) (arg9 : Memref sig .tc .vmem S1x1x3 .f32) (harg9 : arg9.IsWhole) (arg10 : Memref sig .tc .vmem S1x1x1 .f32) (harg10 : arg10.IsWhole) (arg11 : Memref sig .tc .vmem S1x1x3 .f32) (harg11 : arg11.IsWhole) (arg12 : Memref sig .tc .vmem S1x1x3 .f32) (harg12 : arg12.IsWhole) (arg13 : Memref sig .tc .vmem S1x1x3 .f32) (harg13 : arg13.IsWhole) (arg14 : Memref sig .tc .vmem S1x1x3 .f32) (harg14 : arg14.IsWhole) (hc0 : cond0_0 i) (hc1 : ¬cond0_1 i)
    (x0 : Vec F S1x4x8x36864 .f32) (x1 : Vec F S1x8x36864 .i32) (x2 : Vec F S1x8x36864 .f32) :
    sout0_A_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 = Tile.accS0 x0 x1 Tile.init0 := by
  unfold Tile.accS0 Tile.init0
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2)]
  unfold kernelRun0_A
  dsimp only
  sl_unfold_words
  rw [View.canon_cons_unit_zero (S := S1x1x1) hz3, View.readCov_unit_zero (S := S1x1x1) _ hz3]
  simp only [View.readAt_eq_ld, harg2.read_unread, harg3.read_unread, harg4.read_unread, harg10.read_unread, harg11.read_unread, harg12.read_unread, harg13.read_unread, harg14.read_unread, View.ld_unit_zero (S := S1x4x8x36864) hz4, View.ld_unit_zero (S := S1x8x36864) hz3, View.ld_unit_zero (S := S1x1x1) hz3, View.ld_unit_zero (S := S1x1x3) hz3]

/-- A batch's first tile leaves in accumulator 1 — the running minimum of the indicator times the distance — the tile's update of the reset value: the reset's
    store covers the accumulator, the update's load reads that value back, and the update's store, the later of the
    two, covers the accumulator again. -/
theorem sout_A_1 (c : Dev nD) (i : grid0.Coords) (arg2 : Memref sig .tc .vmem S1x4x8x36864 .f32) (harg2 : arg2.IsWhole) (arg3 : Memref sig .tc .vmem S1x8x36864 .i32) (harg3 : arg3.IsWhole) (arg4 : Memref sig .tc .vmem S1x8x36864 .f32) (harg4 : arg4.IsWhole) (arg5 : Memref sig .tc .vmem S1x1x1 .f32) (harg5 : arg5.IsWhole) (arg6 : Memref sig .tc .vmem S1x1x3 .f32) (harg6 : arg6.IsWhole) (arg7 : Memref sig .tc .vmem S1x1x3 .f32) (harg7 : arg7.IsWhole) (arg8 : Memref sig .tc .vmem S1x1x3 .f32) (harg8 : arg8.IsWhole) (arg9 : Memref sig .tc .vmem S1x1x3 .f32) (harg9 : arg9.IsWhole) (arg10 : Memref sig .tc .vmem S1x1x1 .f32) (harg10 : arg10.IsWhole) (arg11 : Memref sig .tc .vmem S1x1x3 .f32) (harg11 : arg11.IsWhole) (arg12 : Memref sig .tc .vmem S1x1x3 .f32) (harg12 : arg12.IsWhole) (arg13 : Memref sig .tc .vmem S1x1x3 .f32) (harg13 : arg13.IsWhole) (arg14 : Memref sig .tc .vmem S1x1x3 .f32) (harg14 : arg14.IsWhole) (hc0 : cond0_0 i) (hc1 : ¬cond0_1 i)
    (x0 : Vec F S1x4x8x36864 .f32) (x1 : Vec F S1x8x36864 .i32) (x2 : Vec F S1x8x36864 .f32) :
    sout0_A_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 = Tile.accMin x1 x2 Tile.initMin := by
  unfold Tile.accMin Tile.tileMin Tile.lab Tile.dst Tile.initMin
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2)]
  unfold kernelRun0_A
  dsimp only
  sl_unfold_words
  rw [View.canon_cons_unit_zero (S := S1x1x3) hz3, View.readCov_unit_zero (S := S1x1x3) _ hz3]
  simp only [View.readAt_eq_ld, harg2.read_unread, harg3.read_unread, harg4.read_unread, harg10.read_unread, harg11.read_unread, harg12.read_unread, harg13.read_unread, harg14.read_unread, View.ld_unit_zero (S := S1x4x8x36864) hz4, View.ld_unit_zero (S := S1x8x36864) hz3, View.ld_unit_zero (S := S1x1x1) hz3, View.ld_unit_zero (S := S1x1x3) hz3]

/-- A batch's first tile leaves in accumulator 2 — the running maximum of the indicator times the distance — the tile's update of the reset value: the reset's
    store covers the accumulator, the update's load reads that value back, and the update's store, the later of the
    two, covers the accumulator again. -/
theorem sout_A_2 (c : Dev nD) (i : grid0.Coords) (arg2 : Memref sig .tc .vmem S1x4x8x36864 .f32) (harg2 : arg2.IsWhole) (arg3 : Memref sig .tc .vmem S1x8x36864 .i32) (harg3 : arg3.IsWhole) (arg4 : Memref sig .tc .vmem S1x8x36864 .f32) (harg4 : arg4.IsWhole) (arg5 : Memref sig .tc .vmem S1x1x1 .f32) (harg5 : arg5.IsWhole) (arg6 : Memref sig .tc .vmem S1x1x3 .f32) (harg6 : arg6.IsWhole) (arg7 : Memref sig .tc .vmem S1x1x3 .f32) (harg7 : arg7.IsWhole) (arg8 : Memref sig .tc .vmem S1x1x3 .f32) (harg8 : arg8.IsWhole) (arg9 : Memref sig .tc .vmem S1x1x3 .f32) (harg9 : arg9.IsWhole) (arg10 : Memref sig .tc .vmem S1x1x1 .f32) (harg10 : arg10.IsWhole) (arg11 : Memref sig .tc .vmem S1x1x3 .f32) (harg11 : arg11.IsWhole) (arg12 : Memref sig .tc .vmem S1x1x3 .f32) (harg12 : arg12.IsWhole) (arg13 : Memref sig .tc .vmem S1x1x3 .f32) (harg13 : arg13.IsWhole) (arg14 : Memref sig .tc .vmem S1x1x3 .f32) (harg14 : arg14.IsWhole) (hc0 : cond0_0 i) (hc1 : ¬cond0_1 i)
    (x0 : Vec F S1x4x8x36864 .f32) (x1 : Vec F S1x8x36864 .i32) (x2 : Vec F S1x8x36864 .f32) :
    sout0_A_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 = Tile.accMax x1 x2 Tile.initMax := by
  unfold Tile.accMax Tile.tileMax Tile.lab Tile.dst Tile.initMax
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2)]
  unfold kernelRun0_A
  dsimp only
  sl_unfold_words
  rw [View.canon_cons_unit_zero (S := S1x1x3) hz3, View.readCov_unit_zero (S := S1x1x3) _ hz3]
  simp only [View.readAt_eq_ld, harg2.read_unread, harg3.read_unread, harg4.read_unread, harg10.read_unread, harg11.read_unread, harg12.read_unread, harg13.read_unread, harg14.read_unread, View.ld_unit_zero (S := S1x4x8x36864) hz4, View.ld_unit_zero (S := S1x8x36864) hz3, View.ld_unit_zero (S := S1x1x1) hz3, View.ld_unit_zero (S := S1x1x3) hz3]

/-- A batch's first tile leaves in accumulator 3 — the sum of the indicator times the distance times the log-probability — the tile's update of the reset value: the reset's
    store covers the accumulator, the update's load reads that value back, and the update's store, the later of the
    two, covers the accumulator again. -/
theorem sout_A_3 (c : Dev nD) (i : grid0.Coords) (arg2 : Memref sig .tc .vmem S1x4x8x36864 .f32) (harg2 : arg2.IsWhole) (arg3 : Memref sig .tc .vmem S1x8x36864 .i32) (harg3 : arg3.IsWhole) (arg4 : Memref sig .tc .vmem S1x8x36864 .f32) (harg4 : arg4.IsWhole) (arg5 : Memref sig .tc .vmem S1x1x1 .f32) (harg5 : arg5.IsWhole) (arg6 : Memref sig .tc .vmem S1x1x3 .f32) (harg6 : arg6.IsWhole) (arg7 : Memref sig .tc .vmem S1x1x3 .f32) (harg7 : arg7.IsWhole) (arg8 : Memref sig .tc .vmem S1x1x3 .f32) (harg8 : arg8.IsWhole) (arg9 : Memref sig .tc .vmem S1x1x3 .f32) (harg9 : arg9.IsWhole) (arg10 : Memref sig .tc .vmem S1x1x1 .f32) (harg10 : arg10.IsWhole) (arg11 : Memref sig .tc .vmem S1x1x3 .f32) (harg11 : arg11.IsWhole) (arg12 : Memref sig .tc .vmem S1x1x3 .f32) (harg12 : arg12.IsWhole) (arg13 : Memref sig .tc .vmem S1x1x3 .f32) (harg13 : arg13.IsWhole) (arg14 : Memref sig .tc .vmem S1x1x3 .f32) (harg14 : arg14.IsWhole) (hc0 : cond0_0 i) (hc1 : ¬cond0_1 i)
    (x0 : Vec F S1x4x8x36864 .f32) (x1 : Vec F S1x8x36864 .i32) (x2 : Vec F S1x8x36864 .f32) :
    sout0_A_3 c i arg2 harg2 arg3 harg3 arg4 harg4 arg5 harg5 arg6 harg6 arg7 harg7 arg8 harg8 arg9 harg9 arg10 harg10 arg11 harg11 arg12 harg12 arg13 harg13 arg14 harg14 hc0 hc1 x0 x1 x2 = Tile.accSzl x0 x1 x2 Tile.initSzl := by
  unfold Tile.accSzl Tile.tileSzl Tile.lab Tile.dst Tile.lsm Tile.initSzl
  unfold sout0_A_3
  rw [View.read_writes_eq_canon _ _ _ (scover0_A_3 c i arg2 harg2 arg3 harg3 arg4 harg4 arg5 harg5 arg6 harg6 arg7 harg7 arg8 harg8 arg9 harg9 arg10 harg10 arg11 harg11 arg12 harg12 arg13 harg13 arg14 harg14 hc0 hc1 x0 x1 x2)]
  unfold kernelRun0_A
  dsimp only
  sl_unfold_words
  rw [View.canon_cons_unit_zero (S := S1x1x3) hz3, View.readCov_unit_zero (S := S1x1x3) _ hz3]
  simp only [View.readAt_eq_ld, harg2.read_unread, harg3.read_unread, harg4.read_unread, harg10.read_unread, harg11.read_unread, harg12.read_unread, harg13.read_unread, harg14.read_unread, View.ld_unit_zero (S := S1x4x8x36864) hz4, View.ld_unit_zero (S := S1x8x36864) hz3, View.ld_unit_zero (S := S1x1x1) hz3, View.ld_unit_zero (S := S1x1x3) hz3]

/-- A batch's first tile leaves in accumulator 4 — the sum of the log-probabilities — the tile's update of the reset value: the reset's
    store covers the accumulator, the update's load reads that value back, and the update's store, the later of the
    two, covers the accumulator again. -/
theorem sout_A_4 (c : Dev nD) (i : grid0.Coords) (arg2 : Memref sig .tc .vmem S1x4x8x36864 .f32) (harg2 : arg2.IsWhole) (arg3 : Memref sig .tc .vmem S1x8x36864 .i32) (harg3 : arg3.IsWhole) (arg4 : Memref sig .tc .vmem S1x8x36864 .f32) (harg4 : arg4.IsWhole) (arg5 : Memref sig .tc .vmem S1x1x1 .f32) (harg5 : arg5.IsWhole) (arg6 : Memref sig .tc .vmem S1x1x3 .f32) (harg6 : arg6.IsWhole) (arg7 : Memref sig .tc .vmem S1x1x3 .f32) (harg7 : arg7.IsWhole) (arg8 : Memref sig .tc .vmem S1x1x3 .f32) (harg8 : arg8.IsWhole) (arg9 : Memref sig .tc .vmem S1x1x3 .f32) (harg9 : arg9.IsWhole) (arg10 : Memref sig .tc .vmem S1x1x1 .f32) (harg10 : arg10.IsWhole) (arg11 : Memref sig .tc .vmem S1x1x3 .f32) (harg11 : arg11.IsWhole) (arg12 : Memref sig .tc .vmem S1x1x3 .f32) (harg12 : arg12.IsWhole) (arg13 : Memref sig .tc .vmem S1x1x3 .f32) (harg13 : arg13.IsWhole) (arg14 : Memref sig .tc .vmem S1x1x3 .f32) (harg14 : arg14.IsWhole) (hc0 : cond0_0 i) (hc1 : ¬cond0_1 i)
    (x0 : Vec F S1x4x8x36864 .f32) (x1 : Vec F S1x8x36864 .i32) (x2 : Vec F S1x8x36864 .f32) :
    sout0_A_4 c i arg2 harg2 arg3 harg3 arg4 harg4 arg5 harg5 arg6 harg6 arg7 harg7 arg8 harg8 arg9 harg9 arg10 harg10 arg11 harg11 arg12 harg12 arg13 harg13 arg14 harg14 hc0 hc1 x0 x1 x2 = Tile.accSl x0 Tile.initSl := by
  unfold Tile.accSl Tile.tileSl Tile.lsm Tile.initSl
  unfold sout0_A_4
  rw [View.read_writes_eq_canon _ _ _ (scover0_A_4 c i arg2 harg2 arg3 harg3 arg4 harg4 arg5 harg5 arg6 harg6 arg7 harg7 arg8 harg8 arg9 harg9 arg10 harg10 arg11 harg11 arg12 harg12 arg13 harg13 arg14 harg14 hc0 hc1 x0 x1 x2)]
  unfold kernelRun0_A
  dsimp only
  sl_unfold_words
  rw [View.canon_cons_unit_zero (S := S1x1x3) hz3, View.readCov_unit_zero (S := S1x1x3) _ hz3]
  simp only [View.readAt_eq_ld, harg2.read_unread, harg3.read_unread, harg4.read_unread, harg10.read_unread, harg11.read_unread, harg12.read_unread, harg13.read_unread, harg14.read_unread, View.ld_unit_zero (S := S1x4x8x36864) hz4, View.ld_unit_zero (S := S1x8x36864) hz3, View.ld_unit_zero (S := S1x1x1) hz3, View.ld_unit_zero (S := S1x1x3) hz3]

end Cert.KernelIdeal.Pieces

end
-- ==== Proof.Spec.lean ====
/-
  The loss both programs compute, as one function of the three argument arrays on the extended reals.

  A voxel (b, d, h, w) carries four logits x₀..x₃, a class label t and a distance δ. With
  M = max_k x_k, the log-probability of class c is  (x_c - M) - log Σ_k exp (x_k - M).  The target of
  class 0 is the indicator [t = 0]; the target of a class c ≥ 1 is the indicator times δ, shifted and
  scaled per (batch, class) by the minimum and the maximum of that product over all voxels of the batch:
  (z - mn) / (mx + ε - mn).  The loss is minus the mean over batches and voxels of Σ_c target_c · logp_c.

  One program forms that sum voxel by voxel (`refLoss`); the other accumulates, per batch and class,
  Σ z·logp, Σ logp, the minimum and the maximum, and finishes with
  (Σ z·logp - mn · Σ logp) / (mx + ε - mn)  (`kernelLoss`).  The two agree when every entry is a real
  number: then every quantity below is real, the denominator is at least ε > 0, and the identity is
  distributivity of the finite sums.

  The second half states the same per-voxel quantities over one tile of the data (one batch, eight
  consecutive depth slices, the 192 × 192 plane laid out as one axis of 36864), which is what one grid
  point of the accumulating program sees.
-/
import Idealize.ShloMosaic.PureOps.Ideal.Laws
import Idealize.ShloMosaic.Lib.ValueIdx

noncomputable section

namespace Cert.SoftCE

open Idealize.ShloMosaic Idealize.ShloMosaic.ValueIdx

/-! ## One voxel -/

/-- The largest of a voxel's four logits (a fold of `max` from the bottom). -/
def vmax (x : Fin 4 → EReal) : EReal := (Finset.univ : Finset (Fin 4)).fold max ⊥ x

/-- The log-probability of class `c` at a voxel with logits `x`. -/
def logp (x : Fin 4 → EReal) (c : Fin 4) : EReal :=
  (x c - vmax x) - Ideal.log (∑ k : Fin 4, Ideal.exp (x k - vmax x))

/-- The indicator that the label `t` is class `c`. -/
def hot (t : BitVec 32) (c : ℕ) : EReal := if t = BitVec.ofNat 32 c then 1 else 0

/-- The f32 literal ε added to the maximum in the denominator. -/
def eps : EReal := Ideal.ofBits .f32 0x322BCC77#32

/-- The f32 literal 2·128·192·192, the number of voxels the mean divides by. -/
def cnt : EReal := Ideal.ofBits .f32 0x4B100000#32

/-! ## The whole arrays -/

abbrev SX : Shape := ⟨5, ![2, 4, 128, 192, 192]⟩
abbrev ST : Shape := ⟨5, ![2, 1, 128, 192, 192]⟩
abbrev SD : Shape := ⟨4, ![2, 128, 192, 192]⟩

section Whole

variable (X : SX.Idx → EReal) (T : ST.Idx → BitVec 32) (D : SD.Idx → EReal)

/-- The four logits at voxel (b, d, h, w). -/
def xs (b : Fin 2) (d : Fin 128) (h w : Fin 192) : Fin 4 → EReal := fun k => X (ix5 b k d h w)

/-- The log-probability of class `c` at voxel (b, d, h, w). -/
def lp (b : Fin 2) (c : Fin 4) (d : Fin 128) (h w : Fin 192) : EReal := logp (xs X b d h w) c

/-- The label at voxel (b, d, h, w). -/
def tg (b : Fin 2) (d : Fin 128) (h w : Fin 192) : BitVec 32 := T (ix5 b 0 d h w)

/-- The indicator of class `c` times the distance, at voxel (b, d, h, w). -/
def zz (b : Fin 2) (c : Fin 4) (d : Fin 128) (h w : Fin 192) : EReal :=
  hot (tg T b d h w) c.val * D (ix4 b d h w)

/-- The minimum of `zz` over the voxels of batch `b`, for class `c`. -/
def mn (b : Fin 2) (c : Fin 4) : EReal := ⨅ d : Fin 128, ⨅ h : Fin 192, ⨅ w : Fin 192, zz T D b c d h w

/-- The maximum of `zz` over the voxels of batch `b`, for class `c`. -/
def mx (b : Fin 2) (c : Fin 4) : EReal := ⨆ d : Fin 128, ⨆ h : Fin 192, ⨆ w : Fin 192, zz T D b c d h w

/-- The denominator of the normalisation, in the order both programs compute it: (mx + ε) - mn. -/
def den (b : Fin 2) (c : Fin 4) : EReal := (mx T D b c + eps) - mn T D b c

/-- Σ over the voxels of batch `b` of [t = 0] · logp₀. -/
def s0 (b : Fin 2) : EReal :=
  ∑ d : Fin 128, ∑ h : Fin 192, ∑ w : Fin 192, hot (tg T b d h w) 0 * lp X b 0 d h w

/-- Σ over the voxels of batch `b` of z_c · logp_c. -/
def szl (b : Fin 2) (c : Fin 4) : EReal :=
  ∑ d : Fin 128, ∑ h : Fin 192, ∑ w : Fin 192, zz T D b c d h w * lp X b c d h w

/-- Σ over the voxels of batch `b` of logp_c. -/
def sl (b : Fin 2) (c : Fin 4) : EReal :=
  ∑ d : Fin 128, ∑ h : Fin 192, ∑ w : Fin 192, lp X b c d h w

/-- The accumulating program's result: the per-(batch, class) sums finished by six scalar operations,
    added up, negated, divided by the voxel count. -/
def kernelLoss : EReal :=
  Ideal.div (-((∑ b : Fin 2, s0 X T b)
    + (∑ b : Fin 2, ∑ c : Fin 3,
        Ideal.div (szl X T D b c.succ - mn T D b c.succ * sl X b c.succ) (den T D b c.succ)))) cnt

/-- The soft target of class `c` at voxel (b, d, h, w). -/
def soft (b : Fin 2) (c : Fin 4) (d : Fin 128) (h w : Fin 192) : EReal :=
  if c = 0 then hot (tg T b d h w) 0 else Ideal.div (zz T D b c d h w - mn T D b c) (den T D b c)

/-- The voxel-by-voxel program's result: minus the mean of Σ_c target_c · logp_c. -/
def refLoss : EReal :=
  -(Ideal.div (∑ b : Fin 2, ∑ d : Fin 128, ∑ h : Fin 192, ∑ w : Fin 192,
      ∑ c : Fin 4, soft T D b c d h w * lp X b c d h w) cnt)

end Whole

/-! ## One tile: one batch, eight depth slices, the plane as one axis of 36864 -/

abbrev BX : Shape := ⟨4, ![1, 4, 8, 36864]⟩
abbrev BT : Shape := ⟨3, ![1, 8, 36864]⟩

section Tile

variable (x0 : BX.Idx → EReal) (x1 : BT.Idx → BitVec 32) (x2 : BT.Idx → EReal)

/-- The four logits at row `r`, position `l` of the tile. -/
def bxs (r : Fin 8) (l : Fin 36864) : Fin 4 → EReal := fun k => x0 (ix4 0 k r l)

/-- The log-probability of class `c` at row `r`, position `l` of the tile. -/
def blp (c : Fin 4) (r : Fin 8) (l : Fin 36864) : EReal := logp (bxs x0 r l) c

/-- The indicator of class `c` times the distance, at row `r`, position `l` of the tile. -/
def bzz (c : ℕ) (r : Fin 8) (l : Fin 36864) : EReal := hot (x1 (ix3 0 r l)) c * x2 (ix3 0 r l)

/-- The tile's part of Σ [t = 0] · logp₀. -/
def tS0 : EReal := ∑ r : Fin 8, ∑ l : Fin 36864, hot (x1 (ix3 0 r l)) 0 * blp x0 0 r l

/-- The tile's minimum of z_c. -/
def tMn (c : ℕ) : EReal := ⨅ r : Fin 8, ⨅ l : Fin 36864, bzz x1 x2 c r l

/-- The tile's maximum of z_c. -/
def tMx (c : ℕ) : EReal := ⨆ r : Fin 8, ⨆ l : Fin 36864, bzz x1 x2 c r l

/-- The tile's part of Σ z_c · logp_c. -/
def tSzl (c : Fin 4) : EReal := ∑ r : Fin 8, ∑ l : Fin 36864, bzz x1 x2 c.val r l * blp x0 c r l

/-- The tile's part of Σ logp_c. -/
def tSl (c : Fin 4) : EReal := ∑ r : Fin 8, ∑ l : Fin 36864, blp x0 c r l

end Tile

/-! ## A tile's place in the whole: depth 8·n + r, and position l = 192·h + w of the plane -/

/-- Row `r` of depth tile `n` is depth slice 8·n + r. -/
def dOf (n : Fin 16) (r : Fin 8) : Fin 128 := ⟨8 * n.val + r.val, by have := n.isLt; have := r.isLt; omega⟩

/-- Position `l` of the flattened plane lies in row l / 192 … -/
def hOf (l : Fin 36864) : Fin 192 := ⟨l.val / 192, by have := l.isLt; omega⟩

/-- … and column l % 192. -/
def wOf (l : Fin 36864) : Fin 192 := ⟨l.val % 192, Nat.mod_lt _ (by decide)⟩

end Cert.SoftCE

end
-- ==== Proof.TileSums.lean ====
/-
  What one tile adds to the four running sums, on the extended reals.

  The body's stored values (the compositions named in TileDefs) are read here at an index and identified with the
  tile quantities of the specification: the shifted log-softmax at a voxel is `blp`; the new value of each sum
  accumulator is its old value plus the tile's part, `tS0`, `tSzl`, `tSl`; and the three sum accumulators start at 0.

  The reading goes operation by operation.  A reshape that drops or adds a unit axis keeps the row-major position; a
  broadcast along the class axis repeats the row; a slice of one class shifts the class coordinate; a maximum or a sum
  over the class axis is a fold of `max` from -∞, or a sum, over the four classes; a sum over the positions of a row and
  then over the eight rows, carried to a one-element vector, is the double sum over the tile; the label mask is the
  indicator of the label; and three one-element vectors laid side by side are read back one per lane.
-/
import proofs.«152530_j15169824489490_2_alg».proof.Proof.TileDefs
import proofs.«152530_j15169824489490_2_alg».proof.Proof.Spec
import Idealize.ShloMosaic.PureOps.Ideal.Laws
import Idealize.ShloMosaic.Lib.ValueIdx
import Idealize.ShloMosaic.Lib.Pipeline.Value

noncomputable section

namespace Cert.KernelIdeal.TileValue

open Cert.SoftCE Cert.KernelIdeal Cert.KernelIdeal.Gen Cert.KernelIdeal.Tile Idealize.ShloMosaic Idealize.ShloMosaic.ValueIdx

namespace Sums

/-! ## Reshapes, the class broadcast, one class's slice, and the coordinates a one-axis reduction inserts -/

section Layout
variable {α : Type}

theorem cast4to3 (x : S1x4x8x36864.Idx → α) (k : Fin 4) (r : Fin 8) (l : Fin 36864) :
    shapeCast S4x8x36864 x shapeCasts_S1x4x8x36864_S4x8x36864 (ix3 k r l) = x (ix4 0 k r l) := by
  refine shapeCast_apply x _ _ _ ?_
  rw [Shape.rowMajor_val_four, Shape.rowMajor_val_three]
  show ((0 * 4 + k.val) * 8 + r.val) * 36864 + l.val = (k.val * 8 + r.val) * 36864 + l.val
  omega

theorem cast3to2 (x : S1x8x36864.Idx → α) (r : Fin 8) (l : Fin 36864) :
    shapeCast S8x36864 x shapeCasts_S1x8x36864_S8x36864 (ix2 r l) = x (ix3 0 r l) := by
  refine shapeCast_apply x _ _ _ ?_
  rw [Shape.rowMajor_val_three, Shape.rowMajor_val_two]
  show (0 * 8 + r.val) * 36864 + l.val = r.val * 36864 + l.val
  omega

theorem cast2to3 (x : S8x36864.Idx → α) (r : Fin 8) (l : Fin 36864) :
    shapeCast S1x8x36864 x shapeCasts_S8x36864_S1x8x36864 (ix3 0 r l) = x (ix2 r l) := by
  refine shapeCast_apply x _ _ _ ?_
  rw [Shape.rowMajor_val_three, Shape.rowMajor_val_two]
  show r.val * 36864 + l.val = (0 * 8 + r.val) * 36864 + l.val
  omega

theorem bcast (x : S1x8x36864.Idx → α) (k : Fin 4) (r : Fin 8) (l : Fin 36864) :
    broadcastTo S4x8x36864 x broadcasts_S1x8x36864_S4x8x36864 (ix3 k r l) = x (ix3 0 r l) := by
  refine broadcastTo_apply x _ _ _ fun a => ?_
  match a with
  | ⟨0, _⟩ => rfl
  | ⟨1, _⟩ => rfl
  | ⟨2, _⟩ => rfl

theorem lift0 (r : Fin 8) (l : Fin 36864) (k : Fin 4) :
    reduces_S4x8x36864_S8x36864.lift (ix2 r l) k = ix3 k r l := by
  funext a
  match a with
  | ⟨0, _⟩ => exact Fin.ext rfl
  | ⟨1, _⟩ => exact Fin.ext rfl
  | ⟨2, _⟩ => exact Fin.ext rfl

end Layout

/-! ## One-axis reductions on the extended reals -/

/-- The f32 pattern of -∞ denotes the bottom element. -/
theorem ofBits_neg_inf : Ideal.ofBits .f32 0xFF800000#32 = ⊥ := by simp [Ideal.ofBits, Ideal.ieee]

section AtIdeal
variable {s : Shape} {φ : FTy}
theorem exp_apply (a : FVec Ideal s φ) (i : s.Idx) : exp a i = Ideal.exp (a i) := rfl
theorem log_apply (a : FVec Ideal s φ) (i : s.Idx) : log a i = Ideal.log (a i) := rfl
end AtIdeal

theorem lift1 (r : Fin 8) (l : Fin 36864) : reduces_S8x36864_S8.lift (ix1 r) l = ix2 r l := by
  funext a
  match a with
  | ⟨0, _⟩ => exact Fin.ext rfl
  | ⟨1, _⟩ => exact Fin.ext rfl

theorem liftRows (r : Fin 8) : reduces_S8x1_S1.lift (ix1 (0 : Fin 1)) r = ix2 r (0 : Fin 1) := by
  funext a
  match a with
  | ⟨0, _⟩ => exact Fin.ext rfl
  | ⟨1, _⟩ => exact Fin.ext rfl

theorem redmax0 (src : FVec Ideal S4x8x36864 .f32) (hφ : FKind.Formats .f32)
    (hacc : (0xFF800000#32 : BitVec 32) = 0xFF800000#32) (r : Fin 8) (l : Fin 36864) :
    multiReduction (F := Ideal) .maximumf [0] S8x36864 src 0xFF800000#32 reduces_S4x8x36864_S8x36864 hφ hacc (ix2 r l)
      = (Finset.univ : Finset (Fin 4)).fold max ⊥ (fun k => src (ix3 k r l)) := by
  refine (Ideal.multiReduction_maximumf_single src (0xFF800000#32) reduces_S4x8x36864_S8x36864 hφ hacc (ix2 r l)).trans ?_
  rw [Ideal.ofBits_def, ofBits_neg_inf]
  congr 1
  funext k
  exact congrArg src (lift0 r l k)

theorem redadd0 (src : FVec Ideal S4x8x36864 .f32) (hφ : FKind.Formats .f32)
    (hacc : (0x00000000#32 : BitVec 32) = 0x00000000#32) (r : Fin 8) (l : Fin 36864) :
    multiReduction (F := Ideal) .add [0] S8x36864 src 0x00000000#32 reduces_S4x8x36864_S8x36864 hφ hacc (ix2 r l)
      = ∑ k : Fin 4, src (ix3 k r l) := by
  refine (Ideal.multiReduction_add_single src (0x00000000#32) reduces_S4x8x36864_S8x36864 hφ hacc (ix2 r l)).trans ?_
  exact Finset.sum_congr rfl fun k _ => congrArg src (lift0 r l k)

theorem redadd1 (src : FVec Ideal S8x36864 .f32) (hφ : FKind.Formats .f32)
    (hacc : (0x00000000#32 : BitVec 32) = 0x00000000#32) (r : Fin 8) :
    multiReduction (F := Ideal) .add [1] S8 src 0x00000000#32 reduces_S8x36864_S8 hφ hacc (ix1 r)
      = ∑ l : Fin 36864, src (ix2 r l) := by
  refine (Ideal.multiReduction_add_single src (0x00000000#32) reduces_S8x36864_S8 hφ hacc (ix1 r)).trans ?_
  exact Finset.sum_congr rfl fun l _ => congrArg src (lift1 r l)

theorem redaddRows (src : FVec Ideal S8x1 .f32) (hφ : FKind.Formats .f32)
    (hacc : (0x00000000#32 : BitVec 32) = 0x00000000#32) :
    multiReduction (F := Ideal) .add [0] S1 src 0x00000000#32 reduces_S8x1_S1 hφ hacc (ix1 (0 : Fin 1))
      = ∑ r : Fin 8, src (ix2 r (0 : Fin 1)) := by
  refine (Ideal.multiReduction_add_single src (0x00000000#32) reduces_S8x1_S1 hφ hacc (ix1 0)).trans ?_
  exact Finset.sum_congr rfl fun r _ => congrArg src (liftRows r)

/-! ## The shifted log-softmax at a voxel -/

/-- Subtracting the class maximum, broadcast back over the classes, at a voxel. -/
theorem shifted_apply (v : FVec Ideal S4x8x36864 .f32) (hφ : FKind.Formats .f32)
    (hacc : (0xFF800000#32 : BitVec 32) = 0xFF800000#32) (k : Fin 4) (r : Fin 8) (l : Fin 36864) :
    subf v (broadcastTo S4x8x36864 (shapeCast S1x8x36864
        (multiReduction (F := Ideal) .maximumf [0] S8x36864 v 0xFF800000#32 reduces_S4x8x36864_S8x36864 hφ hacc)
        shapeCasts_S8x36864_S1x8x36864) broadcasts_S1x8x36864_S4x8x36864) (ix3 k r l)
      = v (ix3 k r l) - (Finset.univ : Finset (Fin 4)).fold max ⊥ (fun k' => v (ix3 k' r l)) := by
  rw [subf_apply, bcast, cast2to3, redmax0]

variable (x0 : Vec Ideal S1x4x8x36864 .f32)

theorem fold_cast (r : Fin 8) (l : Fin 36864) :
    (Finset.univ : Finset (Fin 4)).fold max ⊥
        (fun k' => shapeCast S4x8x36864 x0 shapeCasts_S1x4x8x36864_S4x8x36864 (ix3 k' r l)) = vmax (bxs x0 r l) := by
  unfold vmax
  congr 1
  funext k'
  exact cast4to3 x0 k' r l

theorem pay12_apply (k : Fin 4) (r : Fin 8) (l : Fin 36864) : k0_pay12 x0 (ix3 k r l) = blp x0 k r l := by
  unfold k0_pay12
  rw [subf_apply, bcast, log_apply, cast2to3, redadd0, shifted_apply, fold_cast, cast4to3]
  unfold blp logp
  refine congrArg (fun s => (bxs x0 r l k - vmax (bxs x0 r l)) - Ideal.log s) ?_
  refine Finset.sum_congr rfl fun k' _ => ?_
  rw [exp_apply, shifted_apply, fold_cast, cast4to3]
  rfl

/-! ## Unit-axis reshapes, the double sum of a tile, the label mask, three lanes side by side -/

section Layout2
variable {α : Type}

theorem castS8x1 (x : S8.Idx → α) (r : Fin 8) :
    shapeCast S8x1 x shapeCasts_S8_S8x1 (ix2 r (0 : Fin 1)) = x (ix1 r) := by
  refine shapeCast_apply x _ _ _ ?_
  rw [Shape.rowMajor_val_one, Shape.rowMajor_val_two]
  show r.val = r.val * 1 + 0
  omega

theorem castS1x1 (x : S1.Idx → α) :
    shapeCast S1x1 x shapeCasts_S1_S1x1 (ix2 (0 : Fin 1) (0 : Fin 1)) = x (ix1 (0 : Fin 1)) := by
  refine shapeCast_apply x _ _ _ ?_
  rw [Shape.rowMajor_val_one, Shape.rowMajor_val_two]
  rfl

theorem castS1x1x1 (x : S1x1.Idx → α) :
    shapeCast S1x1x1 x shapeCasts_S1x1_S1x1x1 (ix3 (0 : Fin 1) (0 : Fin 1) (0 : Fin 1)) = x (ix2 (0 : Fin 1) (0 : Fin 1)) := by
  refine shapeCast_apply x _ _ _ ?_
  rw [Shape.rowMajor_val_two, Shape.rowMajor_val_three]
  rfl

theorem idx111 (j : S1x1x1.Idx) : j = ix3 (0 : Fin 1) (0 : Fin 1) (0 : Fin 1) := by
  funext a
  match a with
  | ⟨0, _⟩ => exact Fin.ext (by have := (j 0).isLt; show (j 0).val = 0; change (j 0).val < 1 at this; omega)
  | ⟨1, _⟩ => exact Fin.ext (by have := (j 1).isLt; show (j 1).val = 0; change (j 1).val < 1 at this; omega)
  | ⟨2, _⟩ => exact Fin.ext (by have := (j 2).isLt; show (j 2).val = 0; change (j 2).val < 1 at this; omega)

theorem slice_apply (o : ℕ) (ho : o < 4) (h : S4x8x36864.Slices ![o, 0, 0] S1x8x36864) (v : S4x8x36864.Idx → α)
    (r : Fin 8) (l : Fin 36864) :
    extractStridedSlice S1x8x36864 ![o, 0, 0] v h (ix3 (0 : Fin 1) r l) = v (ix3 (⟨o, ho⟩ : Fin 4) r l) := by
  refine extractStridedSlice_apply _ v h _ _ fun a => ?_
  match a with
  | ⟨0, _⟩ => rfl
  | ⟨1, _⟩ => exact (Nat.zero_add _).symm
  | ⟨2, _⟩ => exact (Nat.zero_add _).symm

end Layout2

theorem total_apply (v : FVec Ideal S8x36864 .f32) (hφ hφ' : FKind.Formats .f32)
    (hacc hacc' : (0x00000000#32 : BitVec 32) = 0x00000000#32) :
    shapeCast S1x1x1 (shapeCast S1x1 (multiReduction (F := Ideal) .add [0] S1
        (shapeCast S8x1 (multiReduction (F := Ideal) .add [1] S8 v 0x00000000#32 reduces_S8x36864_S8 hφ hacc) shapeCasts_S8_S8x1)
        0x00000000#32 reduces_S8x1_S1 hφ' hacc') shapeCasts_S1_S1x1) shapeCasts_S1x1_S1x1x1
        (ix3 (0 : Fin 1) (0 : Fin 1) (0 : Fin 1))
      = ∑ r : Fin 8, ∑ l : Fin 36864, v (ix2 r l) := by
  rw [castS1x1x1, castS1x1, redaddRows]
  refine Finset.sum_congr rfl fun r _ => ?_
  rw [castS8x1, redadd1]

theorem mask_apply (lab : IVec S8x36864 32) (n : ℕ) (i : S8x36864.Idx) :
    (sitofp .f32 (extui 32 (cmpi .eq lab (broadcast S8x36864 (BitVec.ofNat 32 n))) natLt_1_32) : FVec Ideal S8x36864 .f32) i
      = hot (lab i) n := by
  show (((((IntOp.cmpi .eq (lab i) (BitVec.ofNat 32 n)).setWidth 32).toInt : ℝ)) : EReal) = _
  unfold hot IntOp.cmpi
  by_cases h : lab i = BitVec.ofNat 32 n
  · simp [h]
  · have hb : (lab i == BitVec.ofNat 32 n) = false := beq_eq_false_iff_ne.mpr h
    simp [hb, h]

theorem concat3 {α : Type} (a b c : S1x1x1.Idx → α) :
    concatenate S1x1x3 2 [⟨S1x1x1, a⟩, ⟨S1x1x1, b⟩, ⟨S1x1x1, c⟩] concatenates_S1x1x1_S1x1x1_S1x1x1_S1x1x3_d2
        (ix3 (0 : Fin 1) (0 : Fin 1) (0 : Fin 3)) = a (ix3 (0 : Fin 1) (0 : Fin 1) (0 : Fin 1))
    ∧ concatenate S1x1x3 2 [⟨S1x1x1, a⟩, ⟨S1x1x1, b⟩, ⟨S1x1x1, c⟩] concatenates_S1x1x1_S1x1x1_S1x1x1_S1x1x3_d2
        (ix3 (0 : Fin 1) (0 : Fin 1) (1 : Fin 3)) = b (ix3 (0 : Fin 1) (0 : Fin 1) (0 : Fin 1))
    ∧ concatenate S1x1x3 2 [⟨S1x1x1, a⟩, ⟨S1x1x1, b⟩, ⟨S1x1x1, c⟩] concatenates_S1x1x1_S1x1x1_S1x1x1_S1x1x3_d2
        (ix3 (0 : Fin 1) (0 : Fin 1) (2 : Fin 3)) = c (ix3 (0 : Fin 1) (0 : Fin 1) (0 : Fin 1)) := by
  refine ⟨?_, ?_, ?_⟩
  · refine concatenate_apply_piece 2 [⟨S1x1x1, a⟩, ⟨S1x1x1, b⟩, ⟨S1x1x1, c⟩] concatenates_S1x1x1_S1x1x1_S1x1x1_S1x1x3_d2 _ 0 (by show (0 : ℕ) < 3; omega) S1x1x1 a rfl rfl 0 rfl _ (fun b hb => ?_) rfl
    match b with
    | ⟨0, _⟩ => rfl
    | ⟨1, _⟩ => rfl
    | ⟨2, _⟩ => exact absurd rfl hb
  · refine concatenate_apply_piece 2 [⟨S1x1x1, a⟩, ⟨S1x1x1, b⟩, ⟨S1x1x1, c⟩] concatenates_S1x1x1_S1x1x1_S1x1x1_S1x1x3_d2 _ 1 (by show (1 : ℕ) < 3; omega) S1x1x1 b rfl rfl 1 rfl _ (fun b hb => ?_) rfl
    match b with
    | ⟨0, _⟩ => rfl
    | ⟨1, _⟩ => rfl
    | ⟨2, _⟩ => exact absurd rfl hb
  · refine concatenate_apply_piece 2 [⟨S1x1x1, a⟩, ⟨S1x1x1, b⟩, ⟨S1x1x1, c⟩] concatenates_S1x1x1_S1x1x1_S1x1x1_S1x1x3_d2 _ 2 (by show (2 : ℕ) < 3; omega) S1x1x1 c rfl rfl 2 rfl _ (fun b hb => ?_) rfl
    match b with
    | ⟨0, _⟩ => rfl
    | ⟨1, _⟩ => rfl
    | ⟨2, _⟩ => exact absurd rfl hb

section TileReads
variable (x0 : Vec Ideal S1x4x8x36864 .f32) (x1 : Vec Ideal S1x8x36864 .i32) (x2 : Vec Ideal S1x8x36864 .f32)

/-- The label read at row `r`, position `l`. -/
theorem lab_apply (r : Fin 8) (l : Fin 36864) : Tile.lab x1 (ix2 r l) = x1 (ix3 (0 : Fin 1) r l) := by
  unfold Tile.lab k0_pay10
  exact cast3to2 x1 r l

/-- The distance read at row `r`, position `l`. -/
theorem dst_apply (r : Fin 8) (l : Fin 36864) : Tile.dst x2 (ix2 r l) = x2 (ix3 (0 : Fin 1) r l) := by
  unfold Tile.dst k0_pay11
  exact cast3to2 x2 r l

end TileReads

end Sums

open Sums

section LogSoftmax
variable (x0 : Vec Ideal S1x4x8x36864 .f32) (x1 : Vec Ideal S1x8x36864 .i32) (x2 : Vec Ideal S1x8x36864 .f32)

/-- The body's log-probabilities are the specification's shifted log-softmax, class by class and voxel by voxel. -/
theorem lsm_apply (k : Fin 4) (r : Fin 8) (l : Fin 36864) : Tile.lsm x0 (ix3 k r l) = blp x0 k r l := by
  unfold Tile.lsm
  exact Sums.pay12_apply x0 k r l

end LogSoftmax

namespace Sums

section Classes
variable (x0 : Vec Ideal S1x4x8x36864 .f32) (x1 : Vec Ideal S1x8x36864 .i32) (x2 : Vec Ideal S1x8x36864 .f32)

/-! ## One class's log-probability, and one class's indicator times distance, at a voxel -/

theorem chan1_apply (r : Fin 8) (l : Fin 36864) : k0_pay16 (Tile.lsm x0) (ix2 r l) = blp x0 1 r l := by
  unfold k0_pay16
  rw [cast3to2, slice_apply 1 (by omega), lsm_apply]
  rfl

theorem chan2_apply (r : Fin 8) (l : Fin 36864) : k0_pay22 (Tile.lsm x0) (ix2 r l) = blp x0 2 r l := by
  unfold k0_pay22
  rw [cast3to2, slice_apply 2 (by omega), lsm_apply]
  rfl

theorem chan3_apply (r : Fin 8) (l : Fin 36864) : k0_pay26 (Tile.lsm x0) (ix2 r l) = blp x0 3 r l := by
  unfold k0_pay26
  rw [cast3to2, slice_apply 3 (by omega), lsm_apply]
  rfl

theorem zz1_apply (r : Fin 8) (l : Fin 36864) : k0_pay15 (Tile.lab x1) (Tile.dst x2) (ix2 r l) = bzz x1 x2 1 r l := by
  unfold k0_pay15
  rw [mulf_apply, mask_apply, lab_apply, dst_apply]
  rfl

theorem zz2_apply (r : Fin 8) (l : Fin 36864) : k0_pay21 (Tile.lab x1) (Tile.dst x2) (ix2 r l) = bzz x1 x2 2 r l := by
  unfold k0_pay21
  rw [mulf_apply, mask_apply, lab_apply, dst_apply]
  rfl

theorem zz3_apply (r : Fin 8) (l : Fin 36864) : k0_pay25 (Tile.lab x1) (Tile.dst x2) (ix2 r l) = bzz x1 x2 3 r l := by
  unfold k0_pay25
  rw [mulf_apply, mask_apply, lab_apply, dst_apply]
  rfl

/-- The double sum of a product of two tile vectors whose product at each voxel is known. -/
theorem total_mul_apply (a b : FVec Ideal S8x36864 .f32) (f : Fin 8 → Fin 36864 → EReal)
    (hf : ∀ r l, a (ix2 r l) * b (ix2 r l) = f r l) (hφ hφ' : FKind.Formats .f32)
    (hacc hacc' : (0x00000000#32 : BitVec 32) = 0x00000000#32) :
    shapeCast S1x1x1 (shapeCast S1x1 (multiReduction (F := Ideal) .add [0] S1
        (shapeCast S8x1 (multiReduction (F := Ideal) .add [1] S8 (mulf a b) 0x00000000#32 reduces_S8x36864_S8 hφ hacc) shapeCasts_S8_S8x1)
        0x00000000#32 reduces_S8x1_S1 hφ' hacc') shapeCasts_S1_S1x1) shapeCasts_S1x1_S1x1x1
        (ix3 (0 : Fin 1) (0 : Fin 1) (0 : Fin 1))
      = ∑ r : Fin 8, ∑ l : Fin 36864, f r l := by
  rw [total_apply]
  exact Finset.sum_congr rfl fun r _ => Finset.sum_congr rfl fun l _ => by rw [mulf_apply, hf]

end Classes

end Sums

section Accumulators
variable (x0 : Vec Ideal S1x4x8x36864 .f32) (x1 : Vec Ideal S1x8x36864 .i32) (x2 : Vec Ideal S1x8x36864 .f32)

/-! ## The new value of each sum accumulator: the old value plus the tile's part -/

theorem accS0_apply (old : Vec Ideal S1x1x1 .f32) (j : S1x1x1.Idx) :
    Tile.accS0 x0 x1 old j = old j + tS0 x0 x1 := by
  rw [idx111 j]
  unfold Tile.accS0 k0_pay14 k0_pay13
  rw [shapeCast_self, addf_apply, total_apply]
  unfold tS0
  refine congrArg (fun s => old (ix3 (0 : Fin 1) (0 : Fin 1) (0 : Fin 1)) + s) ?_
  refine Finset.sum_congr rfl fun r _ => Finset.sum_congr rfl fun l _ => ?_
  rw [mulf_apply, mask_apply, cast3to2, slice_apply 0 (by omega)]
  rw [show k0_pay10 x1 = Tile.lab x1 from rfl, lab_apply, show k0_pay12 x0 = Tile.lsm x0 from rfl, lsm_apply]
  rfl

theorem accSzl_apply (old : Vec Ideal S1x1x3 .f32) (c : Fin 3) :
    Tile.accSzl x0 x1 x2 old (ix3 (0 : Fin 1) (0 : Fin 1) c)
      = old (ix3 (0 : Fin 1) (0 : Fin 1) c) + tSzl x0 x1 x2 c.succ := by
  unfold Tile.accSzl k0_pay3
  rw [shapeCast_self, addf_apply]
  refine congrArg (fun s => old (ix3 (0 : Fin 1) (0 : Fin 1) c) + s) ?_
  unfold Tile.tileSzl k0_pay29 tSzl
  match c with
  | ⟨0, _⟩ =>
    refine (concat3 _ _ _).1.trans ?_
    unfold k0_pay19
    exact total_mul_apply _ _ _ (fun r l => by rw [zz1_apply, chan1_apply]; rfl) _ _ _ _
  | ⟨1, _⟩ =>
    refine (concat3 _ _ _).2.1.trans ?_
    exact total_mul_apply _ _ _ (fun r l => by rw [zz2_apply, chan2_apply]; rfl) _ _ _ _
  | ⟨2, _⟩ =>
    refine (concat3 _ _ _).2.2.trans ?_
    exact total_mul_apply _ _ _ (fun r l => by rw [zz3_apply, chan3_apply]; rfl) _ _ _ _

theorem accSl_apply (old : Vec Ideal S1x1x3 .f32) (c : Fin 3) :
    Tile.accSl x0 old (ix3 (0 : Fin 1) (0 : Fin 1) c)
      = old (ix3 (0 : Fin 1) (0 : Fin 1) c) + tSl x0 c.succ := by
  unfold Tile.accSl k0_pay4
  rw [shapeCast_self, addf_apply]
  refine congrArg (fun s => old (ix3 (0 : Fin 1) (0 : Fin 1) c) + s) ?_
  unfold Tile.tileSl k0_pay30 tSl
  match c with
  | ⟨0, _⟩ =>
    refine (concat3 _ _ _).1.trans ?_
    unfold k0_pay20
    rw [total_apply]
    exact Finset.sum_congr rfl fun r _ => Finset.sum_congr rfl fun l _ => chan1_apply x0 r l
  | ⟨1, _⟩ =>
    refine (concat3 _ _ _).2.1.trans ?_
    rw [total_apply]
    exact Finset.sum_congr rfl fun r _ => Finset.sum_congr rfl fun l _ => chan2_apply x0 r l
  | ⟨2, _⟩ =>
    refine (concat3 _ _ _).2.2.trans ?_
    rw [total_apply]
    exact Finset.sum_congr rfl fun r _ => Finset.sum_congr rfl fun l _ => chan3_apply x0 r l

/-! ## The three sum accumulators start at zero -/

theorem init0_apply (j : S1x1x1.Idx) : Tile.init0 (F := Ideal) j = 0 := by
  unfold Tile.init0 k0_pay5
  rw [shapeCast_self]
  exact Ideal.ofBits_zero_f32

theorem initSzl_apply (j : S1x1x3.Idx) : Tile.initSzl (F := Ideal) j = 0 := by
  unfold Tile.initSzl k0_pay8
  rw [shapeCast_self]
  exact Ideal.ofBits_zero_f32

theorem initSl_apply (j : S1x1x3.Idx) : Tile.initSl (F := Ideal) j = 0 := by
  unfold Tile.initSl k0_pay9
  rw [shapeCast_self]
  exact Ideal.ofBits_zero_f32

end Accumulators

end Cert.KernelIdeal.TileValue

end
-- ==== Proof.TileExtremes.lean ====
/-
  The running minimum and maximum of z_c = [t = c]·δ, read on the extended reals.

  For each class c = 1, 2, 3 the body multiplies the indicator of the label by the distance, takes the
  minimum (maximum) over the positions of each of the eight rows from +∞ (-∞), then over the rows, and lays
  the three results along the lanes; the accumulator keeps the lane-wise minimum (maximum) of what it held
  and the tile's value.  A fold of min from ⊤ over a finite index set is the infimum, and dually, so lane c
  of the tile's value is the infimum (supremum) of z_{c+1} over the tile.
-/
import proofs.«152530_j15169824489490_2_alg».proof.Proof.TileDefs
import proofs.«152530_j15169824489490_2_alg».proof.Proof.Spec
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.TileValue

open Cert.SoftCE Cert.KernelIdeal Cert.KernelIdeal.Gen Cert.KernelIdeal.Tile Idealize.ShloMosaic Idealize.ShloMosaic.ValueIdx

/-- A fold of `min` from the top over all of `Fin n` is the infimum. -/
theorem fold_min_top {n : ℕ} (f : Fin n → EReal) :
    (Finset.univ : Finset (Fin n)).fold min ⊤ f = ⨅ k, f k := by
  refine eq_of_forall_le_iff fun c => ?_
  rw [Finset.le_fold_min, le_iInf_iff]
  exact ⟨fun h k => h.2 k (Finset.mem_univ k), fun h => ⟨le_top, fun k _ => h k⟩⟩

/-- A fold of `max` from the bottom over all of `Fin n` is the supremum. -/
theorem fold_max_bot {n : ℕ} (f : Fin n → EReal) :
    (Finset.univ : Finset (Fin n)).fold max ⊥ f = ⨆ k, f k := by
  refine eq_of_forall_ge_iff fun c => ?_
  rw [Finset.fold_max_le, iSup_le_iff]
  exact ⟨fun h k => h.2 k (Finset.mem_univ k), fun h => ⟨bot_le, fun k _ => h k⟩⟩

theorem ofBits_pinf : Ideal.ofBits .f32 0x7F800000#32 = ⊤ := by simp [Ideal.ofBits, Ideal.ieee]
theorem ofBits_ninf : Ideal.ofBits .f32 0xFF800000#32 = ⊥ := by simp [Ideal.ofBits, Ideal.ieee]

/-- The minimum over the lanes of row `r`. -/
theorem rowMin_apply (v : FVec Ideal S8x36864 .f32) (r : Fin 8) :
    multiReduction .minimumf [1] S8 v 0x7F800000#32 reduces_S8x36864_S8 (.inl rfl) rfl (ix1 r)
      = ⨅ l : Fin 36864, v (ix2 r l) := by
  refine (multiReduction_minimumf_eq_fold v _ reduces_S8x36864_S8 (.inl rfl) rfl (ix1 r)).trans ?_
  refine (reduces_S8x36864_S8.fold_filter_drop_single _ _ v (ix1 r)).trans ?_
  show Finset.fold min (Ideal.ofBits .f32 0x7F800000#32) _ _ = _
  rw [ofBits_pinf]
  refine (fold_min_top _).trans ?_
  refine iInf_congr fun l => ?_
  show v _ = v _
  congr 1
  funext a
  match a with
  | ⟨0, _⟩ => rfl
  | ⟨1, _⟩ => rfl

/-- The maximum over the lanes of row `r`. -/
theorem rowMax_apply (v : FVec Ideal S8x36864 .f32) (r : Fin 8) :
    multiReduction .maximumf [1] S8 v 0xFF800000#32 reduces_S8x36864_S8 (.inl rfl) rfl (ix1 r)
      = ⨆ l : Fin 36864, v (ix2 r l) := by
  refine (multiReduction_maximumf_eq_fold v _ reduces_S8x36864_S8 (.inl rfl) rfl (ix1 r)).trans ?_
  refine (reduces_S8x36864_S8.fold_filter_drop_single _ _ v (ix1 r)).trans ?_
  show Finset.fold max (Ideal.ofBits .f32 0xFF800000#32) _ _ = _
  rw [ofBits_ninf]
  refine (fold_max_bot _).trans ?_
  refine iSup_congr fun l => ?_
  show v _ = v _
  congr 1
  funext a
  match a with
  | ⟨0, _⟩ => rfl
  | ⟨1, _⟩ => rfl

/-- The minimum over the eight rows of a one-lane column. -/
theorem colMin_apply (w : FVec Ideal S8x1 .f32) :
    multiReduction .minimumf [0] S1 w 0x7F800000#32 reduces_S8x1_S1 (.inl rfl) rfl (ix1 0)
      = ⨅ r : Fin 8, w (ix2 r 0) := by
  refine (multiReduction_minimumf_eq_fold w _ reduces_S8x1_S1 (.inl rfl) rfl (ix1 0)).trans ?_
  refine (reduces_S8x1_S1.fold_filter_drop_single _ _ w (ix1 0)).trans ?_
  show Finset.fold min (Ideal.ofBits .f32 0x7F800000#32) _ _ = _
  rw [ofBits_pinf]
  refine (fold_min_top _).trans ?_
  refine iInf_congr fun r => ?_
  show w _ = w _
  congr 1
  funext a
  match a with
  | ⟨0, _⟩ => rfl
  | ⟨1, _⟩ => rfl

/-- The maximum over the eight rows of a one-lane column. -/
theorem colMax_apply (w : FVec Ideal S8x1 .f32) :
    multiReduction .maximumf [0] S1 w 0xFF800000#32 reduces_S8x1_S1 (.inl rfl) rfl (ix1 0)
      = ⨆ r : Fin 8, w (ix2 r 0) := by
  refine (multiReduction_maximumf_eq_fold w _ reduces_S8x1_S1 (.inl rfl) rfl (ix1 0)).trans ?_
  refine (reduces_S8x1_S1.fold_filter_drop_single _ _ w (ix1 0)).trans ?_
  show Finset.fold max (Ideal.ofBits .f32 0xFF800000#32) _ _ = _
  rw [ofBits_ninf]
  refine (fold_max_bot _).trans ?_
  refine iSup_congr fun r => ?_
  show w _ = w _
  congr 1
  funext a
  match a with
  | ⟨0, _⟩ => rfl
  | ⟨1, _⟩ => rfl

section Casts
variable {α : Type}

/-- A vector of eight stood up as a column. -/
theorem cast_8_8x1 (x : S8.Idx → α) (r : Fin 8) (u : Fin 1) :
    shapeCast S8x1 x shapeCasts_S8_S8x1 (ix2 r u) = x (ix1 r) :=
  shapeCast_apply x _ _ _ (by
    have hu : u.val = 0 := by omega
    rw [Shape.rowMajor_val_one, Shape.rowMajor_val_two]
    show r.val = r.val * 1 + u.val
    omega)

theorem cast_1_1x1 (x : S1.Idx → α) (u v : Fin 1) :
    shapeCast S1x1 x shapeCasts_S1_S1x1 (ix2 u v) = x (ix1 0) :=
  shapeCast_apply x _ _ _ (by
    have hu : u.val = 0 := by omega
    have hv : v.val = 0 := by omega
    rw [Shape.rowMajor_val_one, Shape.rowMajor_val_two]
    show (0 : Fin 1).val = u.val * 1 + v.val
    simp [hu, hv])

theorem cast_1x1_1x1x1 (x : S1x1.Idx → α) (u v w : Fin 1) :
    shapeCast S1x1x1 x shapeCasts_S1x1_S1x1x1 (ix3 u v w) = x (ix2 0 0) :=
  shapeCast_apply x _ _ _ (by
    have hu : u.val = 0 := by omega
    have hv : v.val = 0 := by omega
    have hw : w.val = 0 := by omega
    rw [Shape.rowMajor_val_two, Shape.rowMajor_val_three]
    show (0 : Fin 1).val * 1 + (0 : Fin 1).val = (u.val * 1 + v.val) * 1 + w.val
    simp [hu, hv, hw])

end Casts

/-- Minimum over lanes, then over rows, with the unit-axis casts: the infimum over the whole tile. -/
theorem redMin_apply (v : FVec Ideal S8x36864 .f32) :
    shapeCast S1x1x1 (shapeCast S1x1 (multiReduction .minimumf [0] S1
        (shapeCast S8x1 (multiReduction .minimumf [1] S8 v 0x7F800000#32 reduces_S8x36864_S8 (.inl rfl) rfl) shapeCasts_S8_S8x1)
        0x7F800000#32 reduces_S8x1_S1 (.inl rfl) rfl) shapeCasts_S1_S1x1) shapeCasts_S1x1_S1x1x1 (ix3 0 0 0)
      = ⨅ r : Fin 8, ⨅ l : Fin 36864, v (ix2 r l) := by
  rw [cast_1x1_1x1x1, cast_1_1x1, colMin_apply]
  refine iInf_congr fun r => ?_
  rw [cast_8_8x1, rowMin_apply]

/-- Maximum over lanes, then over rows, up to shape [1]. -/
theorem redMax1_apply (v : FVec Ideal S8x36864 .f32) :
    multiReduction .maximumf [0] S1
        (shapeCast S8x1 (multiReduction .maximumf [1] S8 v 0xFF800000#32 reduces_S8x36864_S8 (.inl rfl) rfl) shapeCasts_S8_S8x1)
        0xFF800000#32 reduces_S8x1_S1 (.inl rfl) rfl (ix1 0)
      = ⨆ r : Fin 8, ⨆ l : Fin 36864, v (ix2 r l) := by
  rw [colMax_apply]
  refine iSup_congr fun r => ?_
  rw [cast_8_8x1, rowMax_apply]

/-- Maximum over lanes, then over rows, with the unit-axis casts: the supremum over the whole tile. -/
theorem redMax_apply (v : FVec Ideal S8x36864 .f32) :
    shapeCast S1x1x1 (shapeCast S1x1 (multiReduction .maximumf [0] S1
        (shapeCast S8x1 (multiReduction .maximumf [1] S8 v 0xFF800000#32 reduces_S8x36864_S8 (.inl rfl) rfl) shapeCasts_S8_S8x1)
        0xFF800000#32 reduces_S8x1_S1 (.inl rfl) rfl) shapeCasts_S1_S1x1) shapeCasts_S1x1_S1x1x1 (ix3 0 0 0)
      = ⨆ r : Fin 8, ⨆ l : Fin 36864, v (ix2 r l) := by
  rw [cast_1x1_1x1x1, cast_1_1x1, redMax1_apply]

/-- The indicator of label `k` as the body computes it: compare, widen the bit, convert. -/
theorem mask_apply (t : IVec S8x36864 32) (k : ℕ) (j : S8x36864.Idx) :
    (sitofp .f32 (extui 32 (cmpi .eq t (broadcast S8x36864 (BitVec.ofNat 32 k))) natLt_1_32) : FVec Ideal S8x36864 .f32) j
      = if t j = BitVec.ofNat 32 k then 1 else 0 := by
  show (((((IntOp.cmpi .eq (t j) (BitVec.ofNat 32 k)).setWidth 32).toInt : ℝ)) : EReal) = _
  by_cases h : t j = BitVec.ofNat 32 k
  · rw [if_pos h]
    have hb : (t j == BitVec.ofNat 32 k) = true := beq_iff_eq.mpr h
    simp [IntOp.cmpi, hb]
  · rw [if_neg h]
    have hb : (t j == BitVec.ofNat 32 k) = false := beq_eq_false_iff_ne.mpr h
    simp [IntOp.cmpi, hb]

/-- The product the body reduces for class `k`: the indicator of the label times the distance. -/
theorem zprod_apply (x1 : Vec Ideal S1x8x36864 .i32) (x2 : Vec Ideal S1x8x36864 .f32) (k : ℕ) (r : Fin 8) (l : Fin 36864) :
    (mulf (sitofp .f32 (extui 32 (cmpi .eq (k0_pay10 (F := Ideal) x1) (broadcast S8x36864 (BitVec.ofNat 32 k))) natLt_1_32))
        (k0_pay11 x2) : FVec Ideal S8x36864 .f32) (ix2 r l)
      = (if x1 (ix3 0 r l) = BitVec.ofNat 32 k then 1 else 0) * x2 (ix3 0 r l) := by
  rw [mulf_apply, mask_apply]
  unfold k0_pay10 k0_pay11
  rw [shapeCast_1ab_ab_apply, shapeCast_1ab_ab_apply]

section Concat
variable {α : Type}

/-- Three one-element pieces laid along the lanes, read at lane `c`: piece `c`. -/
theorem concat3_apply (p0 p1 p2 : S1x1x1.Idx → α) (c : Fin 3) :
    concatenate S1x1x3 2 [⟨S1x1x1, p0⟩, ⟨S1x1x1, p1⟩, ⟨S1x1x1, p2⟩] concatenates_S1x1x1_S1x1x1_S1x1x1_S1x1x3_d2 (ix3 0 0 c)
      = (match c with | 0 => p0 | 1 => p1 | 2 => p2) (ix3 0 0 0) := by
  have hi : ∀ (c : Fin 3) (b : Fin S1x1x1.rank), b.cast (rfl : S1x1x1.rank = S1x1x3.rank) ≠ (2 : Fin S1x1x3.rank) →
      ((ix3 (0 : Fin 1) (0 : Fin 1) (0 : Fin 1) : S1x1x1.Idx) b).val
        = ((ix3 (0 : Fin 1) (0 : Fin 1) c : S1x1x3.Idx) (b.cast rfl)).val := by
    intro c b hb
    match b with
    | ⟨0, _⟩ => rfl
    | ⟨1, _⟩ => rfl
    | ⟨2, _⟩ => exact absurd rfl hb
  match c with
  | 0 =>
    exact concatenate_apply_piece 2 [⟨S1x1x1, p0⟩, ⟨S1x1x1, p1⟩, ⟨S1x1x1, p2⟩] concatenates_S1x1x1_S1x1x1_S1x1x1_S1x1x3_d2 (ix3 (0 : Fin 1) (0 : Fin 1) (0 : Fin 3)) 0 (by show _ < 3; omega) S1x1x1 p0 rfl rfl 0 rfl (ix3 0 0 0) (hi 0) rfl
  | 1 =>
    exact concatenate_apply_piece 2 [⟨S1x1x1, p0⟩, ⟨S1x1x1, p1⟩, ⟨S1x1x1, p2⟩] concatenates_S1x1x1_S1x1x1_S1x1x1_S1x1x3_d2 (ix3 (0 : Fin 1) (0 : Fin 1) (1 : Fin 3)) 1 (by show _ < 3; omega) S1x1x1 p1 rfl rfl 1 rfl (ix3 0 0 0) (hi 1) rfl
  | 2 =>
    exact concatenate_apply_piece 2 [⟨S1x1x1, p0⟩, ⟨S1x1x1, p1⟩, ⟨S1x1x1, p2⟩] concatenates_S1x1x1_S1x1x1_S1x1x1_S1x1x3_d2 (ix3 (0 : Fin 1) (0 : Fin 1) (2 : Fin 3)) 2 (by show _ < 3; omega) S1x1x1 p2 rfl rfl 2 rfl (ix3 0 0 0) (hi 2) rfl

end Concat

section Tile
variable (x1 : Vec Ideal S1x8x36864 .i32) (x2 : Vec Ideal S1x8x36864 .f32)

/-- The class-1 product at row `r`, position `l`. -/
theorem zmask1_apply (r : Fin 8) (l : Fin 36864) :
    k0_pay15 (lab (F := Ideal) x1) (dst x2) (ix2 r l) = bzz x1 x2 1 r l := zprod_apply x1 x2 1 r l

/-- The class-2 product at row `r`, position `l`. -/
theorem zmask2_apply (r : Fin 8) (l : Fin 36864) :
    k0_pay21 (lab (F := Ideal) x1) (dst x2) (ix2 r l) = bzz x1 x2 2 r l := zprod_apply x1 x2 2 r l

/-- The class-3 product at row `r`, position `l`. -/
theorem zmask3_apply (r : Fin 8) (l : Fin 36864) :
    k0_pay25 (lab (F := Ideal) x1) (dst x2) (ix2 r l) = bzz x1 x2 3 r l := zprod_apply x1 x2 3 r l

/-- Lane `c` of the tile's minima is the infimum of z for class `c + 1`. -/
theorem tileMin_apply (c : Fin 3) : tileMin (F := Ideal) x1 x2 (ix3 0 0 c) = tMn x1 x2 (c.val + 1) := by
  unfold tileMin k0_pay27
  refine (concat3_apply _ _ _ c).trans ?_
  match c with
  | 0 =>
    show k0_pay17 (lab (F := Ideal) x1) (dst x2) (ix3 0 0 0) = _
    unfold k0_pay17
    refine (redMin_apply _).trans ?_
    exact iInf_congr fun r => iInf_congr fun l => zmask1_apply x1 x2 r l
  | 1 =>
    show k0_pay23 (lab (F := Ideal) x1) (dst x2) (ix3 0 0 0) = _
    unfold k0_pay23
    refine (redMin_apply _).trans ?_
    exact iInf_congr fun r => iInf_congr fun l => zmask2_apply x1 x2 r l
  | 2 =>
    refine (redMin_apply _).trans ?_
    exact iInf_congr fun r => iInf_congr fun l => zmask3_apply x1 x2 r l

/-- Lane `c` of the tile's maxima is the supremum of z for class `c + 1`. -/
theorem tileMax_apply (c : Fin 3) : tileMax (F := Ideal) x1 x2 (ix3 0 0 c) = tMx x1 x2 (c.val + 1) := by
  unfold tileMax k0_pay28
  refine (concat3_apply _ _ _ c).trans ?_
  match c with
  | 0 =>
    show k0_pay18 (lab (F := Ideal) x1) (dst x2) (ix3 0 0 0) = _
    unfold k0_pay18
    refine (redMax_apply _).trans ?_
    exact iSup_congr fun r => iSup_congr fun l => zmask1_apply x1 x2 r l
  | 1 =>
    show shapeCast S1x1x1 (shapeCast S1x1 (k0_pay24 (lab (F := Ideal) x1) (dst x2)) shapeCasts_S1_S1x1) shapeCasts_S1x1_S1x1x1 (ix3 0 0 0) = _
    unfold k0_pay24
    refine (redMax_apply _).trans ?_
    exact iSup_congr fun r => iSup_congr fun l => zmask2_apply x1 x2 r l
  | 2 =>
    refine (redMax_apply _).trans ?_
    exact iSup_congr fun r => iSup_congr fun l => zmask3_apply x1 x2 r l

/-- The new running minimum, lane by lane. -/
theorem accMin_apply (old : Vec Ideal S1x1x3 .f32) (c : Fin 3) :
    Tile.accMin x1 x2 old (ix3 0 0 c) = min (old (ix3 0 0 c)) (tMn x1 x2 (c.val + 1)) := by
  unfold Tile.accMin k0_pay1
  rw [shapeCast_self, minimumf_apply, tileMin_apply]

/-- The new running maximum, lane by lane. -/
theorem accMax_apply (old : Vec Ideal S1x1x3 .f32) (c : Fin 3) :
    Tile.accMax x1 x2 old (ix3 0 0 c) = max (old (ix3 0 0 c)) (tMx x1 x2 (c.val + 1)) := by
  unfold Tile.accMax k0_pay2
  rw [shapeCast_self, maximumf_apply, tileMax_apply]

end Tile

/-- The running minimum starts at the top. -/
theorem initMin_apply (j : S1x1x3.Idx) : Tile.initMin (F := Ideal) j = ⊤ := by
  unfold Tile.initMin k0_pay6
  rw [shapeCast_self]
  exact ofBits_pinf

/-- The running maximum starts at the bottom. -/
theorem initMax_apply (j : S1x1x3.Idx) : Tile.initMax (F := Ideal) j = ⊥ := by
  unfold Tile.initMax k0_pay7
  rw [shapeCast_self]
  exact ofBits_ninf

end Cert.KernelIdeal.TileValue

end
-- ==== Proof.LibReindex.lean ====
/-
  Re-indexing of finite sums, infima and suprema.

  A depth index d < 128 is 8·n + r for exactly one pair (n, r) with n < 16, r < 8, and a position l < 36864 of
  the flattened plane is 192·h + w for exactly one pair (h, w) with h, w < 192.  Hence a sum (infimum, supremum)
  over the tiles' coordinates (n, r, l) of a function of (d, h, w) is the sum (infimum, supremum) over (d, h, w).

  A rank-4 index set is the product of its four coordinate ranges, so a sum over it is a four-fold sum.

  A running accumulator that starts from the neutral element and takes in one term per step holds, after sixteen
  steps, the sum (minimum, maximum) of the sixteen terms.
-/
import Idealize.ShloMosaic.Lib.ValueIdx
import proofs.«152530_j15169824489490_2_alg».proof.Proof.Spec

noncomputable section

namespace Cert.SoftCE

open Idealize.ShloMosaic Idealize.ShloMosaic.ValueIdx

/-! ## Depth: (n, r) ↦ 8·n + r is a bijection Fin 16 × Fin 8 ≃ Fin 128 -/

/-- The pair (tile, row) and the depth slice 8·tile + row determine each other. -/
def depthEquiv : Fin 16 × Fin 8 ≃ Fin 128 where
  toFun p := dOf p.1 p.2
  invFun d := (⟨d.val / 8, by have := d.isLt; omega⟩, ⟨d.val % 8, Nat.mod_lt _ (by decide)⟩)
  left_inv p := by
    rcases p with ⟨⟨n, hn⟩, ⟨r, hr⟩⟩
    simp only [dOf, Prod.mk.injEq, Fin.mk.injEq]
    constructor <;> omega
  right_inv d := by
    rcases d with ⟨d, hd⟩
    simp only [dOf, Fin.mk.injEq]
    omega

/-! ## Plane: l ↦ (l / 192, l % 192) is a bijection Fin 36864 ≃ Fin 192 × Fin 192 -/

/-- A position of the flattened plane and its (row, column) determine each other. -/
def planeEquiv : Fin 36864 ≃ Fin 192 × Fin 192 where
  toFun l := (hOf l, wOf l)
  invFun p := ⟨192 * p.1.val + p.2.val, by have := p.1.isLt; have := p.2.isLt; omega⟩
  left_inv l := by
    rcases l with ⟨l, hl⟩
    simp only [hOf, wOf, Fin.mk.injEq]
    omega
  right_inv p := by
    rcases p with ⟨⟨h, hh⟩, ⟨w, hw⟩⟩
    simp only [hOf, wOf, Prod.mk.injEq, Fin.mk.injEq]
    constructor <;> omega

/-! ## Sums -/

theorem sum_depth {M : Type*} [AddCommMonoid M] (G : Fin 128 → M) :
    ∑ n : Fin 16, ∑ r : Fin 8, G (dOf n r) = ∑ d : Fin 128, G d := by
  rw [← Fintype.sum_prod_type (f := fun p : Fin 16 × Fin 8 => G (dOf p.1 p.2))]
  exact Equiv.sum_comp depthEquiv G

theorem sum_plane {M : Type*} [AddCommMonoid M] (G : Fin 192 → Fin 192 → M) :
    ∑ l : Fin 36864, G (hOf l) (wOf l) = ∑ h : Fin 192, ∑ w : Fin 192, G h w := by
  rw [← Fintype.sum_prod_type (f := fun p : Fin 192 × Fin 192 => G p.1 p.2)]
  exact Equiv.sum_comp planeEquiv (fun p : Fin 192 × Fin 192 => G p.1 p.2)

/-- A sum over all tiles' coordinates is the sum over all voxels of a batch. -/
theorem sum_tiles {M : Type*} [AddCommMonoid M] (F : Fin 128 → Fin 192 → Fin 192 → M) :
    ∑ n : Fin 16, ∑ r : Fin 8, ∑ l : Fin 36864, F (dOf n r) (hOf l) (wOf l)
      = ∑ d : Fin 128, ∑ h : Fin 192, ∑ w : Fin 192, F d h w := by
  rw [sum_depth (fun d => ∑ l : Fin 36864, F d (hOf l) (wOf l))]
  exact Finset.sum_congr rfl fun d _ => sum_plane (F d)

/-! ## Infima and suprema -/

theorem iInf_depth {α : Type*} [CompleteLattice α] (G : Fin 128 → α) :
    ⨅ n : Fin 16, ⨅ r : Fin 8, G (dOf n r) = ⨅ d : Fin 128, G d := by
  rw [← iInf_prod (f := fun p : Fin 16 × Fin 8 => G (dOf p.1 p.2))]
  exact Equiv.iInf_comp (g := G) depthEquiv

theorem iInf_plane {α : Type*} [CompleteLattice α] (G : Fin 192 → Fin 192 → α) :
    ⨅ l : Fin 36864, G (hOf l) (wOf l) = ⨅ h : Fin 192, ⨅ w : Fin 192, G h w := by
  rw [← iInf_prod (f := fun p : Fin 192 × Fin 192 => G p.1 p.2)]
  exact Equiv.iInf_comp (g := fun p : Fin 192 × Fin 192 => G p.1 p.2) planeEquiv

theorem iSup_depth {α : Type*} [CompleteLattice α] (G : Fin 128 → α) :
    ⨆ n : Fin 16, ⨆ r : Fin 8, G (dOf n r) = ⨆ d : Fin 128, G d := by
  rw [← iSup_prod (f := fun p : Fin 16 × Fin 8 => G (dOf p.1 p.2))]
  exact Equiv.iSup_comp (g := G) depthEquiv

theorem iSup_plane {α : Type*} [CompleteLattice α] (G : Fin 192 → Fin 192 → α) :
    ⨆ l : Fin 36864, G (hOf l) (wOf l) = ⨆ h : Fin 192, ⨆ w : Fin 192, G h w := by
  rw [← iSup_prod (f := fun p : Fin 192 × Fin 192 => G p.1 p.2)]
  exact Equiv.iSup_comp (g := fun p : Fin 192 × Fin 192 => G p.1 p.2) planeEquiv

/-- An infimum over all tiles' coordinates is the infimum over all voxels of a batch. -/
theorem iInf_tiles (F : Fin 128 → Fin 192 → Fin 192 → EReal) :
    ⨅ n : Fin 16, ⨅ r : Fin 8, ⨅ l : Fin 36864, F (dOf n r) (hOf l) (wOf l)
      = ⨅ d : Fin 128, ⨅ h : Fin 192, ⨅ w : Fin 192, F d h w := by
  rw [iInf_depth (fun d => ⨅ l : Fin 36864, F d (hOf l) (wOf l))]
  exact iInf_congr fun d => iInf_plane (F d)

/-- A supremum over all tiles' coordinates is the supremum over all voxels of a batch. -/
theorem iSup_tiles (F : Fin 128 → Fin 192 → Fin 192 → EReal) :
    ⨆ n : Fin 16, ⨆ r : Fin 8, ⨆ l : Fin 36864, F (dOf n r) (hOf l) (wOf l)
      = ⨆ d : Fin 128, ⨆ h : Fin 192, ⨆ w : Fin 192, F d h w := by
  rw [iSup_depth (fun d => ⨆ l : Fin 36864, F d (hOf l) (wOf l))]
  exact iSup_congr fun d => iSup_plane (F d)

/-! ## Rank-4 index sets -/

/-- A rank-4 index set is the product of its four coordinate ranges … -/
def idxEquiv4 {n0 n1 n2 n3 : Nat} :
    (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- … so a sum over it is the four-fold sum over the coordinates. -/
theorem sum_idx4 {M : Type*} [AddCommMonoid M] {n0 n1 n2 n3 : Nat}
    (f : (⟨4, ![n0, n1, n2, n3]⟩ : Shape).Idx → M) :
    ∑ j, f j = ∑ a : Fin n0, ∑ b : Fin n1, ∑ c : Fin n2, ∑ d : Fin n3, f (ix4 a b c d) := by
  rw [← Equiv.sum_comp (idxEquiv4 (n0 := n0) (n1 := n1) (n2 := n2) (n3 := n3)).symm f]
  simp only [Fintype.sum_prod_type]
  rfl

/-! ## Sixteen steps of a running accumulator -/

/-- Splitting off the last term of an infimum over `Fin (m + 1)`. -/
theorem iInf_fin_last (m : ℕ) (g : Fin (m + 1) → EReal) :
    ⨅ k : Fin (m + 1), g k = min (⨅ k : Fin m, g k.castSucc) (g (Fin.last m)) := by
  apply le_antisymm
  · exact le_min (le_iInf fun k => iInf_le _ _) (iInf_le _ _)
  · refine le_iInf fun k => ?_
    refine Fin.lastCases ?_ (fun j => ?_) k
    · exact min_le_right _ _
    · exact (min_le_left _ _).trans (iInf_le _ j)

/-- Splitting off the last term of a supremum over `Fin (m + 1)`. -/
theorem iSup_fin_last (m : ℕ) (g : Fin (m + 1) → EReal) :
    ⨆ k : Fin (m + 1), g k = max (⨆ k : Fin m, g k.castSucc) (g (Fin.last m)) := by
  apply le_antisymm
  · refine iSup_le fun k => ?_
    refine Fin.lastCases ?_ (fun j => ?_) k
    · exact le_max_right _ _
    · exact (le_iSup (fun k : Fin m => g k.castSucc) j).trans (le_max_left _ _)
  · exact max_le (iSup_le fun k => le_iSup _ _) (le_iSup _ _)

/-- Sixteen additions from zero give the sum of the sixteen terms. -/
theorem acc_sum (a tile : ℕ → EReal) (s : ℕ) (h0 : a s = 0 + tile s)
    (hs : ∀ k, k < 15 → a (s + k + 1) = a (s + k) + tile (s + k + 1)) :
    a (s + 15) = ∑ k : Fin 16, tile (s + k.val) := by
  have key : ∀ m, m ≤ 15 → a (s + m) = ∑ k : Fin (m + 1), tile (s + k.val) := by
    intro m
    induction m with
    | zero => intro _; simp [h0]
    | succ m ih =>
      intro hm
      rw [Fin.sum_univ_castSucc]
      have := ih (by omega)
      simp only [Fin.coe_castSucc, Fin.val_last] at this ⊢
      rw [← this]
      simpa [Nat.add_assoc] using hs m (by omega)
  exact key 15 le_rfl

/-- Sixteen minima from the top give the infimum of the sixteen terms. -/
theorem acc_min (a tile : ℕ → EReal) (s : ℕ) (h0 : a s = min ⊤ (tile s))
    (hs : ∀ k, k < 15 → a (s + k + 1) = min (a (s + k)) (tile (s + k + 1))) :
    a (s + 15) = ⨅ k : Fin 16, tile (s + k.val) := by
  have key : ∀ m, m ≤ 15 → a (s + m) = ⨅ k : Fin (m + 1), tile (s + k.val) := by
    intro m
    induction m with
    | zero => intro _; simp [h0]
    | succ m ih =>
      intro hm
      rw [iInf_fin_last (m + 1) (fun k => tile (s + k.val))]
      have := ih (by omega)
      simp only [Fin.coe_castSucc, Fin.val_last] at this ⊢
      rw [← this]
      simpa [Nat.add_assoc] using hs m (by omega)
  exact key 15 le_rfl

/-- Sixteen maxima from the bottom give the supremum of the sixteen terms. -/
theorem acc_max (a tile : ℕ → EReal) (s : ℕ) (h0 : a s = max ⊥ (tile s))
    (hs : ∀ k, k < 15 → a (s + k + 1) = max (a (s + k)) (tile (s + k + 1))) :
    a (s + 15) = ⨆ k : Fin 16, tile (s + k.val) := by
  have key : ∀ m, m ≤ 15 → a (s + m) = ⨆ k : Fin (m + 1), tile (s + k.val) := by
    intro m
    induction m with
    | zero => intro _; simp [h0]
    | succ m ih =>
      intro hm
      rw [iSup_fin_last (m + 1) (fun k => tile (s + k.val))]
      have := ih (by omega)
      simp only [Fin.coe_castSucc, Fin.val_last] at this ⊢
      rw [← this]
      simpa [Nat.add_assoc] using hs m (by omega)
  exact key 15 le_rfl

end Cert.SoftCE

end
-- ==== Proof.Accum.lean ====
/-
  What the five accumulators hold after each grid point, and what the five outputs receive.

  The grid runs the 16 depth tiles of batch 0, then those of batch 1 (point t = 16·b + n).  At a batch's
  first tile each accumulator is reset and then updated with the tile; at every later tile it is updated
  from what the tile before left; at the batch's last tile the updated accumulators are also copied to
  the outputs.  So after the last tile of batch b each output holds the fold of the sixteen updates:
  Σ over the tiles for the three sums, the minimum resp. maximum over the tiles for the two extremes.
-/
import proofs.«152530_j15169824489490_2_alg».proof.Proof.KernelIdealFrameP
import proofs.«152530_j15169824489490_2_alg».proof.Proof.Pieces
import proofs.«152530_j15169824489490_2_alg».proof.Proof.TileSums
import proofs.«152530_j15169824489490_2_alg».proof.Proof.TileExtremes
import proofs.«152530_j15169824489490_2_alg».proof.Proof.LibReindex

noncomputable section

namespace Cert.KernelIdeal.Accum

open Idealize.ShloMosaic Idealize.ShloMosaic.TcCoe Idealize.SL.Sem Idealize.ShloMosaic.ValueIdx
open Cert.KernelIdeal Cert.KernelIdeal.Gen Cert.KernelIdeal.GenP Cert.SoftCE

/-! ## The step of each accumulator, for any reading of the floats -/

section Steps

variable {F : FTy → Type} [FloatOps F]
variable (m : (ℓ : Loc nD τ sig) → Buf (Elt F) ℓ)

/-- Accumulator 0 after a batch's first tile: reset, then updated with the tile. -/
theorem firstS0 (c : Dev nD) (t : Fin cfg0.N) (h0 : t.val % 16 = 0) :
    (outsAt0 m c t.val t.isLt).2.2.2.2.2.1 = Tile.accS0 (iblk m c 0 t) (iblk m c 1 t) Tile.init0 := by
  have h1 : ¬t.val % 16 = 15 := by omega
  rw [outsAt0_A m c t h0 h1]
  dsimp only
  exact Pieces.sout_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (iblk m c 2 t)

/-- Accumulator 0 after a middle tile: updated from what the tile before left. -/
theorem stepS0 (c : Dev nD) (t : Fin cfg0.N) (h0 : ¬t.val % 16 = 0) (h1 : ¬t.val % 16 = 15) :
    (outsAt0 m c t.val t.isLt).2.2.2.2.2.1 = Tile.accS0 (iblk m c 0 t) (iblk m c 1 t) (outsAt0 m c (t.val - 1) (Nat.lt_of_le_of_lt (Nat.sub_le _ _) t.isLt)).2.2.2.2.2.1 := by
  rw [outsAt0_B m c t h0 h1]
  dsimp only
  exact Pieces.sout_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2

/-- Accumulator 0 after a batch's last tile: updated from what the tile before left. -/
theorem lastS0 (c : Dev nD) (t : Fin cfg0.N) (h0 : ¬t.val % 16 = 0) (h1 : t.val % 16 = 15) :
    (outsAt0 m c t.val t.isLt).2.2.2.2.2.1 = Tile.accS0 (iblk m c 0 t) (iblk m c 1 t) (outsAt0 m c (t.val - 1) (Nat.lt_of_le_of_lt (Nat.sub_le _ _) t.isLt)).2.2.2.2.2.1 := by
  rw [outsAt0_C m c t h0 h1]
  dsimp only
  exact Pieces.sout_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2

/-- Output 0 at a batch's last tile receives the same updated value. -/
theorem outS0 (c : Dev nD) (t : Fin cfg0.N) (h0 : ¬t.val % 16 = 0) (h1 : t.val % 16 = 15) :
    (outsAt0 m c t.val t.isLt).1 = Tile.accS0 (iblk m c 0 t) (iblk m c 1 t) (outsAt0 m c (t.val - 1) (Nat.lt_of_le_of_lt (Nat.sub_le _ _) t.isLt)).2.2.2.2.2.1 := by
  rw [outsAt0_C m c t h0 h1]
  dsimp only
  exact Pieces.out_C_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2

/-- Accumulator 1 after a batch's first tile: reset, then updated with the tile. -/
theorem firstMin (c : Dev nD) (t : Fin cfg0.N) (h0 : t.val % 16 = 0) :
    (outsAt0 m c t.val t.isLt).2.2.2.2.2.2.1 = Tile.accMin (iblk m c 1 t) (iblk m c 2 t) Tile.initMin := by
  have h1 : ¬t.val % 16 = 15 := by omega
  rw [outsAt0_A m c t h0 h1]
  dsimp only
  exact Pieces.sout_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (iblk m c 2 t)

/-- Accumulator 1 after a middle tile: updated from what the tile before left. -/
theorem stepMin (c : Dev nD) (t : Fin cfg0.N) (h0 : ¬t.val % 16 = 0) (h1 : ¬t.val % 16 = 15) :
    (outsAt0 m c t.val t.isLt).2.2.2.2.2.2.1 = Tile.accMin (iblk m c 1 t) (iblk m c 2 t) (outsAt0 m c (t.val - 1) (Nat.lt_of_le_of_lt (Nat.sub_le _ _) t.isLt)).2.2.2.2.2.2.1 := by
  rw [outsAt0_B m c t h0 h1]
  dsimp only
  exact Pieces.sout_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2

/-- Accumulator 1 after a batch's last tile: updated from what the tile before left. -/
theorem lastMin (c : Dev nD) (t : Fin cfg0.N) (h0 : ¬t.val % 16 = 0) (h1 : t.val % 16 = 15) :
    (outsAt0 m c t.val t.isLt).2.2.2.2.2.2.1 = Tile.accMin (iblk m c 1 t) (iblk m c 2 t) (outsAt0 m c (t.val - 1) (Nat.lt_of_le_of_lt (Nat.sub_le _ _) t.isLt)).2.2.2.2.2.2.1 := by
  rw [outsAt0_C m c t h0 h1]
  dsimp only
  exact Pieces.sout_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2

/-- Output 1 at a batch's last tile receives the same updated value. -/
theorem outMin (c : Dev nD) (t : Fin cfg0.N) (h0 : ¬t.val % 16 = 0) (h1 : t.val % 16 = 15) :
    (outsAt0 m c t.val t.isLt).2.1 = Tile.accMin (iblk m c 1 t) (iblk m c 2 t) (outsAt0 m c (t.val - 1) (Nat.lt_of_le_of_lt (Nat.sub_le _ _) t.isLt)).2.2.2.2.2.2.1 := by
  rw [outsAt0_C m c t h0 h1]
  dsimp only
  exact Pieces.out_C_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2

/-- Accumulator 2 after a batch's first tile: reset, then updated with the tile. -/
theorem firstMax (c : Dev nD) (t : Fin cfg0.N) (h0 : t.val % 16 = 0) :
    (outsAt0 m c t.val t.isLt).2.2.2.2.2.2.2.1 = Tile.accMax (iblk m c 1 t) (iblk m c 2 t) Tile.initMax := by
  have h1 : ¬t.val % 16 = 15 := by omega
  rw [outsAt0_A m c t h0 h1]
  dsimp only
  exact Pieces.sout_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (iblk m c 2 t)

/-- Accumulator 2 after a middle tile: updated from what the tile before left. -/
theorem stepMax (c : Dev nD) (t : Fin cfg0.N) (h0 : ¬t.val % 16 = 0) (h1 : ¬t.val % 16 = 15) :
    (outsAt0 m c t.val t.isLt).2.2.2.2.2.2.2.1 = Tile.accMax (iblk m c 1 t) (iblk m c 2 t) (outsAt0 m c (t.val - 1) (Nat.lt_of_le_of_lt (Nat.sub_le _ _) t.isLt)).2.2.2.2.2.2.2.1 := by
  rw [outsAt0_B m c t h0 h1]
  dsimp only
  exact Pieces.sout_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2

/-- Accumulator 2 after a batch's last tile: updated from what the tile before left. -/
theorem lastMax (c : Dev nD) (t : Fin cfg0.N) (h0 : ¬t.val % 16 = 0) (h1 : t.val % 16 = 15) :
    (outsAt0 m c t.val t.isLt).2.2.2.2.2.2.2.1 = Tile.accMax (iblk m c 1 t) (iblk m c 2 t) (outsAt0 m c (t.val - 1) (Nat.lt_of_le_of_lt (Nat.sub_le _ _) t.isLt)).2.2.2.2.2.2.2.1 := by
  rw [outsAt0_C m c t h0 h1]
  dsimp only
  exact Pieces.sout_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2

/-- Output 2 at a batch's last tile receives the same updated value. -/
theorem outMax (c : Dev nD) (t : Fin cfg0.N) (h0 : ¬t.val % 16 = 0) (h1 : t.val % 16 = 15) :
    (outsAt0 m c t.val t.isLt).2.2.1 = Tile.accMax (iblk m c 1 t) (iblk m c 2 t) (outsAt0 m c (t.val - 1) (Nat.lt_of_le_of_lt (Nat.sub_le _ _) t.isLt)).2.2.2.2.2.2.2.1 := by
  rw [outsAt0_C m c t h0 h1]
  dsimp only
  exact Pieces.out_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2

/-- Accumulator 3 after a batch's first tile: reset, then updated with the tile. -/
theorem firstSzl (c : Dev nD) (t : Fin cfg0.N) (h0 : t.val % 16 = 0) :
    (outsAt0 m c t.val t.isLt).2.2.2.2.2.2.2.2.1 = Tile.accSzl (iblk m c 0 t) (iblk m c 1 t) (iblk m c 2 t) Tile.initSzl := by
  have h1 : ¬t.val % 16 = 15 := by omega
  rw [outsAt0_A m c t h0 h1]
  dsimp only
  exact Pieces.sout_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (iblk m c 2 t)

/-- Accumulator 3 after a middle tile: updated from what the tile before left. -/
theorem stepSzl (c : Dev nD) (t : Fin cfg0.N) (h0 : ¬t.val % 16 = 0) (h1 : ¬t.val % 16 = 15) :
    (outsAt0 m c t.val t.isLt).2.2.2.2.2.2.2.2.1 = Tile.accSzl (iblk m c 0 t) (iblk m c 1 t) (iblk m c 2 t) (outsAt0 m c (t.val - 1) (Nat.lt_of_le_of_lt (Nat.sub_le _ _) t.isLt)).2.2.2.2.2.2.2.2.1 := by
  rw [outsAt0_B m c t h0 h1]
  dsimp only
  exact Pieces.sout_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2

/-- Accumulator 3 after a batch's last tile: updated from what the tile before left. -/
theorem lastSzl (c : Dev nD) (t : Fin cfg0.N) (h0 : ¬t.val % 16 = 0) (h1 : t.val % 16 = 15) :
    (outsAt0 m c t.val t.isLt).2.2.2.2.2.2.2.2.1 = Tile.accSzl (iblk m c 0 t) (iblk m c 1 t) (iblk m c 2 t) (outsAt0 m c (t.val - 1) (Nat.lt_of_le_of_lt (Nat.sub_le _ _) t.isLt)).2.2.2.2.2.2.2.2.1 := by
  rw [outsAt0_C m c t h0 h1]
  dsimp only
  exact Pieces.sout_C_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2

/-- Output 3 at a batch's last tile receives the same updated value. -/
theorem outSzl (c : Dev nD) (t : Fin cfg0.N) (h0 : ¬t.val % 16 = 0) (h1 : t.val % 16 = 15) :
    (outsAt0 m c t.val t.isLt).2.2.2.1 = Tile.accSzl (iblk m c 0 t) (iblk m c 1 t) (iblk m c 2 t) (outsAt0 m c (t.val - 1) (Nat.lt_of_le_of_lt (Nat.sub_le _ _) t.isLt)).2.2.2.2.2.2.2.2.1 := by
  rw [outsAt0_C m c t h0 h1]
  dsimp only
  exact Pieces.out_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2

/-- Accumulator 4 after a batch's first tile: reset, then updated with the tile. -/
theorem firstSl (c : Dev nD) (t : Fin cfg0.N) (h0 : t.val % 16 = 0) :
    (outsAt0 m c t.val t.isLt).2.2.2.2.2.2.2.2.2 = Tile.accSl (iblk m c 0 t) Tile.initSl := by
  have h1 : ¬t.val % 16 = 15 := by omega
  rw [outsAt0_A m c t h0 h1]
  dsimp only
  exact Pieces.sout_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (iblk m c 2 t)

/-- Accumulator 4 after a middle tile: updated from what the tile before left. -/
theorem stepSl (c : Dev nD) (t : Fin cfg0.N) (h0 : ¬t.val % 16 = 0) (h1 : ¬t.val % 16 = 15) :
    (outsAt0 m c t.val t.isLt).2.2.2.2.2.2.2.2.2 = Tile.accSl (iblk m c 0 t) (outsAt0 m c (t.val - 1) (Nat.lt_of_le_of_lt (Nat.sub_le _ _) t.isLt)).2.2.2.2.2.2.2.2.2 := by
  rw [outsAt0_B m c t h0 h1]
  dsimp only
  exact Pieces.sout_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2

/-- Accumulator 4 after a batch's last tile: updated from what the tile before left. -/
theorem lastSl (c : Dev nD) (t : Fin cfg0.N) (h0 : ¬t.val % 16 = 0) (h1 : t.val % 16 = 15) :
    (outsAt0 m c t.val t.isLt).2.2.2.2.2.2.2.2.2 = Tile.accSl (iblk m c 0 t) (outsAt0 m c (t.val - 1) (Nat.lt_of_le_of_lt (Nat.sub_le _ _) t.isLt)).2.2.2.2.2.2.2.2.2 := by
  rw [outsAt0_C m c t h0 h1]
  dsimp only
  exact Pieces.sout_C_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2

/-- Output 4 at a batch's last tile receives the same updated value. -/
theorem outSl (c : Dev nD) (t : Fin cfg0.N) (h0 : ¬t.val % 16 = 0) (h1 : t.val % 16 = 15) :
    (outsAt0 m c t.val t.isLt).2.2.2.2.1 = Tile.accSl (iblk m c 0 t) (outsAt0 m c (t.val - 1) (Nat.lt_of_le_of_lt (Nat.sub_le _ _) t.isLt)).2.2.2.2.2.2.2.2.2 := by
  rw [outsAt0_C m c t h0 h1]
  dsimp only
  exact Pieces.out_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2

end Steps

end Cert.KernelIdeal.Accum

end
-- ==== Proof.Blocks.lean ====
/-
  What each input window's block reads.

  Before the grid runs, the three arguments are reshaped: the logits [2,4,128,192,192] to [2,4,128,36864], the labels
  [2,1,128,192,192] to [2,128,192,192] and then to [2,128,36864], the distances [2,128,192,192] to [2,128,36864]. A reshape
  keeps the row-major position, so position l of the flattened plane is row l / 192, column l % 192 (l = 192·(l/192) + l%192).

  The grid is 2 × 16 with linear point t = 16·b + n. At that point the logits' window is the block [1,4,8,36864] at block
  index (b, 0, n, 0), and the labels' and distances' windows are the blocks [1,8,36864] at block index (b, n, 0). An element
  of a block sits in its array, on each axis, at block index × block size + its own coordinate: batch b, depth 8·n + r.
-/
import proofs.«152530_j15169824489490_2_alg».proof.Proof.Gen.KernelIdeal.Frame.Runs
import proofs.«152530_j15169824489490_2_alg».proof.Proof.Spec
import Idealize.ShloMosaic.Lib.Pipeline.Value
import Idealize.ShloMosaic.Lib.StableHlo.Run
import Idealize.ShloMosaic.Lib.ValueIdx

noncomputable section

open Idealize.ShloMosaic Idealize.ShloMosaic.TcCoe Idealize.ShloMosaic.ValueIdx Idealize.SL.Sem

namespace Cert.KernelIdeal.Blocks

open Cert.KernelIdeal Cert.KernelIdeal.Gen
open Cert.SoftCE (dOf hOf wOf)

/-! ## A reshape read at an index -/

/-- The logits reshaped: position l of the flattened plane is (l / 192, l % 192). -/
theorem cast0 {α : Type} (x : S2x4x128x192x192.Idx → α) (h : S2x4x128x192x192.ShapeCasts S2x4x128x36864)
    (b : Fin 2) (k : Fin 4) (d : Fin 128) (l : Fin 36864) :
    shapeCast S2x4x128x36864 x h (ix4 b k d l) = x (ix5 b k d (hOf l) (wOf l)) := by
  refine shapeCast_apply x h _ _ ?_
  rewrite [Shape.rowMajor_val_four, Shape.rowMajor_val_five]
  show (((b.val * 4 + k.val) * 128 + d.val) * 192 + l.val / 192) * 192 + l.val % 192
    = ((b.val * 4 + k.val) * 128 + d.val) * 36864 + l.val
  have := Nat.div_add_mod l.val 192
  omega

/-- The labels reshaped twice: the unit class axis dropped, then the plane flattened. -/
theorem cast1 {α : Type} (x : S2x1x128x192x192.Idx → α) (h : S2x1x128x192x192.ShapeCasts S2x128x192x192)
    (h' : S2x128x192x192.ShapeCasts S2x128x36864) (b : Fin 2) (d : Fin 128) (l : Fin 36864) :
    shapeCast S2x128x36864 (shapeCast S2x128x192x192 x h) h' (ix3 b d l) = x (ix5 b 0 d (hOf l) (wOf l)) := by
  refine (shapeCast_apply _ h' _ (ix4 b d (hOf l) (wOf l)) ?_).trans (shapeCast_apply x h _ _ ?_)
  · rewrite [Shape.rowMajor_val_four, Shape.rowMajor_val_three]
    show ((b.val * 128 + d.val) * 192 + l.val / 192) * 192 + l.val % 192 = (b.val * 128 + d.val) * 36864 + l.val
    have := Nat.div_add_mod l.val 192
    omega
  · rewrite [Shape.rowMajor_val_four, Shape.rowMajor_val_five]
    show (((b.val * 1 + 0) * 128 + d.val) * 192 + l.val / 192) * 192 + l.val % 192
      = ((b.val * 128 + d.val) * 192 + l.val / 192) * 192 + l.val % 192
    omega

/-- The distances reshaped: the plane flattened. -/
theorem cast2 {α : Type} (x : S2x128x192x192.Idx → α) (h' : S2x128x192x192.ShapeCasts S2x128x36864)
    (b : Fin 2) (d : Fin 128) (l : Fin 36864) :
    shapeCast S2x128x36864 x h' (ix3 b d l) = x (ix4 b d (hOf l) (wOf l)) := by
  refine shapeCast_apply x h' _ _ ?_
  rewrite [Shape.rowMajor_val_four, Shape.rowMajor_val_three]
  show ((b.val * 128 + d.val) * 192 + l.val / 192) * 192 + l.val % 192 = (b.val * 128 + d.val) * 36864 + l.val
  have := Nat.div_add_mod l.val 192
  omega

variable {F : FTy → Type} [FloatOps F]
variable (m : (ℓ : Loc nD τ sig) → Buf (Elt F) ℓ)

/-! ## The arrays the grid finds: reshapes of the arguments -/

theorem V_main_v1 (c : Dev nD) : (V m c main_v1 : S2x4x128x36864.Idx → Elt F .f32)
    = shapeCast S2x4x128x36864 (m ((c : Thread nD τ).loc main_arg0) : S2x4x128x192x192.Idx → Elt F .f32)
        shapeCasts_S2x4x128x192x192_S2x4x128x36864 := by
  show StableHlo.after hostOps0 (fun b => m (c, b)) (Proc.devRef .tc main_v1) = _
  after_results
  rfl

theorem V_main_v2 (c : Dev nD) : (V m c main_v2 : S2x128x36864.Idx → Elt F .i32)
    = shapeCast S2x128x36864 (shapeCast S2x128x192x192 (m ((c : Thread nD τ).loc main_arg1) : S2x1x128x192x192.Idx → Elt F .i32)
        shapeCasts_S2x1x128x192x192_S2x128x192x192) shapeCasts_S2x128x192x192_S2x128x36864 := by
  show StableHlo.after hostOps0 (fun b => m (c, b)) (Proc.devRef .tc main_v2) = _
  after_results
  rfl

theorem V_main_v3 (c : Dev nD) : (V m c main_v3 : S2x128x36864.Idx → Elt F .f32)
    = shapeCast S2x128x36864 (m ((c : Thread nD τ).loc main_arg2) : S2x128x192x192.Idx → Elt F .f32)
        shapeCasts_S2x128x192x192_S2x128x36864 := by
  show StableHlo.after hostOps0 (fun b => m (c, b)) (Proc.devRef .tc main_v3) = _
  after_results
  rfl

/-! ## The windows' block indices over the grid -/

/-- Point t = 16·b + n fetches the logits' block (b, 0, n, 0). -/
theorem idx0 : ∀ t : Fin grid0.N, win0_0.index t 0 = t.val / 16 ∧ win0_0.index t 1 = 0
    ∧ win0_0.index t 2 = t.val % 16 ∧ win0_0.index t 3 = 0 := by decide +kernel

/-- Point t = 16·b + n fetches the labels' block (b, n, 0). -/
theorem idx1 : ∀ t : Fin grid0.N, win0_1.index t 0 = t.val / 16 ∧ win0_1.index t 1 = t.val % 16
    ∧ win0_1.index t 2 = 0 := by decide +kernel

/-- Point t = 16·b + n fetches the distances' block (b, n, 0). -/
theorem idx2 : ∀ t : Fin grid0.N, win0_2.index t 0 = t.val / 16 ∧ win0_2.index t 1 = t.val % 16
    ∧ win0_2.index t 2 = 0 := by decide +kernel

/-! ## A block's element in its array -/

theorem iblk0_at (c : Dev nD) (t : Fin cfg0.N) (y : S1x4x8x36864.Idx) (j : S2x4x128x36864.Idx)
    (h0 : (j 0).val = t.val / 16 + (y 0).val) (h1 : (j 1).val = (y 1).val)
    (h2 : (j 2).val = 8 * (t.val % 16) + (y 2).val) (h3 : (j 3).val = (y 3).val) :
    (iblk m c 0 t : Vec F S1x4x8x36864 .f32) y = (V m c main_v1 : S2x4x128x36864.Idx → Elt F .f32) j := by
  obtain ⟨i0, i1, i2, i3⟩ := idx0 t
  unfold iblk
  rw [View.read_apply]
  show (V m c main_v1 : S2x4x128x36864.Idx → Elt F .f32) _ = _
  refine congrArg (V m c main_v1 : S2x4x128x36864.Idx → Elt F .f32) (funext fun a => Fin.ext ?_)
  match a with
  | ⟨0, _⟩ => show win0_0.index t 0 * 1 + 1 * (y 0).val = (j 0).val; rw [i0, h0]; omega
  | ⟨1, _⟩ => show win0_0.index t 1 * 4 + 1 * (y 1).val = (j 1).val; rw [i1, h1]; omega
  | ⟨2, _⟩ => show win0_0.index t 2 * 8 + 1 * (y 2).val = (j 2).val; rw [i2, h2]; omega
  | ⟨3, _⟩ => show win0_0.index t 3 * 36864 + 1 * (y 3).val = (j 3).val; rw [i3, h3]; omega

theorem iblk1_at (c : Dev nD) (t : Fin cfg0.N) (y : S1x8x36864.Idx) (j : S2x128x36864.Idx)
    (h0 : (j 0).val = t.val / 16 + (y 0).val) (h1 : (j 1).val = 8 * (t.val % 16) + (y 1).val)
    (h2 : (j 2).val = (y 2).val) :
    (iblk m c 1 t : Vec F S1x8x36864 .i32) y = (V m c main_v2 : S2x128x36864.Idx → Elt F .i32) j := by
  obtain ⟨i0, i1, i2⟩ := idx1 t
  unfold iblk
  rw [View.read_apply]
  show (V m c main_v2 : S2x128x36864.Idx → Elt F .i32) _ = _
  refine congrArg (V m c main_v2 : S2x128x36864.Idx → Elt F .i32) (funext fun a => Fin.ext ?_)
  match a with
  | ⟨0, _⟩ => show win0_1.index t 0 * 1 + 1 * (y 0).val = (j 0).val; rw [i0, h0]; omega
  | ⟨1, _⟩ => show win0_1.index t 1 * 8 + 1 * (y 1).val = (j 1).val; rw [i1, h1]; omega
  | ⟨2, _⟩ => show win0_1.index t 2 * 36864 + 1 * (y 2).val = (j 2).val; rw [i2, h2]; omega

theorem iblk2_at (c : Dev nD) (t : Fin cfg0.N) (y : S1x8x36864.Idx) (j : S2x128x36864.Idx)
    (h0 : (j 0).val = t.val / 16 + (y 0).val) (h1 : (j 1).val = 8 * (t.val % 16) + (y 1).val)
    (h2 : (j 2).val = (y 2).val) :
    (iblk m c 2 t : Vec F S1x8x36864 .f32) y = (V m c main_v3 : S2x128x36864.Idx → Elt F .f32) j := by
  obtain ⟨i0, i1, i2⟩ := idx2 t
  unfold iblk
  rw [View.read_apply]
  show (V m c main_v3 : S2x128x36864.Idx → Elt F .f32) _ = _
  refine congrArg (V m c main_v3 : S2x128x36864.Idx → Elt F .f32) (funext fun a => Fin.ext ?_)
  match a with
  | ⟨0, _⟩ => show win0_2.index t 0 * 1 + 1 * (y 0).val = (j 0).val; rw [i0, h0]; omega
  | ⟨1, _⟩ => show win0_2.index t 1 * 8 + 1 * (y 1).val = (j 1).val; rw [i1, h1]; omega
  | ⟨2, _⟩ => show win0_2.index t 2 * 36864 + 1 * (y 2).val = (j 2).val; rw [i2, h2]; omega

/-! ## The blocks at point 16·b + n, in the arguments' coordinates -/

/-- The grid's linear point of batch b, depth tile n. -/
def pt (b : Fin 2) (n : Fin 16) : Fin cfg0.N :=
  ⟨16 * b.val + n.val, by have := b.isLt; have := n.isLt; show _ < grid0.N; rw [N_0]; omega⟩

theorem iblk0_apply (c : Dev nD) (b : Fin 2) (n : Fin 16) (k : Fin 4) (r : Fin 8) (l : Fin 36864) :
    (iblk m c 0 (pt b n) : Vec F S1x4x8x36864 .f32) (ix4 0 k r l)
      = (m ((c : Thread nD τ).loc main_arg0) : S2x4x128x192x192.Idx → Elt F .f32) (ix5 b k (dOf n r) (hOf l) (wOf l)) := by
  have hb := b.isLt
  have hn := n.isLt
  refine (iblk0_at m c (pt b n) (ix4 0 k r l) (ix4 b k (dOf n r) l) ?_ ?_ ?_ ?_).trans ?_
  · show b.val = (16 * b.val + n.val) / 16 + 0; omega
  · rfl
  · show 8 * n.val + r.val = 8 * ((16 * b.val + n.val) % 16) + r.val; omega
  · rfl
  · rw [V_main_v1]; exact cast0 _ _ b k (dOf n r) l

theorem iblk1_apply (c : Dev nD) (b : Fin 2) (n : Fin 16) (r : Fin 8) (l : Fin 36864) :
    (iblk m c 1 (pt b n) : Vec F S1x8x36864 .i32) (ix3 0 r l)
      = (m ((c : Thread nD τ).loc main_arg1) : S2x1x128x192x192.Idx → Elt F .i32) (ix5 b 0 (dOf n r) (hOf l) (wOf l)) := by
  have hb := b.isLt
  have hn := n.isLt
  refine (iblk1_at m c (pt b n) (ix3 0 r l) (ix3 b (dOf n r) l) ?_ ?_ ?_).trans ?_
  · show b.val = (16 * b.val + n.val) / 16 + 0; omega
  · show 8 * n.val + r.val = 8 * ((16 * b.val + n.val) % 16) + r.val; omega
  · rfl
  · rw [V_main_v2]; exact cast1 _ _ _ b (dOf n r) l

theorem iblk2_apply (c : Dev nD) (b : Fin 2) (n : Fin 16) (r : Fin 8) (l : Fin 36864) :
    (iblk m c 2 (pt b n) : Vec F S1x8x36864 .f32) (ix3 0 r l)
      = (m ((c : Thread nD τ).loc main_arg2) : S2x128x192x192.Idx → Elt F .f32) (ix4 b (dOf n r) (hOf l) (wOf l)) := by
  have hb := b.isLt
  have hn := n.isLt
  refine (iblk2_at m c (pt b n) (ix3 0 r l) (ix3 b (dOf n r) l) ?_ ?_ ?_).trans ?_
  · show b.val = (16 * b.val + n.val) / 16 + 0; omega
  · show 8 * n.val + r.val = 8 * ((16 * b.val + n.val) % 16) + r.val; omega
  · rfl
  · rw [V_main_v3]; exact cast2 _ _ b (dOf n r) l

end Cert.KernelIdeal.Blocks

end
-- ==== Proof.Outputs.lean ====
/-
  What the five output arrays hold after the run.

  Output window w's block never moves within a batch (block index (b, 0, 0)) and is written back once per
  batch, after the batch's last tile (point 16·b + 15).  So entry (b, 0, c) of the output array is entry
  (0, 0, c) of what that point's body left in the window's buffer.  The blocks of the two batches tile the
  array, so this describes every entry.
-/
import proofs.«152530_j15169824489490_2_alg».proof.Proof.KernelIdealFrameP
import Idealize.ShloMosaic.Lib.Pipeline.Value
import Idealize.ShloMosaic.Lib.ValueIdx

noncomputable section

namespace Cert.KernelIdeal.Outputs

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.GenP

variable {F : FTy → Type} [FloatOps F]
variable (m : (ℓ : Loc nD τ sig) → Buf (Elt F) ℓ)

/-- The last tile of batch `q` is a grid point. -/
theorem lastPt_lt (q : Nat) (hq : q < 2) : 16 * q + 15 < cfg0.N := by
  show _ < grid0.N; rw [N_0]; omega

/-- The accumulated tuple depends on the point only through its number. -/
theorem outsAt0_congr (c : Dev nD) {n n' : Nat} (e : n = n') (h : n < cfg0.N) (h' : n' < cfg0.N) :
    outsAt0 m c n h = outsAt0 m c n' h' := by subst e; rfl

/-! ## Output window 3 -/

/-- Window 3's block index at a point, decided over the grid: the batch, then zeros. -/
theorem idx3 : ∀ t : Fin cfg0.N, win0_3.index t (0 : Fin 3) = t.val / 16 ∧ win0_3.index t (1 : Fin 3) = 0 ∧ win0_3.index t (2 : Fin 3) = 0 :=
  (by decide +kernel : ∀ t : Fin grid0.N, _)

/-- Entry (b, 0, c) of the array: entry (0, 0, c) of what the last tile of batch b left. -/
def G3 (c : Dev nD) : S2x1x1.Idx → Elt F .f32 := fun i =>
  (outsAt0 m c (16 * (i 0).val + 15) (lastPt_lt (i 0).val (i 0).isLt)).1
    (ix3 (0 : Fin 1) (0 : Fin 1) (⟨(i 2).val, (i 2).isLt⟩ : Fin 1))

/-- What a writing-back point writes is its block of `G3`. -/
theorem flushed3_eq (c : Dev nD) (t : Fin cfg0.N) (hf : (cfg0.win 3).flush t = true) :
    (dats m 0 c).flushed 3 t = ((cfg0.win 3).blk t).view.read (Elt F) (G3 m c) := by
  have h15 : t.val % 16 = 15 := (flush0_3 t).mp hf
  obtain ⟨e0, e1, e2⟩ := idx3 t
  show (cfg0.win 3).cut (grid0.coords t) ((dats m 0 c).after 3 t) = _
  rw [after0_3]
  funext y
  show (outsAt0 m c t.val t.isLt).1 y = G3 m c (((cfg0.win 3).blk t).view.emb y)
  have hy0 : (y 0).val < 1 := (y 0).isLt
  have hy1 : (y 1).val < 1 := (y 1).isLt
  have hy2 : (y 2).val < 1 := (y 2).isLt
  have hE0 : ((((cfg0.win 3).blk t).view.emb y) 0).val = win0_3.index t (0 : Fin 3) * 1 + 1 * (y 0).val := rfl
  have hE2 : ((((cfg0.win 3).blk t).view.emb y) 2).val = win0_3.index t (2 : Fin 3) * 1 + 1 * (y 2).val := rfl
  have hn : 16 * ((((cfg0.win 3).blk t).view.emb y) 0).val + 15 = t.val := by rw [hE0, e0]; omega
  have hN : t.val < 32 := lt_of_lt_of_eq t.isLt N_0
  have hlt : ((((cfg0.win 3).blk t).view.emb y) 0).val < 2 := by omega
  have hyy : y = ix3 (0 : Fin 1) (0 : Fin 1) (⟨((((cfg0.win 3).blk t).view.emb y) 2).val, ((((cfg0.win 3).blk t).view.emb y) 2).isLt⟩ : Fin 1) :=
    funext fun a => Fin.ext (by
      match a with
      | ⟨0, _⟩ => show (y 0).val = 0; omega
      | ⟨1, _⟩ => show (y 1).val = 0; omega
      | ⟨2, _⟩ => show (y 2).val = ((((cfg0.win 3).blk t).view.emb y) 2).val; rw [hE2, e2]; omega)
  unfold G3
  rw [outsAt0_congr m c hn (lastPt_lt _ hlt) t.isLt]
  exact congrArg _ hyy

/-- An index of the array is in point `t`'s block iff each coordinate is in the block's range on its axis. -/
theorem mem_blk3 (t : Fin cfg0.N) (i : S2x1x1.Idx) :
    i ∈ ((cfg0.win 3).blk t).view.set ↔ ∀ a : Fin 3, win0_3.index t a * S1x1x1.size a ≤ (i a).val ∧ (i a).val < win0_3.index t a * S1x1x1.size a + S1x1x1.size a := by
  show i ∈ ((View.whole main_v4_0).slice (win0_3.rect t)).set ↔ _
  rw [View.set_slice_whole, Rect.mem_set_unit]
  exact Iff.rfl

/-- Every entry of the array lies in the block some batch's last tile writes back. -/
theorem cover3 (i : S2x1x1.Idx) : ∃ t : Fin cfg0.N, (cfg0.win 3).flush t = true ∧ i ∈ ((cfg0.win 3).blk t).view.set := by
  have hi0 : (i 0).val < 2 := (i 0).isLt
  have hi1 : (i 1).val < 1 := (i 1).isLt
  have hi2 : (i 2).val < 1 := (i 2).isLt
  refine ⟨⟨16 * (i 0).val + 15, lastPt_lt _ hi0⟩, (flush0_3 _).mpr (by show (16 * (i 0).val + 15) % 16 = 15; omega), ?_⟩
  obtain ⟨e0, e1, e2⟩ := idx3 ⟨16 * (i 0).val + 15, lastPt_lt _ hi0⟩
  have e0' : win0_3.index ⟨16 * (i 0).val + 15, lastPt_lt _ hi0⟩ (0 : Fin 3) = (i 0).val := by rw [e0]; show (16 * (i 0).val + 15) / 16 = _; omega
  rw [mem_blk3]
  intro a
  match a with
  | ⟨0, _⟩ => show win0_3.index _ (0 : Fin 3) * 1 ≤ (i 0).val ∧ (i 0).val < win0_3.index _ (0 : Fin 3) * 1 + 1; rw [e0']; omega
  | ⟨1, _⟩ => show win0_3.index _ (1 : Fin 3) * 1 ≤ (i 1).val ∧ (i 1).val < win0_3.index _ (1 : Fin 3) * 1 + 1; rw [e1]; omega
  | ⟨2, _⟩ => show win0_3.index _ (2 : Fin 3) * 1 ≤ (i 2).val ∧ (i 2).val < win0_3.index _ (2 : Fin 3) * 1 + 1; rw [e2]; omega

/-- The array after the run. -/
theorem final3 (c : Dev nD) : (dats m 0 c).arrAt 3 cfg0.N = G3 m c :=
  (dats m 0 c).arrAt_eq_of_cover 3 (G3 m c) (flushed3_eq m c) (cover3)

/-! ## Output window 4 -/

/-- Window 4's block index at a point, decided over the grid: the batch, then zeros. -/
theorem idx4 : ∀ t : Fin cfg0.N, win0_4.index t (0 : Fin 3) = t.val / 16 ∧ win0_4.index t (1 : Fin 3) = 0 ∧ win0_4.index t (2 : Fin 3) = 0 :=
  (by decide +kernel : ∀ t : Fin grid0.N, _)

/-- Entry (b, 0, c) of the array: entry (0, 0, c) of what the last tile of batch b left. -/
def G4 (c : Dev nD) : S2x1x3.Idx → Elt F .f32 := fun i =>
  (outsAt0 m c (16 * (i 0).val + 15) (lastPt_lt (i 0).val (i 0).isLt)).2.1
    (ix3 (0 : Fin 1) (0 : Fin 1) (⟨(i 2).val, (i 2).isLt⟩ : Fin 3))

/-- What a writing-back point writes is its block of `G4`. -/
theorem flushed4_eq (c : Dev nD) (t : Fin cfg0.N) (hf : (cfg0.win 4).flush t = true) :
    (dats m 0 c).flushed 4 t = ((cfg0.win 4).blk t).view.read (Elt F) (G4 m c) := by
  have h15 : t.val % 16 = 15 := (flush0_4 t).mp hf
  obtain ⟨e0, e1, e2⟩ := idx4 t
  show (cfg0.win 4).cut (grid0.coords t) ((dats m 0 c).after 4 t) = _
  rw [after0_4]
  funext y
  show (outsAt0 m c t.val t.isLt).2.1 y = G4 m c (((cfg0.win 4).blk t).view.emb y)
  have hy0 : (y 0).val < 1 := (y 0).isLt
  have hy1 : (y 1).val < 1 := (y 1).isLt
  have hy2 : (y 2).val < 3 := (y 2).isLt
  have hE0 : ((((cfg0.win 4).blk t).view.emb y) 0).val = win0_4.index t (0 : Fin 3) * 1 + 1 * (y 0).val := rfl
  have hE2 : ((((cfg0.win 4).blk t).view.emb y) 2).val = win0_4.index t (2 : Fin 3) * 3 + 1 * (y 2).val := rfl
  have hn : 16 * ((((cfg0.win 4).blk t).view.emb y) 0).val + 15 = t.val := by rw [hE0, e0]; omega
  have hN : t.val < 32 := lt_of_lt_of_eq t.isLt N_0
  have hlt : ((((cfg0.win 4).blk t).view.emb y) 0).val < 2 := by omega
  have hyy : y = ix3 (0 : Fin 1) (0 : Fin 1) (⟨((((cfg0.win 4).blk t).view.emb y) 2).val, ((((cfg0.win 4).blk t).view.emb y) 2).isLt⟩ : Fin 3) :=
    funext fun a => Fin.ext (by
      match a with
      | ⟨0, _⟩ => show (y 0).val = 0; omega
      | ⟨1, _⟩ => show (y 1).val = 0; omega
      | ⟨2, _⟩ => show (y 2).val = ((((cfg0.win 4).blk t).view.emb y) 2).val; rw [hE2, e2]; omega)
  unfold G4
  rw [outsAt0_congr m c hn (lastPt_lt _ hlt) t.isLt]
  exact congrArg _ hyy

/-- An index of the array is in point `t`'s block iff each coordinate is in the block's range on its axis. -/
theorem mem_blk4 (t : Fin cfg0.N) (i : S2x1x3.Idx) :
    i ∈ ((cfg0.win 4).blk t).view.set ↔ ∀ a : Fin 3, win0_4.index t a * S1x1x3.size a ≤ (i a).val ∧ (i a).val < win0_4.index t a * S1x1x3.size a + S1x1x3.size a := by
  show i ∈ ((View.whole main_v4_1).slice (win0_4.rect t)).set ↔ _
  rw [View.set_slice_whole, Rect.mem_set_unit]
  exact Iff.rfl

/-- Every entry of the array lies in the block some batch's last tile writes back. -/
theorem cover4 (i : S2x1x3.Idx) : ∃ t : Fin cfg0.N, (cfg0.win 4).flush t = true ∧ i ∈ ((cfg0.win 4).blk t).view.set := by
  have hi0 : (i 0).val < 2 := (i 0).isLt
  have hi1 : (i 1).val < 1 := (i 1).isLt
  have hi2 : (i 2).val < 3 := (i 2).isLt
  refine ⟨⟨16 * (i 0).val + 15, lastPt_lt _ hi0⟩, (flush0_4 _).mpr (by show (16 * (i 0).val + 15) % 16 = 15; omega), ?_⟩
  obtain ⟨e0, e1, e2⟩ := idx4 ⟨16 * (i 0).val + 15, lastPt_lt _ hi0⟩
  have e0' : win0_4.index ⟨16 * (i 0).val + 15, lastPt_lt _ hi0⟩ (0 : Fin 3) = (i 0).val := by rw [e0]; show (16 * (i 0).val + 15) / 16 = _; omega
  rw [mem_blk4]
  intro a
  match a with
  | ⟨0, _⟩ => show win0_4.index _ (0 : Fin 3) * 1 ≤ (i 0).val ∧ (i 0).val < win0_4.index _ (0 : Fin 3) * 1 + 1; rw [e0']; omega
  | ⟨1, _⟩ => show win0_4.index _ (1 : Fin 3) * 1 ≤ (i 1).val ∧ (i 1).val < win0_4.index _ (1 : Fin 3) * 1 + 1; rw [e1]; omega
  | ⟨2, _⟩ => show win0_4.index _ (2 : Fin 3) * 3 ≤ (i 2).val ∧ (i 2).val < win0_4.index _ (2 : Fin 3) * 3 + 3; rw [e2]; omega

/-- The array after the run. -/
theorem final4 (c : Dev nD) : (dats m 0 c).arrAt 4 cfg0.N = G4 m c :=
  (dats m 0 c).arrAt_eq_of_cover 4 (G4 m c) (flushed4_eq m c) (cover4)

/-! ## Output window 5 -/

/-- Window 5's block index at a point, decided over the grid: the batch, then zeros. -/
theorem idx5 : ∀ t : Fin cfg0.N, win0_5.index t (0 : Fin 3) = t.val / 16 ∧ win0_5.index t (1 : Fin 3) = 0 ∧ win0_5.index t (2 : Fin 3) = 0 :=
  (by decide +kernel : ∀ t : Fin grid0.N, _)

/-- Entry (b, 0, c) of the array: entry (0, 0, c) of what the last tile of batch b left. -/
def G5 (c : Dev nD) : S2x1x3.Idx → Elt F .f32 := fun i =>
  (outsAt0 m c (16 * (i 0).val + 15) (lastPt_lt (i 0).val (i 0).isLt)).2.2.1
    (ix3 (0 : Fin 1) (0 : Fin 1) (⟨(i 2).val, (i 2).isLt⟩ : Fin 3))

/-- What a writing-back point writes is its block of `G5`. -/
theorem flushed5_eq (c : Dev nD) (t : Fin cfg0.N) (hf : (cfg0.win 5).flush t = true) :
    (dats m 0 c).flushed 5 t = ((cfg0.win 5).blk t).view.read (Elt F) (G5 m c) := by
  have h15 : t.val % 16 = 15 := (flush0_5 t).mp hf
  obtain ⟨e0, e1, e2⟩ := idx5 t
  show (cfg0.win 5).cut (grid0.coords t) ((dats m 0 c).after 5 t) = _
  rw [after0_5]
  funext y
  show (outsAt0 m c t.val t.isLt).2.2.1 y = G5 m c (((cfg0.win 5).blk t).view.emb y)
  have hy0 : (y 0).val < 1 := (y 0).isLt
  have hy1 : (y 1).val < 1 := (y 1).isLt
  have hy2 : (y 2).val < 3 := (y 2).isLt
  have hE0 : ((((cfg0.win 5).blk t).view.emb y) 0).val = win0_5.index t (0 : Fin 3) * 1 + 1 * (y 0).val := rfl
  have hE2 : ((((cfg0.win 5).blk t).view.emb y) 2).val = win0_5.index t (2 : Fin 3) * 3 + 1 * (y 2).val := rfl
  have hn : 16 * ((((cfg0.win 5).blk t).view.emb y) 0).val + 15 = t.val := by rw [hE0, e0]; omega
  have hN : t.val < 32 := lt_of_lt_of_eq t.isLt N_0
  have hlt : ((((cfg0.win 5).blk t).view.emb y) 0).val < 2 := by omega
  have hyy : y = ix3 (0 : Fin 1) (0 : Fin 1) (⟨((((cfg0.win 5).blk t).view.emb y) 2).val, ((((cfg0.win 5).blk t).view.emb y) 2).isLt⟩ : Fin 3) :=
    funext fun a => Fin.ext (by
      match a with
      | ⟨0, _⟩ => show (y 0).val = 0; omega
      | ⟨1, _⟩ => show (y 1).val = 0; omega
      | ⟨2, _⟩ => show (y 2).val = ((((cfg0.win 5).blk t).view.emb y) 2).val; rw [hE2, e2]; omega)
  unfold G5
  rw [outsAt0_congr m c hn (lastPt_lt _ hlt) t.isLt]
  exact congrArg _ hyy

/-- An index of the array is in point `t`'s block iff each coordinate is in the block's range on its axis. -/
theorem mem_blk5 (t : Fin cfg0.N) (i : S2x1x3.Idx) :
    i ∈ ((cfg0.win 5).blk t).view.set ↔ ∀ a : Fin 3, win0_5.index t a * S1x1x3.size a ≤ (i a).val ∧ (i a).val < win0_5.index t a * S1x1x3.size a + S1x1x3.size a := by
  show i ∈ ((View.whole main_v4_2).slice (win0_5.rect t)).set ↔ _
  rw [View.set_slice_whole, Rect.mem_set_unit]
  exact Iff.rfl

/-- Every entry of the array lies in the block some batch's last tile writes back. -/
theorem cover5 (i : S2x1x3.Idx) : ∃ t : Fin cfg0.N, (cfg0.win 5).flush t = true ∧ i ∈ ((cfg0.win 5).blk t).view.set := by
  have hi0 : (i 0).val < 2 := (i 0).isLt
  have hi1 : (i 1).val < 1 := (i 1).isLt
  have hi2 : (i 2).val < 3 := (i 2).isLt
  refine ⟨⟨16 * (i 0).val + 15, lastPt_lt _ hi0⟩, (flush0_5 _).mpr (by show (16 * (i 0).val + 15) % 16 = 15; omega), ?_⟩
  obtain ⟨e0, e1, e2⟩ := idx5 ⟨16 * (i 0).val + 15, lastPt_lt _ hi0⟩
  have e0' : win0_5.index ⟨16 * (i 0).val + 15, lastPt_lt _ hi0⟩ (0 : Fin 3) = (i 0).val := by rw [e0]; show (16 * (i 0).val + 15) / 16 = _; omega
  rw [mem_blk5]
  intro a
  match a with
  | ⟨0, _⟩ => show win0_5.index _ (0 : Fin 3) * 1 ≤ (i 0).val ∧ (i 0).val < win0_5.index _ (0 : Fin 3) * 1 + 1; rw [e0']; omega
  | ⟨1, _⟩ => show win0_5.index _ (1 : Fin 3) * 1 ≤ (i 1).val ∧ (i 1).val < win0_5.index _ (1 : Fin 3) * 1 + 1; rw [e1]; omega
  | ⟨2, _⟩ => show win0_5.index _ (2 : Fin 3) * 3 ≤ (i 2).val ∧ (i 2).val < win0_5.index _ (2 : Fin 3) * 3 + 3; rw [e2]; omega

/-- The array after the run. -/
theorem final5 (c : Dev nD) : (dats m 0 c).arrAt 5 cfg0.N = G5 m c :=
  (dats m 0 c).arrAt_eq_of_cover 5 (G5 m c) (flushed5_eq m c) (cover5)

/-! ## Output window 6 -/

/-- Window 6's block index at a point, decided over the grid: the batch, then zeros. -/
theorem idx6 : ∀ t : Fin cfg0.N, win0_6.index t (0 : Fin 3) = t.val / 16 ∧ win0_6.index t (1 : Fin 3) = 0 ∧ win0_6.index t (2 : Fin 3) = 0 :=
  (by decide +kernel : ∀ t : Fin grid0.N, _)

/-- Entry (b, 0, c) of the array: entry (0, 0, c) of what the last tile of batch b left. -/
def G6 (c : Dev nD) : S2x1x3.Idx → Elt F .f32 := fun i =>
  (outsAt0 m c (16 * (i 0).val + 15) (lastPt_lt (i 0).val (i 0).isLt)).2.2.2.1
    (ix3 (0 : Fin 1) (0 : Fin 1) (⟨(i 2).val, (i 2).isLt⟩ : Fin 3))

/-- What a writing-back point writes is its block of `G6`. -/
theorem flushed6_eq (c : Dev nD) (t : Fin cfg0.N) (hf : (cfg0.win 6).flush t = true) :
    (dats m 0 c).flushed 6 t = ((cfg0.win 6).blk t).view.read (Elt F) (G6 m c) := by
  have h15 : t.val % 16 = 15 := (flush0_6 t).mp hf
  obtain ⟨e0, e1, e2⟩ := idx6 t
  show (cfg0.win 6).cut (grid0.coords t) ((dats m 0 c).after 6 t) = _
  rw [after0_6]
  funext y
  show (outsAt0 m c t.val t.isLt).2.2.2.1 y = G6 m c (((cfg0.win 6).blk t).view.emb y)
  have hy0 : (y 0).val < 1 := (y 0).isLt
  have hy1 : (y 1).val < 1 := (y 1).isLt
  have hy2 : (y 2).val < 3 := (y 2).isLt
  have hE0 : ((((cfg0.win 6).blk t).view.emb y) 0).val = win0_6.index t (0 : Fin 3) * 1 + 1 * (y 0).val := rfl
  have hE2 : ((((cfg0.win 6).blk t).view.emb y) 2).val = win0_6.index t (2 : Fin 3) * 3 + 1 * (y 2).val := rfl
  have hn : 16 * ((((cfg0.win 6).blk t).view.emb y) 0).val + 15 = t.val := by rw [hE0, e0]; omega
  have hN : t.val < 32 := lt_of_lt_of_eq t.isLt N_0
  have hlt : ((((cfg0.win 6).blk t).view.emb y) 0).val < 2 := by omega
  have hyy : y = ix3 (0 : Fin 1) (0 : Fin 1) (⟨((((cfg0.win 6).blk t).view.emb y) 2).val, ((((cfg0.win 6).blk t).view.emb y) 2).isLt⟩ : Fin 3) :=
    funext fun a => Fin.ext (by
      match a with
      | ⟨0, _⟩ => show (y 0).val = 0; omega
      | ⟨1, _⟩ => show (y 1).val = 0; omega
      | ⟨2, _⟩ => show (y 2).val = ((((cfg0.win 6).blk t).view.emb y) 2).val; rw [hE2, e2]; omega)
  unfold G6
  rw [outsAt0_congr m c hn (lastPt_lt _ hlt) t.isLt]
  exact congrArg _ hyy

/-- An index of the array is in point `t`'s block iff each coordinate is in the block's range on its axis. -/
theorem mem_blk6 (t : Fin cfg0.N) (i : S2x1x3.Idx) :
    i ∈ ((cfg0.win 6).blk t).view.set ↔ ∀ a : Fin 3, win0_6.index t a * S1x1x3.size a ≤ (i a).val ∧ (i a).val < win0_6.index t a * S1x1x3.size a + S1x1x3.size a := by
  show i ∈ ((View.whole main_v4_3).slice (win0_6.rect t)).set ↔ _
  rw [View.set_slice_whole, Rect.mem_set_unit]
  exact Iff.rfl

/-- Every entry of the array lies in the block some batch's last tile writes back. -/
theorem cover6 (i : S2x1x3.Idx) : ∃ t : Fin cfg0.N, (cfg0.win 6).flush t = true ∧ i ∈ ((cfg0.win 6).blk t).view.set := by
  have hi0 : (i 0).val < 2 := (i 0).isLt
  have hi1 : (i 1).val < 1 := (i 1).isLt
  have hi2 : (i 2).val < 3 := (i 2).isLt
  refine ⟨⟨16 * (i 0).val + 15, lastPt_lt _ hi0⟩, (flush0_6 _).mpr (by show (16 * (i 0).val + 15) % 16 = 15; omega), ?_⟩
  obtain ⟨e0, e1, e2⟩ := idx6 ⟨16 * (i 0).val + 15, lastPt_lt _ hi0⟩
  have e0' : win0_6.index ⟨16 * (i 0).val + 15, lastPt_lt _ hi0⟩ (0 : Fin 3) = (i 0).val := by rw [e0]; show (16 * (i 0).val + 15) / 16 = _; omega
  rw [mem_blk6]
  intro a
  match a with
  | ⟨0, _⟩ => show win0_6.index _ (0 : Fin 3) * 1 ≤ (i 0).val ∧ (i 0).val < win0_6.index _ (0 : Fin 3) * 1 + 1; rw [e0']; omega
  | ⟨1, _⟩ => show win0_6.index _ (1 : Fin 3) * 1 ≤ (i 1).val ∧ (i 1).val < win0_6.index _ (1 : Fin 3) * 1 + 1; rw [e1]; omega
  | ⟨2, _⟩ => show win0_6.index _ (2 : Fin 3) * 3 ≤ (i 2).val ∧ (i 2).val < win0_6.index _ (2 : Fin 3) * 3 + 3; rw [e2]; omega

/-- The array after the run. -/
theorem final6 (c : Dev nD) : (dats m 0 c).arrAt 6 cfg0.N = G6 m c :=
  (dats m 0 c).arrAt_eq_of_cover 6 (G6 m c) (flushed6_eq m c) (cover6)

/-! ## Output window 7 -/

/-- Window 7's block index at a point, decided over the grid: the batch, then zeros. -/
theorem idx7 : ∀ t : Fin cfg0.N, win0_7.index t (0 : Fin 3) = t.val / 16 ∧ win0_7.index t (1 : Fin 3) = 0 ∧ win0_7.index t (2 : Fin 3) = 0 :=
  (by decide +kernel : ∀ t : Fin grid0.N, _)

/-- Entry (b, 0, c) of the array: entry (0, 0, c) of what the last tile of batch b left. -/
def G7 (c : Dev nD) : S2x1x3.Idx → Elt F .f32 := fun i =>
  (outsAt0 m c (16 * (i 0).val + 15) (lastPt_lt (i 0).val (i 0).isLt)).2.2.2.2.1
    (ix3 (0 : Fin 1) (0 : Fin 1) (⟨(i 2).val, (i 2).isLt⟩ : Fin 3))

/-- What a writing-back point writes is its block of `G7`. -/
theorem flushed7_eq (c : Dev nD) (t : Fin cfg0.N) (hf : (cfg0.win 7).flush t = true) :
    (dats m 0 c).flushed 7 t = ((cfg0.win 7).blk t).view.read (Elt F) (G7 m c) := by
  have h15 : t.val % 16 = 15 := (flush0_7 t).mp hf
  obtain ⟨e0, e1, e2⟩ := idx7 t
  show (cfg0.win 7).cut (grid0.coords t) ((dats m 0 c).after 7 t) = _
  rw [after0_7]
  funext y
  show (outsAt0 m c t.val t.isLt).2.2.2.2.1 y = G7 m c (((cfg0.win 7).blk t).view.emb y)
  have hy0 : (y 0).val < 1 := (y 0).isLt
  have hy1 : (y 1).val < 1 := (y 1).isLt
  have hy2 : (y 2).val < 3 := (y 2).isLt
  have hE0 : ((((cfg0.win 7).blk t).view.emb y) 0).val = win0_7.index t (0 : Fin 3) * 1 + 1 * (y 0).val := rfl
  have hE2 : ((((cfg0.win 7).blk t).view.emb y) 2).val = win0_7.index t (2 : Fin 3) * 3 + 1 * (y 2).val := rfl
  have hn : 16 * ((((cfg0.win 7).blk t).view.emb y) 0).val + 15 = t.val := by rw [hE0, e0]; omega
  have hN : t.val < 32 := lt_of_lt_of_eq t.isLt N_0
  have hlt : ((((cfg0.win 7).blk t).view.emb y) 0).val < 2 := by omega
  have hyy : y = ix3 (0 : Fin 1) (0 : Fin 1) (⟨((((cfg0.win 7).blk t).view.emb y) 2).val, ((((cfg0.win 7).blk t).view.emb y) 2).isLt⟩ : Fin 3) :=
    funext fun a => Fin.ext (by
      match a with
      | ⟨0, _⟩ => show (y 0).val = 0; omega
      | ⟨1, _⟩ => show (y 1).val = 0; omega
      | ⟨2, _⟩ => show (y 2).val = ((((cfg0.win 7).blk t).view.emb y) 2).val; rw [hE2, e2]; omega)
  unfold G7
  rw [outsAt0_congr m c hn (lastPt_lt _ hlt) t.isLt]
  exact congrArg _ hyy

/-- An index of the array is in point `t`'s block iff each coordinate is in the block's range on its axis. -/
theorem mem_blk7 (t : Fin cfg0.N) (i : S2x1x3.Idx) :
    i ∈ ((cfg0.win 7).blk t).view.set ↔ ∀ a : Fin 3, win0_7.index t a * S1x1x3.size a ≤ (i a).val ∧ (i a).val < win0_7.index t a * S1x1x3.size a + S1x1x3.size a := by
  show i ∈ ((View.whole main_v4_4).slice (win0_7.rect t)).set ↔ _
  rw [View.set_slice_whole, Rect.mem_set_unit]
  exact Iff.rfl

/-- Every entry of the array lies in the block some batch's last tile writes back. -/
theorem cover7 (i : S2x1x3.Idx) : ∃ t : Fin cfg0.N, (cfg0.win 7).flush t = true ∧ i ∈ ((cfg0.win 7).blk t).view.set := by
  have hi0 : (i 0).val < 2 := (i 0).isLt
  have hi1 : (i 1).val < 1 := (i 1).isLt
  have hi2 : (i 2).val < 3 := (i 2).isLt
  refine ⟨⟨16 * (i 0).val + 15, lastPt_lt _ hi0⟩, (flush0_7 _).mpr (by show (16 * (i 0).val + 15) % 16 = 15; omega), ?_⟩
  obtain ⟨e0, e1, e2⟩ := idx7 ⟨16 * (i 0).val + 15, lastPt_lt _ hi0⟩
  have e0' : win0_7.index ⟨16 * (i 0).val + 15, lastPt_lt _ hi0⟩ (0 : Fin 3) = (i 0).val := by rw [e0]; show (16 * (i 0).val + 15) / 16 = _; omega
  rw [mem_blk7]
  intro a
  match a with
  | ⟨0, _⟩ => show win0_7.index _ (0 : Fin 3) * 1 ≤ (i 0).val ∧ (i 0).val < win0_7.index _ (0 : Fin 3) * 1 + 1; rw [e0']; omega
  | ⟨1, _⟩ => show win0_7.index _ (1 : Fin 3) * 1 ≤ (i 1).val ∧ (i 1).val < win0_7.index _ (1 : Fin 3) * 1 + 1; rw [e1]; omega
  | ⟨2, _⟩ => show win0_7.index _ (2 : Fin 3) * 3 ≤ (i 2).val ∧ (i 2).val < win0_7.index _ (2 : Fin 3) * 3 + 3; rw [e2]; omega

/-- The array after the run. -/
theorem final7 (c : Dev nD) : (dats m 0 c).arrAt 7 cfg0.N = G7 m c :=
  (dats m 0 c).arrAt_eq_of_cover 7 (G7 m c) (flushed7_eq m c) (cover7)

end Cert.KernelIdeal.Outputs

end
-- ==== Proof.Folds.lean ====
/-
  The five outputs after a batch's last tile are the Spec's per-batch quantities.

  Each accumulator follows one recurrence over the batch's sixteen tiles — reset and update at the first,
  update from the previous value afterwards — so after the last tile it is the sum (resp. the minimum,
  the maximum) over the tiles of the tile's contribution.  A tile's contribution is a sum (minimum,
  maximum) over its 8 rows and 36864 positions of a per-voxel term read from the argument arrays at depth
  8·n + r and plane position (l / 192, l % 192); summing over tiles, rows and positions is summing over
  depth, height and width.
-/
import proofs.«152530_j15169824489490_2_alg».proof.Proof.Accum
import proofs.«152530_j15169824489490_2_alg».proof.Proof.Blocks
import proofs.«152530_j15169824489490_2_alg».proof.Proof.Outputs

noncomputable section

namespace Cert.KernelIdeal.Folds

open Idealize.ShloMosaic Idealize.ShloMosaic.TcCoe Idealize.SL.Sem Idealize.ShloMosaic.ValueIdx
open Cert.KernelIdeal Cert.KernelIdeal.Gen Cert.KernelIdeal.GenP Cert.SoftCE Cert.KernelIdeal.Blocks Cert.KernelIdeal.Outputs Cert.KernelIdeal.TileValue

/-! ## From a recurrence over the grid's points to a fold over a batch's tiles -/

theorem dep_congr {α : Type} {N : Nat} (A : (n : Nat) → n < N → α) {n n' : Nat} (e : n = n') (h : n < N) (h' : n' < N) :
    A n h = A n' h' := by subst e; rfl

theorem pt_val (b : Fin 2) (k : Fin 16) : (pt b k).val = 16 * b.val + k.val := rfl

/-- The plumbing shared by the three folds: a point-indexed quantity as a function of every natural. -/
def total (A : (n : Nat) → n < cfg0.N → EReal) (n : Nat) : EReal := if h : n < cfg0.N then A n h else 0
def totalT (tl : Fin cfg0.N → EReal) (n : Nat) : EReal := if h : n < cfg0.N then tl ⟨n, h⟩ else 0

theorem lt_of_tile (b : Fin 2) (k : Nat) (hk : k < 16) : 16 * b.val + k < cfg0.N := by
  have := b.isLt; show _ < grid0.N; rw [N_0]; omega

/-- A quantity reset to `0 + tile` at a batch's first tile and increased by the tile afterwards is, after the
    batch's last tile, the sum of the sixteen tiles. -/
theorem fold_sum (b : Fin 2) (A : (n : Nat) → n < cfg0.N → EReal) (tl : Fin cfg0.N → EReal)
    (hfirst : ∀ t : Fin cfg0.N, t.val % 16 = 0 → A t.val t.isLt = 0 + tl t)
    (hstep : ∀ t : Fin cfg0.N, ¬t.val % 16 = 0 →
      A t.val t.isLt = A (t.val - 1) (Nat.lt_of_le_of_lt (Nat.sub_le _ _) t.isLt) + tl t) :
    A (16 * b.val + 15) (lt_of_tile b 15 (by decide)) = ∑ k : Fin 16, tl (pt b k) := by
  have key := acc_sum (total A) (totalT tl) (16 * b.val)
    (by
      have h : 16 * b.val < cfg0.N := lt_of_tile b 0 (by decide)
      unfold total totalT
      rw [dif_pos h, dif_pos h]
      exact hfirst ⟨16 * b.val, h⟩ (by show (16 * b.val) % 16 = 0; omega))
    (fun k hk => by
      have h1 := lt_of_tile b (k + 1) (by omega)
      have h0 := lt_of_tile b k (by omega)
      unfold total totalT
      rw [dif_pos (show 16 * b.val + k + 1 < cfg0.N from h1), dif_pos (show 16 * b.val + k < cfg0.N from h0),
        dif_pos (show 16 * b.val + k + 1 < cfg0.N from h1)]
      rw [hstep ⟨16 * b.val + k + 1, h1⟩ (by show ¬(16 * b.val + k + 1) % 16 = 0; omega)]
      exact congrArg (· + _) (dep_congr A (by show 16 * b.val + k + 1 - 1 = 16 * b.val + k; omega) _ _))
  unfold total totalT at key
  rw [dif_pos (lt_of_tile b 15 (by decide))] at key
  rw [key]
  exact Finset.sum_congr rfl fun k _ => by rw [dif_pos (lt_of_tile b k.val k.isLt)]; rfl

/-- The same for a running minimum from +∞. -/
theorem fold_min (b : Fin 2) (A : (n : Nat) → n < cfg0.N → EReal) (tl : Fin cfg0.N → EReal)
    (hfirst : ∀ t : Fin cfg0.N, t.val % 16 = 0 → A t.val t.isLt = min ⊤ (tl t))
    (hstep : ∀ t : Fin cfg0.N, ¬t.val % 16 = 0 →
      A t.val t.isLt = min (A (t.val - 1) (Nat.lt_of_le_of_lt (Nat.sub_le _ _) t.isLt)) (tl t)) :
    A (16 * b.val + 15) (lt_of_tile b 15 (by decide)) = ⨅ k : Fin 16, tl (pt b k) := by
  have key := acc_min (total A) (totalT tl) (16 * b.val)
    (by
      have h : 16 * b.val < cfg0.N := lt_of_tile b 0 (by decide)
      unfold total totalT
      rw [dif_pos h, dif_pos h]
      exact hfirst ⟨16 * b.val, h⟩ (by show (16 * b.val) % 16 = 0; omega))
    (fun k hk => by
      have h1 := lt_of_tile b (k + 1) (by omega)
      have h0 := lt_of_tile b k (by omega)
      unfold total totalT
      rw [dif_pos (show 16 * b.val + k + 1 < cfg0.N from h1), dif_pos (show 16 * b.val + k < cfg0.N from h0),
        dif_pos (show 16 * b.val + k + 1 < cfg0.N from h1)]
      rw [hstep ⟨16 * b.val + k + 1, h1⟩ (by show ¬(16 * b.val + k + 1) % 16 = 0; omega)]
      exact congrArg (min · _) (dep_congr A (by show 16 * b.val + k + 1 - 1 = 16 * b.val + k; omega) _ _))
  unfold total totalT at key
  rw [dif_pos (lt_of_tile b 15 (by decide))] at key
  rw [key]
  exact iInf_congr fun k => by rw [dif_pos (lt_of_tile b k.val k.isLt)]; rfl

/-- The same for a running maximum from -∞. -/
theorem fold_max (b : Fin 2) (A : (n : Nat) → n < cfg0.N → EReal) (tl : Fin cfg0.N → EReal)
    (hfirst : ∀ t : Fin cfg0.N, t.val % 16 = 0 → A t.val t.isLt = max ⊥ (tl t))
    (hstep : ∀ t : Fin cfg0.N, ¬t.val % 16 = 0 →
      A t.val t.isLt = max (A (t.val - 1) (Nat.lt_of_le_of_lt (Nat.sub_le _ _) t.isLt)) (tl t)) :
    A (16 * b.val + 15) (lt_of_tile b 15 (by decide)) = ⨆ k : Fin 16, tl (pt b k) := by
  have key := acc_max (total A) (totalT tl) (16 * b.val)
    (by
      have h : 16 * b.val < cfg0.N := lt_of_tile b 0 (by decide)
      unfold total totalT
      rw [dif_pos h, dif_pos h]
      exact hfirst ⟨16 * b.val, h⟩ (by show (16 * b.val) % 16 = 0; omega))
    (fun k hk => by
      have h1 := lt_of_tile b (k + 1) (by omega)
      have h0 := lt_of_tile b k (by omega)
      unfold total totalT
      rw [dif_pos (show 16 * b.val + k + 1 < cfg0.N from h1), dif_pos (show 16 * b.val + k < cfg0.N from h0),
        dif_pos (show 16 * b.val + k + 1 < cfg0.N from h1)]
      rw [hstep ⟨16 * b.val + k + 1, h1⟩ (by show ¬(16 * b.val + k + 1) % 16 = 0; omega)]
      exact congrArg (max · _) (dep_congr A (by show 16 * b.val + k + 1 - 1 = 16 * b.val + k; omega) _ _))
  unfold total totalT at key
  rw [dif_pos (lt_of_tile b 15 (by decide))] at key
  rw [key]
  exact iSup_congr fun k => by rw [dif_pos (lt_of_tile b k.val k.isLt)]; rfl

/-! ## A tile's contribution, read from the argument arrays -/

section Values

variable (m : (ℓ : Loc nD τ sig) → Buf (Elt Ideal) ℓ) (c : Dev nD)

set_option quotPrecheck false in
local notation "X" => m ((c : Thread nD τ).loc main_arg0)
set_option quotPrecheck false in
local notation "T" => m ((c : Thread nD τ).loc main_arg1)
set_option quotPrecheck false in
local notation "D" => m ((c : Thread nD τ).loc main_arg2)

theorem bxs_iblk (b : Fin 2) (n : Fin 16) (r : Fin 8) (l : Fin 36864) :
    bxs (iblk m c 0 (pt b n)) r l = xs X b (dOf n r) (hOf l) (wOf l) :=
  funext fun k => iblk0_apply m c b n k r l

theorem blp_iblk (b : Fin 2) (n : Fin 16) (k : Fin 4) (r : Fin 8) (l : Fin 36864) :
    blp (iblk m c 0 (pt b n)) k r l = lp X b k (dOf n r) (hOf l) (wOf l) := by
  unfold blp lp; rw [bxs_iblk]

theorem lab_iblk (b : Fin 2) (n : Fin 16) (r : Fin 8) (l : Fin 36864) :
    (iblk m c 1 (pt b n) : Vec Ideal S1x8x36864 .i32) (ix3 0 r l) = tg T b (dOf n r) (hOf l) (wOf l) :=
  iblk1_apply m c b n r l

theorem bzz_iblk (b : Fin 2) (n : Fin 16) (k : Fin 4) (r : Fin 8) (l : Fin 36864) :
    bzz (iblk m c 1 (pt b n)) (iblk m c 2 (pt b n)) k.val r l = zz T D b k (dOf n r) (hOf l) (wOf l) := by
  unfold bzz zz; rw [lab_iblk, iblk2_apply]

/-! ## The five outputs after a batch's last tile -/

/-- Output 0 after batch b: Σ over the batch's voxels of [t = 0]·logp₀. -/
theorem out3_value (b : Fin 2) :
    (outsAt0 m c (16 * b.val + 15) (lt_of_tile b 15 (by decide))).1 (ix3 0 0 0) = s0 X T b := by
  have hlt := lt_of_tile b 15 (by decide)
  have h0 : ¬(⟨16 * b.val + 15, hlt⟩ : Fin cfg0.N).val % 16 = 0 := by show ¬(16 * b.val + 15) % 16 = 0; omega
  have h1 : (⟨16 * b.val + 15, hlt⟩ : Fin cfg0.N).val % 16 = 15 := by show (16 * b.val + 15) % 16 = 15; omega
  have e : (outsAt0 m c (16 * b.val + 15) hlt).1 = (outsAt0 m c (16 * b.val + 15) hlt).2.2.2.2.2.1 :=
    (Accum.outS0 m c ⟨16 * b.val + 15, hlt⟩ h0 h1).trans (Accum.lastS0 m c ⟨16 * b.val + 15, hlt⟩ h0 h1).symm
  rw [e]
  refine (fold_sum b (fun n h => (outsAt0 m c n h).2.2.2.2.2.1 (ix3 0 0 0))
    (fun t => tS0 (iblk m c 0 t) (iblk m c 1 t)) ?_ ?_).trans ?_
  · intro t ht
    show (outsAt0 m c t.val t.isLt).2.2.2.2.2.1 (ix3 0 0 0) = _
    rw [Accum.firstS0 m c t ht, accS0_apply, init0_apply]
  · intro t ht
    show (outsAt0 m c t.val t.isLt).2.2.2.2.2.1 (ix3 0 0 0) = _
    by_cases h15 : t.val % 16 = 15
    · rw [Accum.lastS0 m c t ht h15, accS0_apply]
    · rw [Accum.stepS0 m c t ht h15, accS0_apply]
  · unfold s0
    rw [← sum_tiles (fun d h w => hot (tg T b d h w) 0 * lp X b 0 d h w)]
    refine Finset.sum_congr rfl fun n _ => ?_
    show tS0 (iblk m c 0 (pt b n)) (iblk m c 1 (pt b n)) = _
    unfold tS0
    refine Finset.sum_congr rfl fun r _ => Finset.sum_congr rfl fun l _ => ?_
    rw [lab_iblk, blp_iblk]

/-- Output 1 after batch b, lane cc: the minimum of z over the batch's voxels, class cc + 1. -/
theorem out4_value (b : Fin 2) (cc : Fin 3) :
    (outsAt0 m c (16 * b.val + 15) (lt_of_tile b 15 (by decide))).2.1 (ix3 0 0 cc) = mn T D b cc.succ := by
  have hlt := lt_of_tile b 15 (by decide)
  have h0 : ¬(⟨16 * b.val + 15, hlt⟩ : Fin cfg0.N).val % 16 = 0 := by show ¬(16 * b.val + 15) % 16 = 0; omega
  have h1 : (⟨16 * b.val + 15, hlt⟩ : Fin cfg0.N).val % 16 = 15 := by show (16 * b.val + 15) % 16 = 15; omega
  have e : (outsAt0 m c (16 * b.val + 15) hlt).2.1 = (outsAt0 m c (16 * b.val + 15) hlt).2.2.2.2.2.2.1 :=
    (Accum.outMin m c ⟨16 * b.val + 15, hlt⟩ h0 h1).trans (Accum.lastMin m c ⟨16 * b.val + 15, hlt⟩ h0 h1).symm
  rw [e]
  refine (fold_min b (fun n h => (outsAt0 m c n h).2.2.2.2.2.2.1 (ix3 0 0 cc))
    (fun t => tMn (iblk m c 1 t) (iblk m c 2 t) (cc.val + 1)) ?_ ?_).trans ?_
  · intro t ht
    show (outsAt0 m c t.val t.isLt).2.2.2.2.2.2.1 (ix3 0 0 cc) = _
    rw [Accum.firstMin m c t ht, accMin_apply, initMin_apply]
  · intro t ht
    show (outsAt0 m c t.val t.isLt).2.2.2.2.2.2.1 (ix3 0 0 cc) = _
    by_cases h15 : t.val % 16 = 15
    · rw [Accum.lastMin m c t ht h15, accMin_apply]
    · rw [Accum.stepMin m c t ht h15, accMin_apply]
  · unfold mn
    rw [← iInf_tiles (fun d h w => zz T D b cc.succ d h w)]
    refine iInf_congr fun n => ?_
    show tMn (iblk m c 1 (pt b n)) (iblk m c 2 (pt b n)) (cc.val + 1) = _
    unfold tMn
    refine iInf_congr fun r => iInf_congr fun l => ?_
    rw [← Fin.val_succ cc, bzz_iblk]

/-- Output 2 after batch b, lane cc: the maximum of z over the batch's voxels, class cc + 1. -/
theorem out5_value (b : Fin 2) (cc : Fin 3) :
    (outsAt0 m c (16 * b.val + 15) (lt_of_tile b 15 (by decide))).2.2.1 (ix3 0 0 cc) = mx T D b cc.succ := by
  have hlt := lt_of_tile b 15 (by decide)
  have h0 : ¬(⟨16 * b.val + 15, hlt⟩ : Fin cfg0.N).val % 16 = 0 := by show ¬(16 * b.val + 15) % 16 = 0; omega
  have h1 : (⟨16 * b.val + 15, hlt⟩ : Fin cfg0.N).val % 16 = 15 := by show (16 * b.val + 15) % 16 = 15; omega
  have e : (outsAt0 m c (16 * b.val + 15) hlt).2.2.1 = (outsAt0 m c (16 * b.val + 15) hlt).2.2.2.2.2.2.2.1 :=
    (Accum.outMax m c ⟨16 * b.val + 15, hlt⟩ h0 h1).trans (Accum.lastMax m c ⟨16 * b.val + 15, hlt⟩ h0 h1).symm
  rw [e]
  refine (fold_max b (fun n h => (outsAt0 m c n h).2.2.2.2.2.2.2.1 (ix3 0 0 cc))
    (fun t => tMx (iblk m c 1 t) (iblk m c 2 t) (cc.val + 1)) ?_ ?_).trans ?_
  · intro t ht
    show (outsAt0 m c t.val t.isLt).2.2.2.2.2.2.2.1 (ix3 0 0 cc) = _
    rw [Accum.firstMax m c t ht, accMax_apply, initMax_apply]
  · intro t ht
    show (outsAt0 m c t.val t.isLt).2.2.2.2.2.2.2.1 (ix3 0 0 cc) = _
    by_cases h15 : t.val % 16 = 15
    · rw [Accum.lastMax m c t ht h15, accMax_apply]
    · rw [Accum.stepMax m c t ht h15, accMax_apply]
  · unfold mx
    rw [← iSup_tiles (fun d h w => zz T D b cc.succ d h w)]
    refine iSup_congr fun n => ?_
    show tMx (iblk m c 1 (pt b n)) (iblk m c 2 (pt b n)) (cc.val + 1) = _
    unfold tMx
    refine iSup_congr fun r => iSup_congr fun l => ?_
    rw [← Fin.val_succ cc, bzz_iblk]

/-- Output 3 after batch b, lane cc: Σ over the batch's voxels of z·logp, class cc + 1. -/
theorem out6_value (b : Fin 2) (cc : Fin 3) :
    (outsAt0 m c (16 * b.val + 15) (lt_of_tile b 15 (by decide))).2.2.2.1 (ix3 0 0 cc) = szl X T D b cc.succ := by
  have hlt := lt_of_tile b 15 (by decide)
  have h0 : ¬(⟨16 * b.val + 15, hlt⟩ : Fin cfg0.N).val % 16 = 0 := by show ¬(16 * b.val + 15) % 16 = 0; omega
  have h1 : (⟨16 * b.val + 15, hlt⟩ : Fin cfg0.N).val % 16 = 15 := by show (16 * b.val + 15) % 16 = 15; omega
  have e : (outsAt0 m c (16 * b.val + 15) hlt).2.2.2.1 = (outsAt0 m c (16 * b.val + 15) hlt).2.2.2.2.2.2.2.2.1 :=
    (Accum.outSzl m c ⟨16 * b.val + 15, hlt⟩ h0 h1).trans (Accum.lastSzl m c ⟨16 * b.val + 15, hlt⟩ h0 h1).symm
  rw [e]
  refine (fold_sum b (fun n h => (outsAt0 m c n h).2.2.2.2.2.2.2.2.1 (ix3 0 0 cc))
    (fun t => tSzl (iblk m c 0 t) (iblk m c 1 t) (iblk m c 2 t) cc.succ) ?_ ?_).trans ?_
  · intro t ht
    show (outsAt0 m c t.val t.isLt).2.2.2.2.2.2.2.2.1 (ix3 0 0 cc) = _
    rw [Accum.firstSzl m c t ht, accSzl_apply, initSzl_apply]
  · intro t ht
    show (outsAt0 m c t.val t.isLt).2.2.2.2.2.2.2.2.1 (ix3 0 0 cc) = _
    by_cases h15 : t.val % 16 = 15
    · rw [Accum.lastSzl m c t ht h15, accSzl_apply]
    · rw [Accum.stepSzl m c t ht h15, accSzl_apply]
  · unfold szl
    rw [← sum_tiles (fun d h w => zz T D b cc.succ d h w * lp X b cc.succ d h w)]
    refine Finset.sum_congr rfl fun n _ => ?_
    show tSzl (iblk m c 0 (pt b n)) (iblk m c 1 (pt b n)) (iblk m c 2 (pt b n)) cc.succ = _
    unfold tSzl
    refine Finset.sum_congr rfl fun r _ => Finset.sum_congr rfl fun l _ => ?_
    rw [bzz_iblk, blp_iblk]

/-- Output 4 after batch b, lane cc: Σ over the batch's voxels of logp, class cc + 1. -/
theorem out7_value (b : Fin 2) (cc : Fin 3) :
    (outsAt0 m c (16 * b.val + 15) (lt_of_tile b 15 (by decide))).2.2.2.2.1 (ix3 0 0 cc) = sl X b cc.succ := by
  have hlt := lt_of_tile b 15 (by decide)
  have h0 : ¬(⟨16 * b.val + 15, hlt⟩ : Fin cfg0.N).val % 16 = 0 := by show ¬(16 * b.val + 15) % 16 = 0; omega
  have h1 : (⟨16 * b.val + 15, hlt⟩ : Fin cfg0.N).val % 16 = 15 := by show (16 * b.val + 15) % 16 = 15; omega
  have e : (outsAt0 m c (16 * b.val + 15) hlt).2.2.2.2.1 = (outsAt0 m c (16 * b.val + 15) hlt).2.2.2.2.2.2.2.2.2 :=
    (Accum.outSl m c ⟨16 * b.val + 15, hlt⟩ h0 h1).trans (Accum.lastSl m c ⟨16 * b.val + 15, hlt⟩ h0 h1).symm
  rw [e]
  refine (fold_sum b (fun n h => (outsAt0 m c n h).2.2.2.2.2.2.2.2.2 (ix3 0 0 cc))
    (fun t => tSl (iblk m c 0 t) cc.succ) ?_ ?_).trans ?_
  · intro t ht
    show (outsAt0 m c t.val t.isLt).2.2.2.2.2.2.2.2.2 (ix3 0 0 cc) = _
    rw [Accum.firstSl m c t ht, accSl_apply, initSl_apply]
  · intro t ht
    show (outsAt0 m c t.val t.isLt).2.2.2.2.2.2.2.2.2 (ix3 0 0 cc) = _
    by_cases h15 : t.val % 16 = 15
    · rw [Accum.lastSl m c t ht h15, accSl_apply]
    · rw [Accum.stepSl m c t ht h15, accSl_apply]
  · unfold sl
    rw [← sum_tiles (fun d h w => lp X b cc.succ d h w)]
    refine Finset.sum_congr rfl fun n _ => ?_
    show tSl (iblk m c 0 (pt b n)) cc.succ = _
    unfold tSl
    refine Finset.sum_congr rfl fun r _ => Finset.sum_congr rfl fun l _ => ?_
    rw [blp_iblk]

end Values

end Cert.KernelIdeal.Folds

end
-- ==== Proof.TailRead.lean ====
/-
  The twenty host operations that follow the accumulation, as one function of the five accumulated arrays.

  The accumulation leaves, per batch b: one Σ [t = 0]·logp₀ (`o0`, [2,1,1]), and per class lane the
  minimum (`o1`), the maximum (`o2`), Σ z·logp (`o3`) and Σ logp (`o4`) (each [2,1,3]).  The lines after
  it drop the unit axes, form (o3 - o1·o4) / ((o2 + ε) - o1) lane by lane, add everything up, negate and
  divide by the voxel count.  `finish` is that composition; `after_tail` says it is what those lines
  leave in the result buffer, from any contents of the other buffers.
-/
import proofs.«152530_j15169824489490_2_alg».proof.Proof.Gen.KernelIdeal.Launch
import Idealize.ShloMosaic.Lib.StableHlo.Run

noncomputable section

namespace Cert.KernelIdeal.Tail

open Idealize.ShloMosaic Idealize.ShloMosaic.TcCoe Idealize.ShloMosaic.StableHlo Idealize.SL.Sem
open Cert.KernelIdeal Cert.KernelIdeal.Gen

variable {F : FTy → Type} [FloatOps F]

/-- The finishing arithmetic on the five accumulated arrays. -/
def finish (o0 : (⟨S2x1x1, .f32⟩ : BufTy).Contents (Elt F)) (o1 o2 o3 o4 : (⟨S2x1x3, .f32⟩ : BufTy).Contents (Elt F)) :
    (⟨S_, .f32⟩ : BufTy).Contents (Elt F) :=
  Host.divf
    (Host.negf
      (addf
        (Host.reduceAdd (shapeCast S2 o0 shapeCasts_S2x1x1_S2) (constant S_ .f32 0x00000000#32) reducesTo_S2_S_d0 h_S_)
        (Host.reduceAdd
          (Host.divf
            (subf (shapeCast S2x3 o3 shapeCasts_S2x1x3_S2x3)
              (mulf (shapeCast S2x3 o1 shapeCasts_S2x1x3_S2x3) (shapeCast S2x3 o4 shapeCasts_S2x1x3_S2x3)))
            (subf (addf (shapeCast S2x3 o2 shapeCasts_S2x1x3_S2x3)
                (broadcastInDim S2x3 ![] bcast_S_S2x3 (constant S_ .f32 0x322BCC77#32)))
              (shapeCast S2x3 o1 shapeCasts_S2x1x3_S2x3)))
          (constant S_ .f32 0x00000000#32) reducesTo_S2x3_S_d0_1 h_S_)))
    (constant S_ .f32 0x4B100000#32)

/-- The lines after the accumulation leave `finish` of the five accumulated arrays in the result buffer. -/
theorem after_tail (W : Valuation τ sig (Elt F)) :
    StableHlo.after (hostOps1 (F := F)) W (Proc.devRef .tc main_v20)
      = finish (W (Proc.devRef .tc main_v4_0)) (W (Proc.devRef .tc main_v4_1)) (W (Proc.devRef .tc main_v4_2))
          (W (Proc.devRef .tc main_v4_3)) (W (Proc.devRef .tc main_v4_4)) := by
  after_results_simp
  rfl

end Cert.KernelIdeal.Tail

end
-- ==== Proof.TailValue.lean ====
/-
  The finishing arithmetic at the extended reals, entry by entry.

  With the five accumulated arrays read at (b, 0, c), the finishing composition is
    ( -( Σ_b o0[b] + Σ_b Σ_c (o3[b,c] - o1[b,c]·o4[b,c]) / ((o2[b,c] + ε) - o1[b,c]) ) ) / N :
  the unit axes drop out of the indices, the two host sums are finite sums from zero, and negation and the
  two divisions act entry by entry.
-/
import proofs.«152530_j15169824489490_2_alg».proof.Proof.TailRead
import proofs.«152530_j15169824489490_2_alg».proof.Proof.Spec
import Idealize.ShloMosaic.PureOps.Ideal.Laws
import Idealize.ShloMosaic.Lib.ValueIdx
import Idealize.ShloMosaic.Lib.IdealHost
import Idealize.ShloMosaic.Lib.Pipeline.Value

noncomputable section

namespace Cert.KernelIdeal.Tail

open Idealize.ShloMosaic Idealize.ShloMosaic.ValueIdx
open Cert.KernelIdeal Cert.KernelIdeal.Gen Cert.SoftCE

/-- Dropping the middle unit axis of a [2,1,3] array: entry (b, c) is entry (b, 0, c). -/
theorem cast_lane (o : FVec Ideal S2x1x3 .f32) (b : Fin 2) (c : Fin 3) :
    shapeCast S2x3 o shapeCasts_S2x1x3_S2x3 (ix2 b c) = o (ix3 b 0 c) :=
  shapeCast_apply o shapeCasts_S2x1x3_S2x3 (ix2 b c) (ix3 b 0 c) (by
    rewrite [Shape.rowMajor_val_three, Shape.rowMajor_val_two]
    show (b.val * 1 + 0) * 3 + c.val = b.val * 3 + c.val
    omega)

/-- Dropping both unit axes of a [2,1,1] array: entry b is entry (b, 0, 0). -/
theorem cast_one (o : FVec Ideal S2x1x1 .f32) (b : Fin 2) :
    shapeCast S2 o shapeCasts_S2x1x1_S2 (ix1 b) = o (ix3 b 0 0) :=
  shapeCast_apply o shapeCasts_S2x1x1_S2 (ix1 b) (ix3 b 0 0) (by
    rewrite [Shape.rowMajor_val_three, Shape.rowMajor_val_one]
    show (b.val * 1 + 0) * 1 + 0 = b.val
    omega)

/-- An index of a rank-one shape is its one coordinate … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The finishing arithmetic, entry by entry, on the extended reals. -/
theorem finish_apply (o0 : FVec Ideal S2x1x1 .f32) (o1 o2 o3 o4 : FVec Ideal S2x1x3 .f32) (j : S_.Idx) :
    finish (F := Ideal) o0 o1 o2 o3 o4 j
      = Ideal.div (-((∑ b : Fin 2, o0 (ix3 b 0 0))
          + (∑ b : Fin 2, ∑ c : Fin 3,
              Ideal.div (o3 (ix3 b 0 c) - o1 (ix3 b 0 c) * o4 (ix3 b 0 c))
                ((o2 (ix3 b 0 c) + eps) - o1 (ix3 b 0 c))))) cnt := by
  unfold finish
  show Ideal.div (-(Host.reduceAdd (F := Ideal) _ _ reducesTo_S2_S_d0 h_S_ j + Host.reduceAdd (F := Ideal) _ _ reducesTo_S2x3_S_d0_1 h_S_ j)) _ = _
  rw [hostReduceAdd_apply, hostReduceAdd_apply,
    Ideal.hostReduceAdd_total reducesTo_S2_S_d0 (fun b => b.elim0),
    Ideal.hostReduceAdd_total reducesTo_S2x3_S_d0_1 (fun b => b.elim0)]
  have e1 : (∑ i : S2.Idx, shapeCast S2 o0 shapeCasts_S2x1x1_S2 i) = ∑ b : Fin 2, o0 (ix3 b 0 0) := by
    rw [sum_idx1]
    exact Finset.sum_congr rfl fun b _ => cast_one o0 b
  rw [e1, sum_idx2]
  have e2 : ∀ (b : Fin 2) (c : Fin 3),
      Host.divf (F := Ideal)
          (subf (shapeCast S2x3 o3 shapeCasts_S2x1x3_S2x3)
            (mulf (shapeCast S2x3 o1 shapeCasts_S2x1x3_S2x3) (shapeCast S2x3 o4 shapeCasts_S2x1x3_S2x3)))
          (subf (addf (shapeCast S2x3 o2 shapeCasts_S2x1x3_S2x3)
              (broadcastInDim S2x3 ![] bcast_S_S2x3 (constant S_ .f32 0x322BCC77#32)))
            (shapeCast S2x3 o1 shapeCasts_S2x1x3_S2x3)) (ix2 b c)
        = Ideal.div (o3 (ix3 b 0 c) - o1 (ix3 b 0 c) * o4 (ix3 b 0 c))
            ((o2 (ix3 b 0 c) + eps) - o1 (ix3 b 0 c)) := by
    intro b c
    show Ideal.div (shapeCast S2x3 o3 _ (ix2 b c) - shapeCast S2x3 o1 _ (ix2 b c) * shapeCast S2x3 o4 _ (ix2 b c))
        ((shapeCast S2x3 o2 _ (ix2 b c) + _) - shapeCast S2x3 o1 _ (ix2 b c)) = _
    rw [cast_lane, cast_lane, cast_lane, cast_lane]
    rfl
  simp only [e2]
  show Ideal.div (-((Ideal.ofBits .f32 0x00000000#32 + _) + (Ideal.ofBits .f32 0x00000000#32 + _))) _ = _
  rw [Ideal.ofBits_zero_f32, zero_add, zero_add]
  rfl

end Cert.KernelIdeal.Tail

end
-- ==== Proof.KValue.lean ====
/-
  The accumulating program's run, with its result named.

  Its frame run leaves each output array at what the library computes from the body's per-point values,
  and the result buffer at what the twenty lines after the accumulation make of those arrays.  The arrays
  are the five per-batch quantities (the folds over the sixteen tiles), so the result is `kernelLoss` of the
  three argument arrays.
-/
import proofs.«152530_j15169824489490_2_alg».proof.Proof.Folds
import proofs.«152530_j15169824489490_2_alg».proof.Proof.TailValue

noncomputable section

namespace Cert.KernelIdeal.KValue

open Idealize.ShloMosaic Idealize.ShloMosaic.TcCoe Idealize.SL.Sem Idealize.ShloMosaic.ValueIdx
open Cert.KernelIdeal Cert.KernelIdeal.Gen Cert.KernelIdeal.GenP Cert.SoftCE Cert.KernelIdeal.Outputs Cert.KernelIdeal.Folds

variable (m : (ℓ : Loc nD τ sig) → Buf (Elt Ideal) ℓ) (ρ : Dev nD → PrngReg)

/-- The lines after the accumulation, applied to the five output arrays as the run leaves them. -/
theorem tail_eq (c : Dev nD) :
    Pipeline.afterTail₀ cfgs (dats m) 0 (V0 m) [hostOps1] c main_v20
      = Tail.finish (G3 m c) (G4 m c) (G5 m c) (G6 m c) (G7 m c) := by
  unfold Pipeline.afterTail₀
  show StableHlo.after (hostOps1 (F := Ideal)) _ (Proc.devRef .tc main_v20) = _
  rw [Tail.after_tail]
  have a3 := (Pipeline.withArrays_arr spec0 launch0.win.arr_inj c (V0 m c) (fun w => (dats m 0 c).arrAt w cfg0.N) 3).trans (final3 m c)
  have a4 := (Pipeline.withArrays_arr spec0 launch0.win.arr_inj c (V0 m c) (fun w => (dats m 0 c).arrAt w cfg0.N) 4).trans (final4 m c)
  have a5 := (Pipeline.withArrays_arr spec0 launch0.win.arr_inj c (V0 m c) (fun w => (dats m 0 c).arrAt w cfg0.N) 5).trans (final5 m c)
  have a6 := (Pipeline.withArrays_arr spec0 launch0.win.arr_inj c (V0 m c) (fun w => (dats m 0 c).arrAt w cfg0.N) 6).trans (final6 m c)
  have a7 := (Pipeline.withArrays_arr spec0 launch0.win.arr_inj c (V0 m c) (fun w => (dats m 0 c).arrAt w cfg0.N) 7).trans (final7 m c)
  exact congr (congr (congr (congr (congrArg Tail.finish a3) a4) a5) a6) a7

/-- The finishing arithmetic on those arrays is `kernelLoss` of the argument arrays. -/
theorem result_value (c : Dev nD) (j : S_.Idx) :
    Tail.finish (G3 m c) (G4 m c) (G5 m c) (G6 m c) (G7 m c) j
      = kernelLoss (m ((c : Thread nD τ).loc main_arg0)) (m ((c : Thread nD τ).loc main_arg1)) (m ((c : Thread nD τ).loc main_arg2)) := by
  rw [Tail.finish_apply]
  have e3 : ∀ b : Fin 2, G3 m c (ix3 b 0 0) = s0 (m ((c : Thread nD τ).loc main_arg0)) (m ((c : Thread nD τ).loc main_arg1)) b :=
    fun b => out3_value m c b
  have e4 : ∀ (b : Fin 2) (cc : Fin 3), G4 m c (ix3 b 0 cc) = mn (m ((c : Thread nD τ).loc main_arg1)) (m ((c : Thread nD τ).loc main_arg2)) b cc.succ :=
    fun b cc => out4_value m c b cc
  have e5 : ∀ (b : Fin 2) (cc : Fin 3), G5 m c (ix3 b 0 cc) = mx (m ((c : Thread nD τ).loc main_arg1)) (m ((c : Thread nD τ).loc main_arg2)) b cc.succ :=
    fun b cc => out5_value m c b cc
  have e6 : ∀ (b : Fin 2) (cc : Fin 3), G6 m c (ix3 b 0 cc) = szl (m ((c : Thread nD τ).loc main_arg0)) (m ((c : Thread nD τ).loc main_arg1)) (m ((c : Thread nD τ).loc main_arg2)) b cc.succ :=
    fun b cc => out6_value m c b cc
  have e7 : ∀ (b : Fin 2) (cc : Fin 3), G7 m c (ix3 b 0 cc) = sl (m ((c : Thread nD τ).loc main_arg0)) b cc.succ :=
    fun b cc => out7_value m c b cc
  simp only [e3, e4, e5, e6, e7]
  rfl

/-- The run: the result buffer at `kernelLoss` of the arguments, the arguments unchanged. -/
theorem run : θ_run defs (onTc (τ := τ) (main (F := Ideal))) ⟨m, fun _ => 0, ρ⟩ (fun r => ∀ c : Dev nD,
      r.2.mem ((c.tc : Thread nD τ).loc main_v20)
        = (fun _ => kernelLoss (m ((c.tc : Thread nD τ).loc main_arg0)) (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v20 (Pipeline.mem_restRefs_of main_v20 (by decide) (by decide))).trans
        ((tail_eq m c).trans (funext fun j => result_value m c j)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KValue

end
-- ==== Proof.RefValue.lean ====
/-
  The voxel-by-voxel program read stage by stage.

  Each intermediate array of the program, read at explicit coordinates (batch b, class c, depth d, row h,
  column w), is the corresponding quantity of the specification: the indicator of the label, its product
  with the distance, the per-(batch, class) minimum and maximum of that product, the normalised target,
  the log-probability. The last stages sum target · log-probability over the classes and then over every
  voxel, divide by the number of voxels and negate: the program's one result is `refLoss`.
-/
import proofs.«152530_j15169824489490_2_alg».proof.Proof.RefReadP
import proofs.«152530_j15169824489490_2_alg».proof.Proof.Spec

noncomputable section

namespace Cert.ReferenceIdeal.RefValue

open Cert.SoftCE Cert.ReferenceIdeal Cert.ReferenceIdeal.Read Idealize.ShloMosaic Idealize.ShloMosaic.ValueIdx

/-- Two indices of rank 2 with the same coordinates are equal. -/
local macro "idx_rfl2" : tactic =>
  `(tactic| (funext a; match a with | ⟨0, _⟩ => rfl | ⟨1, _⟩ => rfl))
/-- Two indices of rank 4 with the same coordinates are equal. -/
local macro "idx_rfl4" : tactic =>
  `(tactic| (funext a; match a with | ⟨0, _⟩ => rfl | ⟨1, _⟩ => rfl | ⟨2, _⟩ => rfl | ⟨3, _⟩ => rfl))
/-- Two indices of rank 5 with the same coordinates are equal. -/
local macro "idx_rfl5" : tactic =>
  `(tactic| (funext a; match a with | ⟨0, _⟩ => rfl | ⟨1, _⟩ => rfl | ⟨2, _⟩ => rfl | ⟨3, _⟩ => rfl | ⟨4, _⟩ => rfl))

/-! ## Sums, minima and maxima over an index set, by coordinates -/

/-- A rank-4 index set is the product of its four coordinate ranges … -/
private def idxEquiv4 {n0 n1 n2 n3 : Nat} :
    (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- … so a sum over it is the fourfold sum over the coordinates. -/
private theorem sum_idx4 {M : Type*} [AddCommMonoid M] {n0 n1 n2 n3 : Nat}
    (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f]
  simp only [Fintype.sum_prod_type]
  rfl

/-- Removing the three voxel coordinates of a (batch, class, depth, row, column) index leaves (batch, class). -/
private theorem drop_234 (hr : S2x3x128x192x192.ReducesTo [2, 3, 4] S2x3) (i : S2x3x128x192x192.Idx) :
    hr.drop i = ix2 (i 0 : Fin 2) (i 1 : Fin 3) := by
  funext a
  match a with
  | ⟨0, _⟩ => exact Fin.ext (hr.drop_apply_val_of_eq i 0 0)
  | ⟨1, _⟩ => exact Fin.ext (hr.drop_apply_val_of_eq i 1 1)

/-- The fold of `min` from `⊤` over the indices of one (batch, class) is the infimum over the voxels:
    both are the greatest lower bound of the same family. -/
private theorem fold_min_eq (hr : S2x3x128x192x192.ReducesTo [2, 3, 4] S2x3) (x : S2x3x128x192x192.Idx → EReal)
    (b : Fin 2) (c : Fin 3) :
    (Finset.univ.filter fun i => hr.drop i = ix2 b c).fold min ⊤ x
      = ⨅ d : Fin 128, ⨅ h : Fin 192, ⨅ w : Fin 192, x (ix5 b c d h w) := by
  refine eq_of_forall_le_iff fun a => ?_
  rw [Finset.le_fold_min]
  simp only [le_top, true_and, le_iInf_iff, Finset.mem_filter, Finset.mem_univ]
  constructor
  · intro H d h w
    exact H _ ((drop_234 hr _).trans rfl)
  · intro H i hi
    obtain ⟨b', c', d, h, w, rfl⟩ :
        ∃ (b' : Fin 2) (c' : Fin 3) (d : Fin 128) (h w : Fin 192), i = ix5 b' c' d h w :=
      ⟨_, _, _, _, _, eq_ix5 i⟩
    rw [drop_234] at hi
    obtain rfl : b' = b := congrFun hi 0
    obtain rfl : c' = c := congrFun hi 1
    exact H d h w

/-- The fold of `max` from `⊥` over the indices of one (batch, class) is the supremum over the voxels. -/
private theorem fold_max_eq (hr : S2x3x128x192x192.ReducesTo [2, 3, 4] S2x3) (x : S2x3x128x192x192.Idx → EReal)
    (b : Fin 2) (c : Fin 3) :
    (Finset.univ.filter fun i => hr.drop i = ix2 b c).fold max ⊥ x
      = ⨆ d : Fin 128, ⨆ h : Fin 192, ⨆ w : Fin 192, x (ix5 b c d h w) := by
  refine eq_of_forall_ge_iff fun a => ?_
  rw [Finset.fold_max_le]
  simp only [bot_le, true_and, iSup_le_iff, Finset.mem_filter, Finset.mem_univ]
  constructor
  · intro H d h w
    exact H _ ((drop_234 hr _).trans rfl)
  · intro H i hi
    obtain ⟨b', c', d, h, w, rfl⟩ :
        ∃ (b' : Fin 2) (c' : Fin 3) (d : Fin 128) (h w : Fin 192), i = ix5 b' c' d h w :=
      ⟨_, _, _, _, _, eq_ix5 i⟩
    rw [drop_234] at hi
    obtain rfl : b' = b := congrFun hi 0
    obtain rfl : c' = c := congrFun hi 1
    exact H d h w

/-- A minimum reduction over the voxel axes, started from `⊤`, is the infimum over the voxels. -/
private theorem reduce_min (hr : S2x3x128x192x192.ReducesTo [2, 3, 4] S2x3) (hu : 0 < S_.numel)
    (x : FVec Ideal S2x3x128x192x192 .f32) (init : S_.Idx → Ideal .f32)
    (hi : init (Shape.Idx.first hu) = ⊤) (b : Fin 2) (c : Fin 3) :
    Host.reduce FloatOps.minimumf x init hr hu (ix2 b c)
      = ⨅ d : Fin 128, ⨅ h : Fin 192, ⨅ w : Fin 192, x (ix5 b c d h w) := by
  rw [Host.reduce_eq_fold, hi]
  exact fold_min_eq hr x b c

/-- A maximum reduction over the voxel axes, started from `⊥`, is the supremum over the voxels. -/
private theorem reduce_max (hr : S2x3x128x192x192.ReducesTo [2, 3, 4] S2x3) (hu : 0 < S_.numel)
    (x : FVec Ideal S2x3x128x192x192 .f32) (init : S_.Idx → Ideal .f32)
    (hi : init (Shape.Idx.first hu) = ⊥) (b : Fin 2) (c : Fin 3) :
    Host.reduce FloatOps.maximumf x init hr hu (ix2 b c)
      = ⨆ d : Fin 128, ⨆ h : Fin 192, ⨆ w : Fin 192, x (ix5 b c d h w) := by
  rw [Host.reduce_eq_fold, hi]
  exact fold_max_eq hr x b c

/-- A maximum reduction over the class axis, started from `⊥`, is the fold of `max` over the four classes. -/
private theorem reduce_vmax (hr : S2x4x128x192x192.ReducesTo [1] S2x128x192x192) (hu : 0 < S_.numel)
    (x : FVec Ideal S2x4x128x192x192 .f32) (init : S_.Idx → Ideal .f32)
    (hi : init (Shape.Idx.first hu) = ⊥) (b : Fin 2) (d : Fin 128) (h w : Fin 192) :
    Host.reduce FloatOps.maximumf x init hr hu (ix4 b d h w)
      = (Finset.univ : Finset (Fin 4)).fold max ⊥ (fun k => x (ix5 b k d h w)) := by
  rw [Host.reduce_eq_fold_single FloatOps.maximumf x init hr (by decide) hu, hi]
  refine congrArg (Finset.fold max ⊥ · Finset.univ) (funext fun k => ?_)
  exact congrArg x (funext fun a => Fin.ext (by
    match a with | ⟨0, _⟩ => rfl | ⟨1, _⟩ => rfl | ⟨2, _⟩ => rfl | ⟨3, _⟩ => rfl | ⟨4, _⟩ => rfl))

/-- The f32 pattern of +∞ is `⊤` … -/
private theorem ofBits_pinf : Ideal.ofBits .f32 0x7F800000#32 = ⊤ := by simp [Ideal.ofBits, Ideal.ieee]
/-- … and that of -∞ is `⊥`. -/
private theorem ofBits_ninf : Ideal.ofBits .f32 0xFF800000#32 = ⊥ := by simp [Ideal.ofBits, Ideal.ieee]

/-- The one-bit result of an equality test, converted to a float, is the indicator of the equality. -/
private theorem uitofp_cmpi_eq (x y : BitVec 32) :
    (FloatOps.uitofp (F := Ideal) .f32 (IntOp.cmpi .eq x y) : EReal) = if x = y then 1 else 0 := by
  show (((IntOp.cmpi .eq x y).toNat : ℝ) : EReal) = _
  by_cases h : x = y
  · rw [if_pos h]; simp [IntOp.cmpi, h]
  · rw [if_neg h]; simp [IntOp.cmpi, h]

/-! ## The stages at explicit coordinates -/

section Stages

variable (X : (⟨S2x4x128x192x192, .f32⟩ : BufTy).Contents (Elt Ideal))
  (T : (⟨S2x1x128x192x192, .i32⟩ : BufTy).Contents (Elt Ideal))
  (D : (⟨S2x128x192x192, .f32⟩ : BufTy).Contents (Elt Ideal))
  (b : Fin 2) (c : Fin 4) (c' : Fin 3) (d : Fin 128) (h w : Fin 192)

/-- The one-hot array at class `c` is the indicator that the voxel's label is `c`. -/
theorem v5_at : val_main_v5 (F := Ideal) T (ix5 b c d h w) = hot (tg T b d h w) c.val := by
  have e2 : idx_main_v2 (ix5 b c d h w) = ix5 b (0 : Fin 1) d h w := by idx_rfl5
  have e1 : ((idx_main_v1 (idx_main_v3 (ix5 b c d h w))) 0).val = c.val := by
    show (((0 * 4 + c.val) * 1 + 0) * 1 + 0) * 1 + 0 = c.val
    omega
  rw [val_main_v5_apply, val_main_v4_apply, val_main_v2_apply, val_main_v3_apply, val_main_v1_apply,
    val_main_v0_apply, e2, e1, uitofp_cmpi_eq]
  rfl

/-- The indicator of a class `c' + 1` times the distance. -/
theorem v9_at : val_main_v9 (F := Ideal) T D (ix5 b c' d h w) = zz T D b c'.succ d h w := by
  have e6 : idx_main_v6 (ix5 b c' d h w) = ix5 b c'.succ d h w := by
    funext a
    match a with
    | ⟨0, _⟩ => rfl
    | ⟨1, _⟩ => exact Fin.ext (Nat.add_comm 1 c'.val)
    | ⟨2, _⟩ => rfl
    | ⟨3, _⟩ => rfl
    | ⟨4, _⟩ => rfl
  have e8 : idx_main_v7 (idx_main_v8 (ix5 b c' d h w)) = ix4 b d h w := by idx_rfl4
  rw [val_main_v9_apply, val_main_v6_apply, val_main_v8_apply, val_main_v7_apply, e6, e8, v5_at]
  rfl

/-- The minimum of that product over the voxels of a batch. -/
theorem v10_at : val_main_v10 (F := Ideal) T D (ix2 b c') = mn T D b c'.succ := by
  unfold val_main_v10
  rw [reduce_min _ _ _ _ (by rw [val_main_cst_apply]; exact ofBits_pinf) b c']
  unfold mn
  simp only [v9_at]

/-- The maximum of that product over the voxels of a batch. -/
theorem v12_at : val_main_v12 (F := Ideal) T D (ix2 b c') = mx T D b c'.succ := by
  unfold val_main_v12
  rw [reduce_max _ _ _ _ (by rw [val_main_cst_0_apply]; exact ofBits_ninf) b c']
  unfold mx
  simp only [v9_at]

/-- The minimum, broadcast back over the voxels. -/
theorem v14_at : val_main_v14 (F := Ideal) T D (ix5 b c' d h w) = mn T D b c'.succ :=
  (val_main_v14_apply T D _).trans ((val_main_v11_apply T D _).trans
    ((congrArg (val_main_v10 (F := Ideal) T D)
      (by idx_rfl2 : idx_main_v11 (idx_main_v14 (ix5 b c' d h w)) = ix2 b c')).trans (v10_at T D b c')))

/-- The denominator (maximum + ε) - minimum, broadcast back over the voxels. -/
theorem v19_at : val_main_v19 (F := Ideal) T D (ix5 b c' d h w) = den T D b c'.succ := by
  have e13 : idx_main_v13 (idx_main_v19 (ix5 b c' d h w)) = ix2 b c' := by idx_rfl2
  have e11 : idx_main_v11 (idx_main_v19 (ix5 b c' d h w)) = ix2 b c' := by idx_rfl2
  rw [val_main_v19_apply, val_main_v18_apply, val_main_v17_apply, val_main_v13_apply, val_main_v11_apply,
    val_main_v16_apply, val_main_cst_1_apply, e13, e11, v12_at, v10_at]
  rfl

/-- The normalised target of a class `c' + 1`. -/
theorem v20_at : val_main_v20 (F := Ideal) T D (ix5 b c' d h w)
    = Ideal.div (zz T D b c'.succ d h w - mn T D b c'.succ) (den T D b c'.succ) := by
  rw [val_main_v20_apply, val_main_v15_apply, v9_at, v14_at, v19_at]
  rfl

/-- The target of class 0: the indicator itself. -/
theorem v21_at : val_main_v21 (F := Ideal) T (ix5 b (0 : Fin 1) d h w) = hot (tg T b d h w) 0 :=
  (val_main_v21_apply T _).trans ((congrArg (val_main_v5 (F := Ideal) T)
    (by idx_rfl5 : idx_main_v21 (ix5 b (0 : Fin 1) d h w) = ix5 b (0 : Fin 4) d h w)).trans
      (v5_at T b 0 d h w))

/-- The joined targets at class 0 read the first piece … -/
theorem v22_zero : val_main_v22 (F := Ideal) T D (ix5 b (0 : Fin 4) d h w) = hot (tg T b d h w) 0 := by
  unfold val_main_v22
  refine (concatenate_pair_apply_left (t := S2x4x128x192x192) (s₁ := S2x1x128x192x192)
    (s₂ := S2x3x128x192x192) 1 _ _ _ (ix5 b (0 : Fin 4) d h w) rfl (ix5 b (0 : Fin 1) d h w)
    (fun a => ?_)).trans (v21_at T b d h w)
  match a with
  | ⟨0, _⟩ => rfl
  | ⟨1, _⟩ => rfl
  | ⟨2, _⟩ => rfl
  | ⟨3, _⟩ => rfl
  | ⟨4, _⟩ => rfl

/-- … and at a class `c' + 1` the second piece at `c'`. -/
theorem v22_succ : val_main_v22 (F := Ideal) T D (ix5 b c'.succ d h w)
    = Ideal.div (zz T D b c'.succ d h w - mn T D b c'.succ) (den T D b c'.succ) := by
  unfold val_main_v22
  refine (concatenate_pair_apply_right (t := S2x4x128x192x192) (s₁ := S2x1x128x192x192)
    (s₂ := S2x3x128x192x192) 1 _ _ _ (ix5 b c'.succ d h w) rfl rfl (ix5 b c' d h w)
    (fun a ha => ?_) ?_).trans (v20_at T D b c' d h w)
  · match a, ha with
    | ⟨0, _⟩, _ => rfl
    | ⟨1, _⟩, ha => exact absurd rfl ha
    | ⟨2, _⟩, _ => rfl
    | ⟨3, _⟩, _ => rfl
    | ⟨4, _⟩, _ => rfl
  · rfl

/-- The joined targets are the soft targets. -/
theorem v22_at : val_main_v22 (F := Ideal) T D (ix5 b c d h w) = soft T D b c d h w := by
  cases c using Fin.cases with
  | zero => exact (v22_zero T D b d h w).trans (by unfold soft; rw [if_pos rfl])
  | succ c' => exact (v22_succ T D b c' d h w).trans (by unfold soft; rw [if_neg (Fin.succ_ne_zero c')])

/-- The shift of the log-softmax: the largest of the voxel's four logits. -/
theorem vmax_at : val_main_call0_v2 (F := Ideal) X (ix4 b d h w) = vmax (xs X b d h w) := by
  rw [val_main_call0_v2_apply, val_main_call0_v1_apply, val_main_call0_cst_0_apply]
  unfold val_main_call0_v0
  rw [reduce_vmax _ _ _ _ (by rw [val_main_call0_cst_apply]; exact ofBits_ninf) b d h w]
  show max (Ideal.ofBits .f32 0xFF800000#32) _ = _
  rw [ofBits_ninf, max_bot_left]
  rfl

/-- The shifted logit. -/
theorem shifted_at : val_main_call0_v5 (F := Ideal) X (ix5 b c d h w)
    = X (ix5 b c d h w) - vmax (xs X b d h w) := by
  have e : idx_main_call0_v3 (idx_main_call0_v4 (ix5 b c d h w)) = ix4 b d h w := by idx_rfl4
  rw [val_main_call0_v5_apply, val_main_call0_v4_apply, val_main_call0_v3_apply, e, vmax_at]
  rfl

/-- The sum over the classes of the exponentials of the shifted logits. -/
theorem sumexp_at : val_main_call0_v7 (F := Ideal) X (ix4 b d h w)
    = ∑ k : Fin 4, Ideal.exp (X (ix5 b k d h w) - vmax (xs X b d h w)) := by
  rw [val_main_call0_v7_apply, val_main_call0_cst_1_apply]
  show Ideal.ofBits .f32 0x00000000#32 + _ = _
  rw [Ideal.ofBits_zero_f32, zero_add]
  refine Finset.sum_congr rfl fun k _ => ?_
  have e : idx_main_call0_v7 (ix4 b d h w) k = ix5 b k d h w := by idx_rfl5
  rw [val_main_call0_v6_apply, e, shifted_at]
  rfl

/-- The log-probability. -/
theorem v23_at : val_main_v23 (F := Ideal) X (ix5 b c d h w) = lp X b c d h w := by
  have e : idx_main_call0_v8 (idx_main_call0_v10 (ix5 b c d h w)) = ix4 b d h w := by idx_rfl4
  rw [val_main_v23_apply, val_main_call0_v10_apply, val_main_call0_v9_apply, val_main_call0_v8_apply, e,
    sumexp_at, shifted_at]
  rfl

/-- The sum over the classes of target · log-probability at a voxel. -/
theorem v25_at : val_main_v25 (F := Ideal) X T D (ix4 b d h w)
    = ∑ k : Fin 4, soft T D b k d h w * lp X b k d h w := by
  rw [val_main_v25_apply, val_main_cst_2_apply]
  show Ideal.ofBits .f32 0x00000000#32 + _ = _
  rw [Ideal.ofBits_zero_f32, zero_add]
  refine Finset.sum_congr rfl fun k _ => ?_
  have e : idx_main_v25 (ix4 b d h w) k = ix5 b k d h w := by idx_rfl5
  rw [val_main_v24_apply, e, v22_at, v23_at]
  rfl

end Stages

/-! ## The result -/

/-- The program's result is minus the mean, over batches and voxels, of Σ_c target_c · logp_c. -/
theorem ref_value (X : (⟨S2x4x128x192x192, .f32⟩ : BufTy).Contents (Elt Ideal))
    (T : (⟨S2x1x128x192x192, .i32⟩ : BufTy).Contents (Elt Ideal))
    (D : (⟨S2x128x192x192, .f32⟩ : BufTy).Contents (Elt Ideal)) :
    val_main_v28 (F := Ideal) X T D = fun _ => Cert.SoftCE.refLoss X T D := by
  funext i
  rw [val_main_v28_apply, val_main_v27_apply, val_main_v26_apply, val_main_cst_3_apply, val_main_cst_4_apply]
  show -(Ideal.div (Ideal.ofBits .f32 0x00000000#32 + ∑ j, val_main_v25 (F := Ideal) X T D j)
    (Ideal.ofBits .f32 0x4B100000#32)) = _
  rw [Ideal.ofBits_zero_f32, zero_add, sum_idx4]
  simp only [v25_at]
  rfl

end Cert.ReferenceIdeal.RefValue

end
-- ==== Proof.Algebra.lean ====
/-
  The two closed forms of the loss agree when every entry is a real number.

  With every logit real, the largest of a voxel's four logits is one of them, hence real; the shifted logits are
  real, their exponentials are positive reals, so is their sum, and its logarithm is real: every log-probability
  is real.  The indicator is 0 or 1, so the indicator times the distance is real.  Over the finitely many voxels
  of a batch the minimum and the maximum of that product are attained, hence real, with minimum ≤ maximum; ε is
  a positive real, so the denominator (maximum + ε) - minimum is a positive real and dividing by it is
  multiplying by its reciprocal.  For one (batch, class ≥ 1),

      Σ_v ((z_v - mn) / den) · l_v  =  (Σ_v z_v · l_v  -  mn · Σ_v l_v) / den

  is distributivity over the reals.  Summing over the classes (class 0 carries the bare indicator), exchanging
  the sum over classes with the sum over voxels, summing over the batches, and moving the final negation through
  the division by the (nonzero, real) voxel count gives the identity.
-/
import Idealize.ShloMosaic.PureOps.Ideal.Laws
import Idealize.ShloMosaic.Lib.ValueIdx
import proofs.«152530_j15169824489490_2_alg».proof.Proof.Spec

noncomputable section

namespace Cert.SoftCE

open Idealize.ShloMosaic Idealize.ShloMosaic.ValueIdx

/-! ## The two literals -/

/-- ε is the positive real 11258999 · 2⁻⁵⁰. -/
theorem eps_eq : eps = ((11258999 * (2 : ℝ) ^ (-50 : ℤ) : ℝ) : EReal) := by
  simp [eps, Ideal.ofBits, Ideal.ieee, -EReal.coe_mul]

theorem eps_pos : ∃ r : ℝ, 0 < r ∧ eps = (r : EReal) :=
  ⟨11258999 * (2 : ℝ) ^ (-50 : ℤ), by positivity, eps_eq⟩

/-- The voxel count is the real 9437184. -/
theorem cnt_eq : cnt = ((9437184 : ℝ) : EReal) := by
  simp [cnt, Ideal.ofBits, Ideal.ieee, -EReal.coe_mul]

/-! ## Finite sums of reals inside the extended reals -/

theorem coe_finsum {ι : Type*} (s : Finset ι) (f : ι → ℝ) :
    ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

/-! ## Every per-voxel quantity is real -/

/-- The log-probabilities of a voxel with real logits are real. -/
theorem logp_real (x : Fin 4 → EReal) (hx : ∀ k, ∃ r : ℝ, x k = (r : EReal)) (c : Fin 4) :
    ∃ r : ℝ, logp x c = (r : EReal) := by
  choose r hr using hx
  obtain ⟨i, -, hi⟩ :=
    Finset.exists_mem_eq_sup (Finset.univ : Finset (Fin 4)) Finset.univ_nonempty x
  have hm : vmax x = (r i : EReal) := by rw [← hr i]; exact hi
  have hpos : 0 < ∑ k : Fin 4, Real.exp (r k - r i) :=
    Finset.sum_pos (fun k _ => Real.exp_pos _) Finset.univ_nonempty
  have hsum : ∑ k : Fin 4, Ideal.exp (x k - (r i : EReal))
      = ((∑ k : Fin 4, Real.exp (r k - r i) : ℝ) : EReal) := by
    rw [coe_finsum]
    refine Finset.sum_congr rfl fun k _ => ?_
    rw [hr k, ← EReal.coe_sub, Ideal.exp_coe]
  refine ⟨(r c - r i) - Real.log (∑ k : Fin 4, Real.exp (r k - r i)), ?_⟩
  unfold logp
  rw [hm, hsum, Ideal.log_coe, if_neg (not_le.mpr hpos), hr c, ← EReal.coe_sub, ← EReal.coe_sub]

/-- The indicator is the real 0 or 1. -/
theorem hot_real (t : BitVec 32) (c : ℕ) : ∃ r : ℝ, hot t c = (r : EReal) := by
  unfold hot
  split_ifs
  · exact ⟨1, by simp⟩
  · exact ⟨0, by simp⟩

/-! ## One (batch, class): distributivity -/

/-- Over the reals: Σ ((z - m) / dd) · l = (Σ z · l - m · Σ l) / dd. -/
theorem core_coe {ι : Type*} [Fintype ι] (z l : ι → ℝ) (m dd : ℝ) (hdd : dd ≠ 0) :
    ∑ v, Ideal.div ((z v : EReal) - (m : EReal)) (dd : EReal) * (l v : EReal)
      = Ideal.div ((∑ v, (z v : EReal) * (l v : EReal)) - (m : EReal) * ∑ v, (l v : EReal))
          (dd : EReal) := by
  simp only [Ideal.div_coe hdd, ← EReal.coe_sub, ← EReal.coe_mul, ← coe_finsum]
  rw [EReal.coe_eq_coe_iff, Finset.mul_sum, ← Finset.sum_sub_distrib, Finset.sum_mul]
  exact Finset.sum_congr rfl fun v _ => by ring

/-- The same with the minimum and the maximum of real values over a finite nonempty index set. -/
theorem core {ι : Type*} [Fintype ι] [Nonempty ι] (Z L : ι → EReal) (e : EReal)
    (hZ : ∀ v, ∃ r : ℝ, Z v = (r : EReal)) (hL : ∀ v, ∃ r : ℝ, L v = (r : EReal))
    (he : ∃ r : ℝ, 0 < r ∧ e = (r : EReal)) :
    ∑ v, Ideal.div (Z v - ⨅ u, Z u) (((⨆ u, Z u) + e) - ⨅ u, Z u) * L v
      = Ideal.div ((∑ v, Z v * L v) - (⨅ u, Z u) * ∑ v, L v) (((⨆ u, Z u) + e) - ⨅ u, Z u) := by
  choose z hz using hZ
  choose l hl using hL
  obtain ⟨er, hpos, rfl⟩ := he
  obtain ⟨i, hi⟩ := exists_eq_ciInf_of_finite (f := Z)
  obtain ⟨j, hj⟩ := exists_eq_ciSup_of_finite (f := Z)
  have hij : z i ≤ z j := by
    have h1 : Z i ≤ Z j := by rw [hi, hj]; exact iInf_le_iSup
    rwa [hz, hz, EReal.coe_le_coe_iff] at h1
  rw [← hi, ← hj]
  obtain rfl : Z = fun v => (z v : EReal) := funext hz
  obtain rfl : L = fun v => (l v : EReal) := funext hl
  have hden : ((z j : EReal) + (er : EReal)) - (z i : EReal) = ((z j + er - z i : ℝ) : EReal) := by
    rw [EReal.coe_sub, EReal.coe_add]
  have hdd : 0 < z j + er - z i := by linarith
  rw [hden]
  exact core_coe z l (z i) (z j + er - z i) hdd.ne'

/-! ## One batch: the four classes -/

theorem batch_identity {ι : Type*} [Fintype ι] [Nonempty ι]
    (L : Fin 4 → ι → EReal) (H0 : ι → EReal) (Z : Fin 4 → ι → EReal) (e : EReal)
    (hL : ∀ c v, ∃ r : ℝ, L c v = (r : EReal)) (hZ : ∀ c v, ∃ r : ℝ, Z c v = (r : EReal))
    (he : ∃ r : ℝ, 0 < r ∧ e = (r : EReal)) :
    ∑ v, ∑ c : Fin 4,
        (if c = 0 then H0 v
          else Ideal.div (Z c v - ⨅ u, Z c u) (((⨆ u, Z c u) + e) - ⨅ u, Z c u)) * L c v
      = (∑ v, H0 v * L 0 v)
        + ∑ c : Fin 3,
            Ideal.div ((∑ v, Z c.succ v * L c.succ v) - (⨅ u, Z c.succ u) * ∑ v, L c.succ v)
              (((⨆ u, Z c.succ u) + e) - ⨅ u, Z c.succ u) := by
  rw [Finset.sum_comm, Fin.sum_univ_succ]
  simp only [↓reduceIte, Fin.succ_ne_zero]
  congr 1
  exact Finset.sum_congr rfl fun c _ => core (Z c.succ) (L c.succ) e (hZ _) (hL _) he

/-! ## The identity -/

theorem kernelLoss_eq_refLoss (X : SX.Idx → EReal) (T : ST.Idx → BitVec 32) (D : SD.Idx → EReal)
    (hX : ∀ i, ∃ r : ℝ, X i = (r : EReal)) (hD : ∀ i, ∃ r : ℝ, D i = (r : EReal)) :
    kernelLoss X T D = refLoss X T D := by
  have hlp : ∀ b c d h w, ∃ r : ℝ, lp X b c d h w = (r : EReal) := fun b c d h w =>
    logp_real _ (fun k => hX _) c
  have hzz : ∀ b c d h w, ∃ r : ℝ, zz T D b c d h w = (r : EReal) := fun b c d h w => by
    obtain ⟨a, ha⟩ := hot_real (tg T b d h w) c.val
    obtain ⟨e, he⟩ := hD (ix4 b d h w)
    exact ⟨a * e, by rw [zz, ha, he, EReal.coe_mul]⟩
  have hb : ∀ b : Fin 2,
      (∑ d : Fin 128, ∑ h : Fin 192, ∑ w : Fin 192, ∑ c : Fin 4,
          soft T D b c d h w * lp X b c d h w)
        = s0 X T b + ∑ c : Fin 3,
            Ideal.div (szl X T D b c.succ - mn T D b c.succ * sl X b c.succ) (den T D b c.succ) := by
    intro b
    have key := batch_identity (ι := Fin 128 × Fin 192 × Fin 192)
      (fun c v => lp X b c v.1 v.2.1 v.2.2) (fun v => hot (tg T b v.1 v.2.1 v.2.2) 0)
      (fun c v => zz T D b c v.1 v.2.1 v.2.2) eps
      (fun c v => hlp b c _ _ _) (fun c v => hzz b c _ _ _) eps_pos
    simp only [Fintype.sum_prod_type, iInf_prod, iSup_prod] at key
    simp only [soft, s0, szl, sl, den, mn, mx]
    exact key
  unfold kernelLoss refLoss
  rw [← Finset.sum_add_distrib, Finset.sum_congr rfl (fun b _ => hb b), cnt_eq,
    Ideal.div_coe (by norm_num), Ideal.div_coe (by norm_num), EReal.neg_mul]

end Cert.SoftCE

end
-- ==== Proof.Finite.lean ====
/-
  Every float input is a real number.

  The precondition is the conjunction of two "all" tests, one per float array: each says that every
  entry x satisfies |x| < +∞, where |x| = max x (-x) on the extended reals. An "all" test is a fold of
  "and" from 1; if the fold is 1, every element tested is 1. An entry with max x (-x) < ⊤ is neither ⊤
  (then max is ⊤) nor ⊥ (then -x is ⊤), so it is the image of a real.
-/
import Idealize.ShloMosaic.Lib.ReduceAll
import Idealize.ShloMosaic.Lib.ValueIdx
import Idealize.ShloMosaic.PureOps.Ideal
import proofs.«152530_j15169824489490_2_alg».proof.Pre_finite_inputs

noncomputable section

namespace Cert.Proof.Finite

open Idealize.ShloMosaic

/-- The pattern of +∞ denotes the top of the extended reals. -/
theorem ofBits_inf : Ideal.ofBits .f32 0x7F800000#32 = (⊤ : EReal) := by simp [Ideal.ofBits, Ideal.ieee]

/-- An extended real whose absolute value max x (-x) is below ⊤ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- The comparison |x| < +∞ coming out 1 says x is a real number. -/
theorem real_of_cmp (x : EReal)
    (h : Ideal.cmp .olt (max x (-x)) (Ideal.ofBits .f32 0x7F800000#32) = 1#1) : ∃ r : ℝ, x = (r : EReal) := by
  rw [ofBits_inf] at h
  have h' : BitVec.ofBool (decide (max x (-x) < ⊤)) = 1#1 := h
  refine real_of_abs_lt_top x ?_
  by_contra hn
  rw [decide_eq_false hn] at h'
  exact absurd h' (by decide)

instance : Subsingleton Cert.Pre_finite_inputs.S_.Idx := ⟨fun a b => funext fun d => d.elim0⟩

theorem real_of_pre [Cert.Pre_finite_inputs.Facts]
    (X : FVec Ideal Cert.Pre_finite_inputs.S2x4x128x192x192 .f32)
    (T : IVec Cert.Pre_finite_inputs.S2x1x128x192x192 32)
    (D : FVec Ideal Cert.Pre_finite_inputs.S2x128x192x192 .f32)
    (h : Cert.Pre_finite_inputs.fn (F := Ideal) X T D = fun _ => 1#1) :
    (∀ i, ∃ r : ℝ, X i = (r : EReal)) ∧ (∀ i, ∃ r : ℝ, D i = (r : EReal)) := by
  have h0 := congrFun h ValueIdx.ix0
  dsimp only [Cert.Pre_finite_inputs.fn] at h0
  obtain ⟨hX, hD⟩ := IntOp.andi_eq_one.1 h0
  refine ⟨fun i => ?_, fun i => ?_⟩
  · have e := Host.reduce_andi_all _ _ _ _ _ hX i
    exact real_of_cmp (X i) e
  · have e := Host.reduce_andi_all _ _ _ _ _ hD i
    exact real_of_cmp (D i) e

end Cert.Proof.Finite

end
-- ==== Proof.lean ====
/-
  The certificate of the soft-target cross-entropy kernel against its voxel-by-voxel reference.

  The three frames are the generated ones (the reference's is its generated run with the result dropped).
  The idealization rewrote nothing, so there is nothing to preserve.  The value claim: at the extended
  reals the accumulating program ends with `kernelLoss` of the argument arrays (the folds over the grid,
  then the finishing arithmetic) and the reference with `refLoss` of the same arrays; under the
  precondition every float entry is a real number, and then the two are equal — the per-(batch, class)
  identity  Σ_v ((z_v - mn)/den)·l_v = (Σ_v z_v·l_v - mn·Σ_v l_v)/den  with den ≥ ε > 0.
-/
import proofs.«152530_j15169824489490_2_alg».proof.Defs
import proofs.«152530_j15169824489490_2_alg».proof.Proof.Gen.Kernel
import proofs.«152530_j15169824489490_2_alg».proof.Proof.Gen.Kernel.Skeleton
import proofs.«152530_j15169824489490_2_alg».proof.Proof.Gen.Kernel.Launch
import proofs.«152530_j15169824489490_2_alg».proof.Proof.Gen.Kernel.Points
import proofs.«152530_j15169824489490_2_alg».proof.Proof.KernelFrameP
import proofs.«152530_j15169824489490_2_alg».proof.Proof.Gen.KernelIdeal
import proofs.«152530_j15169824489490_2_alg».proof.Proof.Gen.KernelIdeal.Skeleton
import proofs.«152530_j15169824489490_2_alg».proof.Proof.Gen.KernelIdeal.Launch
import proofs.«152530_j15169824489490_2_alg».proof.Proof.Gen.KernelIdeal.Points
import proofs.«152530_j15169824489490_2_alg».proof.Proof.KernelIdealFrameP
import proofs.«152530_j15169824489490_2_alg».proof.Proof.Gen.ReferenceIdeal
import proofs.«152530_j15169824489490_2_alg».proof.Proof.RefRunP
import proofs.«152530_j15169824489490_2_alg».proof.Proof.RefReadP
import proofs.«152530_j15169824489490_2_alg».proof.Proof.Gen.Pre_finite_inputs
import proofs.«152530_j15169824489490_2_alg».proof.Proof.KValue
import proofs.«152530_j15169824489490_2_alg».proof.Proof.RefValue
import proofs.«152530_j15169824489490_2_alg».proof.Proof.Algebra
import proofs.«152530_j15169824489490_2_alg».proof.Proof.Finite
import Idealize.ShloMosaic.Adequacy
import Idealize.ShloMosaic.Init

noncomputable section

namespace Cert.Proof

open Idealize.ShloMosaic Idealize.SL.Sem

theorem frame_k : Cert.frame_Kernel := fun m ρ _ => Cert.Kernel.GenP.frame m ρ

theorem frame_ki : Cert.frame_KernelIdeal := fun m ρ _ => Cert.KernelIdeal.GenP.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs end, from memories that agree on the arguments, with the same extended real. -/
theorem algebraic : Cert.algebraic_KernelIdeal_ReferenceIdeal := by
  intro m ρ m' ρ' hpre hagree
  refine ⟨fun c => fun _ => Cert.SoftCE.kernelLoss
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  obtain ⟨hX, hD⟩ := Cert.Proof.Finite.real_of_pre _ _ _ (hpre c)
  rw [Cert.ReferenceIdeal.Read.val_main_v28_eq, Cert.ReferenceIdeal.RefValue.ref_value, (hagree c).1, (hagree c).2.1, (hagree c).2.2]
  funext _
  exact (Cert.SoftCE.kernelLoss_eq_refLoss _ _ _ hX hD).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
